-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x196x768 : Shape := ⟨3, ![32, 196, 768]⟩
abbrev S32x128 : Shape := ⟨2, ![32, 128]⟩
abbrev S32x128x32000 : Shape := ⟨3, ![32, 128, 32000]⟩
abbrev S32x196 : Shape := ⟨2, ![32, 196]⟩
abbrev S_ : Shape := ⟨0, ![]⟩
abbrev S32x14 : Shape := ⟨2, ![32, 14]⟩

class Facts : Prop where
  bcast_S_S32x196x768 : S_.BroadcastsInDim S32x196x768 (![] : Fin 0 → Fin S32x196x768.rank)
  reducesTo_S32x196x768_S_d0_1_2 : S32x196x768.ReducesTo [0, 1, 2] S_
  h_S_ : 0 < S_.numel
  bcast_S_S32x128x32000 : S_.BroadcastsInDim S32x128x32000 (![] : Fin 0 → Fin S32x128x32000.rank)
  reducesTo_S32x128x32000_S_d0_1_2 : S32x128x32000.ReducesTo [0, 1, 2] S_
  bcast_S_S32x196 : S_.BroadcastsInDim S32x196 (![] : Fin 0 → Fin S32x196.rank)
  reducesTo_S32x196_S_d0_1 : S32x196.ReducesTo [0, 1] S_
  bcast_S_S32x128 : S_.BroadcastsInDim S32x128 (![] : Fin 0 → Fin S32x128.rank)
  reducesTo_S32x128_S_d0_1 : S32x128.ReducesTo [0, 1] S_
  reducesTo_S_S_d : S_.ReducesTo [] S_
  bcast_S_S32x14 : S_.BroadcastsInDim S32x14 (![] : Fin 0 → Fin S32x14.rank)
  reducesTo_S32x14_S_d0_1 : S32x14.ReducesTo [0, 1] S_

variable [Facts]

def fn_part2 {F : FTy → Type} [FloatOps F] (main_arg9 : FVec F S32x14 .f32) (main_arg10 : FVec F S32x128 .f32) (main_v31 : IVec S_ 1) (main_v32 : FVec F S32x14 .f32) (main_cst_12 : FVec F S_ .f32) : IVec S_ 1 :=
  let main_v33 : FVec F S32x14 .f32 := broadcastInDim S32x14 ![] bcast_S_S32x14 main_cst_12
  let main_v34 : IVec S32x14 1 := cmpf .olt main_v32 main_v33
  let main_c_13 : IVec S_ 1 := constantI S_ 1 1#1
  let main_v35 : IVec S_ 1 := (fun x v => Host.reduce IntOp.andi x v reducesTo_S32x14_S_d0_1 h_S_) main_v34 main_c_13
  let main_v36 : IVec S_ 1 := andi main_v31 main_v35
  let main_v37 : FVec F S32x14 .f32 := Host.absf main_arg9
  let main_cst_14 : FVec F S_ .f32 := constant S_ .f32 0x7F800000#32
  let main_v38 : FVec F S32x14 .f32 := broadcastInDim S32x14 ![] bcast_S_S32x14 main_cst_14
  let main_v39 : IVec S32x14 1 := cmpf .olt main_v37 main_v38
  let main_c_15 : IVec S_ 1 := constantI S_ 1 1#1
  let main_v40 : IVec S_ 1 := (fun x v => Host.reduce IntOp.andi x v reducesTo_S32x14_S_d0_1 h_S_) main_v39 main_c_15
  let main_v41 : IVec S_ 1 := andi main_v36 main_v40
  let main_v42 : FVec F S32x128 .f32 := Host.absf main_arg10
  let main_cst_16 : FVec F S_ .f32 := constant S_ .f32 0x7F800000#32
  let main_v43 : FVec F S32x128 .f32 := broadcastInDim S32x128 ![] bcast_S_S32x128 main_cst_16
  let main_v44 : IVec S32x128 1 := cmpf .olt main_v42 main_v43
  let main_c_17 : IVec S_ 1 := constantI S_ 1 1#1
  let main_v45 : IVec S_ 1 := (fun x v => Host.reduce IntOp.andi x v reducesTo_S32x128_S_d0_1 h_S_) main_v44 main_c_17
  let main_v46 : IVec S_ 1 := andi main_v41 main_v45
  main_v46

def fn_part1 {F : FTy → Type} [FloatOps F] (main_arg5 : FVec F S32x128 .f32) (main_arg6 : FVec F S_ .f32) (main_arg7 : FVec F S_ .f32) (main_arg8 : FVec F S32x14 .f32) (main_arg9 : FVec F S32x14 .f32) (main_arg10 : FVec F S32x128 .f32) (main_v13 : IVec S_ 1) (main_v16 : IVec S32x196 1) : IVec S_ 1 :=
  let main_c_5 : IVec S_ 1 := constantI S_ 1 1#1
  let main_v17 : IVec S_ 1 := (fun x v => Host.reduce IntOp.andi x v reducesTo_S32x196_S_d0_1 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S_ .f32 := Host.absf main_arg6
  let main_cst_8 : FVec F S_ .f32 := constant S_ .f32 0x7F800000#32
  let main_v25 : IVec S_ 1 := cmpf .olt main_v24 main_cst_8
  let main_c_9 : IVec S_ 1 := constantI S_ 1 1#1
  let main_v26 : IVec S_ 1 := (fun x v => Host.reduce IntOp.andi x v reducesTo_S_S_d h_S_) main_v25 main_c_9
  let main_v27 : IVec S_ 1 := andi main_v23 main_v26
  let main_v28 : FVec F S_ .f32 := Host.absf main_arg7
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S32x14 .f32 := Host.absf main_arg8
  let main_cst_12 : FVec F S_ .f32 := constant S_ .f32 0x7F800000#32
  fn_part2 (F := F) main_arg9 main_arg10 main_v31 main_v32 main_cst_12

def fn {F : FTy → Type} [FloatOps F] (main_arg0 : FVec F S32x196x768 .f32) (main_arg1 : IVec S32x128 32) (main_arg2 : FVec F S32x196x768 .f32) (main_arg3 : FVec F S32x128x32000 .f32) (main_arg4 : FVec F S32x196 .f32) (main_arg5 : FVec F S32x128 .f32) (main_arg6 : FVec F S_ .f32) (main_arg7 : FVec F S_ .f32) (main_arg8 : FVec F S32x14 .f32) (main_arg9 : FVec F S32x14 .f32) (main_arg10 : FVec F S32x128 .f32) : IVec S_ 1 :=
  let main_v0 : FVec F S32x196x768 .f32 := Host.absf main_arg0
  let main_cst : FVec F S_ .f32 := constant S_ .f32 0x7F800000#32
  let main_v1 : FVec F S32x196x768 .f32 := broadcastInDim S32x196x768 ![] bcast_S_S32x196x768 main_cst
  let main_v2 : IVec S32x196x768 1 := cmpf .olt main_v0 main_v1
  let main_c : IVec S_ 1 := constantI S_ 1 1#1
  let main_v3 : IVec S_ 1 := (fun x v => Host.reduce IntOp.andi x v reducesTo_S32x196x768_S_d0_1_2 h_S_) main_v2 main_c
  let main_v4 : FVec F S32x196x768 .f32 := Host.absf main_arg2
  let main_cst_0 : FVec F S_ .f32 := constant S_ .f32 0x7F800000#32
  let main_v5 : FVec F S32x196x768 .f32 := broadcastInDim S32x196x768 ![] bcast_S_S32x196x768 main_cst_0
  let main_v6 : IVec S32x196x768 1 := cmpf .olt main_v4 main_v5
  let main_c_1 : IVec S_ 1 := constantI S_ 1 1#1
  let main_v7 : IVec S_ 1 := (fun x v => Host.reduce IntOp.andi x v reducesTo_S32x196x768_S_d0_1_2 h_S_) main_v6 main_c_1
  let main_v8 : IVec S_ 1 := andi main_v3 main_v7
  let main_v9 : FVec F S32x128x32000 .f32 := Host.absf main_arg3
  let main_cst_2 : FVec F S_ .f32 := constant S_ .f32 0x7F800000#32
  let main_v10 : FVec F S32x128x32000 .f32 := broadcastInDim S32x128x32000 ![] bcast_S_S32x128x32000 main_cst_2
  let main_v11 : IVec S32x128x32000 1 := cmpf .olt main_v9 main_v10
  let main_c_3 : IVec S_ 1 := constantI S_ 1 1#1
  let main_v12 : IVec S_ 1 := (fun x v => Host.reduce IntOp.andi x v reducesTo_S32x128x32000_S_d0_1_2 h_S_) main_v11 main_c_3
  let main_v13 : IVec S_ 1 := andi main_v8 main_v12
  let main_v14 : FVec F S32x196 .f32 := Host.absf main_arg4
  let main_cst_4 : FVec F S_ .f32 := constant S_ .f32 0x7F800000#32
  let main_v15 : FVec F S32x196 .f32 := broadcastInDim S32x196 ![] bcast_S_S32x196 main_cst_4
  let main_v16 : IVec S32x196 1 := cmpf .olt main_v14 main_v15
  fn_part1 (F := F) main_arg5 main_arg6 main_arg7 main_arg8 main_arg9 main_arg10 main_v13 main_v16
-- ==== Kernel.lean ====
abbrev S32x196x768 : Shape := ⟨3, ![32, 196, 768]⟩
abbrev S32x128 : Shape := ⟨2, ![32, 128]⟩
abbrev S32x128x32000 : Shape := ⟨3, ![32, 128, 32000]⟩
abbrev S32x196 : Shape := ⟨2, ![32, 196]⟩
abbrev S_ : Shape := ⟨0, ![]⟩
abbrev S32x14 : Shape := ⟨2, ![32, 14]⟩
abbrev S8x128x1280 : Shape := ⟨3, ![8, 128, 1280]⟩
abbrev S8x128 : Shape := ⟨2, ![8, 128]⟩
abbrev S8x128x1 : Shape := ⟨3, ![8, 128, 1]⟩
abbrev S32x128x1 : Shape := ⟨3, ![32, 128, 1]⟩
abbrev S32x128x1x1 : Shape := ⟨4, ![32, 128, 1, 1]⟩
abbrev S1 : Shape := ⟨1, ![1]⟩
abbrev S1x1x1x1 : Shape := ⟨4, ![1, 1, 1, 1]⟩
abbrev S8x196x768 : Shape := ⟨3, ![8, 196, 768]⟩
abbrev S8x196 : Shape := ⟨2, ![8, 196]⟩

abbrev nBuf : Space → Nat
  | .hbm => 53
  | .vmem => 12
  | .smem => 0
  | _ => 0

abbrev bufTy : (tb : Table) → Fin (tcTables nBuf tb) → BufTy
  | .hbm, ⟨0, _⟩ => ⟨S32x196x768, .f32⟩
  | .hbm, ⟨1, _⟩ => ⟨S32x128, .i32⟩
  | .hbm, ⟨2, _⟩ => ⟨S32x196x768, .f32⟩
  | .hbm, ⟨3, _⟩ => ⟨S32x128x32000, .f32⟩
  | .hbm, ⟨4, _⟩ => ⟨S32x196, .f32⟩
  | .hbm, ⟨5, _⟩ => ⟨S32x128, .f32⟩
  | .hbm, ⟨6, _⟩ => ⟨S_, .f32⟩
  | .hbm, ⟨7, _⟩ => ⟨S_, .f32⟩
  | .hbm, ⟨8, _⟩ => ⟨S32x14, .f32⟩
  | .hbm, ⟨9, _⟩ => ⟨S32x14, .f32⟩
  | .hbm, ⟨10, _⟩ => ⟨S32x128, .f32⟩
  | .hbm, ⟨11, _⟩ => ⟨S32x128, .f32⟩
  | .hbm, ⟨12, _⟩ => ⟨S32x128x1, .i32⟩
  | .hbm, ⟨13, _⟩ => ⟨S_, .i32⟩
  | .hbm, ⟨14, _⟩ => ⟨S32x128x1, .i32⟩
  | .hbm, ⟨15, _⟩ => ⟨S32x128x1, .i1⟩
  | .hbm, ⟨16, _⟩ => ⟨S_, .i32⟩
  | .hbm, ⟨17, _⟩ => ⟨S32x128x1, .i32⟩
  | .hbm, ⟨18, _⟩ => ⟨S32x128x1, .i32⟩
  | .hbm, ⟨19, _⟩ => ⟨S32x128x1, .i32⟩
  | .hbm, ⟨20, _⟩ => ⟨S32x128x1x1, .i32⟩
  | .hbm, ⟨21, _⟩ => ⟨S1, .i32⟩
  | .hbm, ⟨22, _⟩ => ⟨S_, .i32⟩
  | .hbm, ⟨23, _⟩ => ⟨S32x128x1x1, .i32⟩
  | .hbm, ⟨24, _⟩ => ⟨S32x128x1x1, .i1⟩
  | .hbm, ⟨25, _⟩ => ⟨S1x1x1x1, .i32⟩
  | .hbm, ⟨26, _⟩ => ⟨S32x128x1x1, .i32⟩
  | .hbm, ⟨27, _⟩ => ⟨S32x128x1x1, .i1⟩
  | .hbm, ⟨28, _⟩ => ⟨S32x128x1x1, .i1⟩
  | .hbm, ⟨29, _⟩ => ⟨S_, .i1⟩
  | .hbm, ⟨30, _⟩ => ⟨S32x128x1, .i1⟩
  | .hbm, ⟨31, _⟩ => ⟨S32x128x1, .f32⟩
  | .hbm, ⟨32, _⟩ => ⟨S_, .f32⟩
  | .hbm, ⟨33, _⟩ => ⟨S32x128x1, .f32⟩
  | .hbm, ⟨34, _⟩ => ⟨S32x128x1, .f32⟩
  | .hbm, ⟨35, _⟩ => ⟨S32x128, .f32⟩
  | .hbm, ⟨36, _⟩ => ⟨S32x128, .f32⟩
  | .hbm, ⟨37, _⟩ => ⟨S32x128, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S32x196, .f32⟩
  | .hbm, ⟨45, _⟩ => ⟨S32x196, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .local _ .vmem, ⟨0, _⟩ => ⟨S8x128x1280, .f32⟩
  | .local _ .vmem, ⟨1, _⟩ => ⟨S8x128x1280, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x196x768, .f32⟩
  | .local _ .vmem, ⟨7, _⟩ => ⟨S8x196x768, .f32⟩
  | .local _ .vmem, ⟨8, _⟩ => ⟨S8x196x768, .f32⟩
  | .local _ .vmem, ⟨9, _⟩ => ⟨S8x196x768, .f32⟩
  | .local _ .vmem, ⟨10, _⟩ => ⟨S8x196, .f32⟩
  | .local _ .vmem, ⟨11, _⟩ => ⟨S8x196, .f32⟩
  | _, _ => ⟨S32x196x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_cst : Ref sig .tc := ⟨.hbm, 32, rfl⟩
abbrev main_call0_v14 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_cst : Ref sig .tc := ⟨.hbm, 38, rfl⟩
abbrev main_v6 : Ref sig .tc := ⟨.hbm, 39, rfl⟩
abbrev main_cst_0 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_cst_2 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨2, ![4, 25], ![false, false]⟩

def k0_cond2 (i : grid0.Coords) : BitVec 1 :=
  let arg1 : BitVec 32 := BitVec.ofNat 32 (i 1).val
  let c24_i32 : BitVec 32 := 24#32
  let v24 : BitVec 1 := Scalar.cmpi .eq arg1 c24_i32
  let v25 : BitVec 32 := Scalar.extui v24
  let c0_i32_14 : BitVec 32 := 0#32
  let v26 : BitVec 1 := Scalar.cmpi .ne v25 c0_i32_14
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x196x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x196x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x196 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S8x128x1280_S8x128x1280_0_0_0 : ∀ a, (![0, 0, 0] : Fin 3 → Nat) a + S8x128x1280.size a ≤ S8x128x1280.size a
  h_S8x128x1280 : 0 < S8x128x1280.numel
  reduces_S8x128x1280_S8x128 : S8x128x1280.Reduces [2] S8x128
  shapeCasts_S8x128_S8x128x1 : S8x128.ShapeCasts S8x128x1
  broadcasts_S8x128x1_S8x128x1280 : S8x128x1.Broadcasts S8x128x1280
  bcast_S32x128_S32x128x1_0_1 : S32x128.BroadcastsInDim S32x128x1 (![0, 1] : Fin 2 → Fin S32x128x1.rank)
  bcast_S_S32x128x1 : S_.BroadcastsInDim S32x128x1 (![] : Fin 0 → Fin S32x128x1.rank)
  shapeCasts_S32x128x1_S32x128x1x1 : S32x128x1.ShapeCasts S32x128x1x1
  bcast_S_S32x128x1x1 : S_.BroadcastsInDim S32x128x1x1 (![] : Fin 0 → Fin S32x128x1x1.rank)
  bcast_S1_S1x1x1x1_3 : S1.BroadcastsInDim S1x1x1x1 (![3] : Fin 1 → Fin S1x1x1x1.rank)
  bcast_S1x1x1x1_S32x128x1x1_0_1_2_3 : S1x1x1x1.BroadcastsInDim S32x128x1x1 (![0, 1, 2, 3] : Fin 4 → Fin S32x128x1x1.rank)
  reducesTo_S32x128x1x1_S32x128x1_d3 : S32x128x1x1.ReducesTo [3] S32x128x1
  h_S_ : 0 < S_.numel
  shapeCasts_S32x128x1_S32x128 : S32x128x1.ShapeCasts S32x128
  reducesTo_S32x128_S_d0_1 : S32x128.ReducesTo [0, 1] S_
  inb_S8x196x768_S8x196x768_0_0_0 : ∀ a, (![0, 0, 0] : Fin 3 → Nat) a + S8x196x768.size a ≤ S8x196x768.size a
  h_S8x196x768 : 0 < S8x196x768.numel
  reduces_S8x196x768_S8x196 : S8x196x768.Reduces [2] S8x196
  inb_S8x196_S8x196_0_0 : ∀ a, (![0, 0] : Fin 2 → Nat) a + S8x196.size a ≤ S8x196.size a
  h_S8x196 : 0 < S8x196.numel
  reducesTo_S32x196_S_d0_1 : S32x196.ReducesTo [0, 1] S_
  gather_S32x128x32000_S32x128x1x1_S32x128x1_n_2_01_01_2_3_111_wf : GatherDims.WF S32x128x32000 S32x128x1x1 S32x128x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1280.size a ≤ S32x128x32000.size a
  hwx0_0 : ∀ i : grid0.Coords, EltTy.bits .f32 = 32 ∨ (Rect.block (s := S32x128x32000) S8x128x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S32x128.size a
  hwx0_1 : ∀ i : grid0.Coords, EltTy.bits .f32 = 32 ∨ (Rect.block (s := S32x128) S8x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x196x768.size a ≤ S32x196x768.size a
  hwx1_0 : ∀ i : grid1.Coords, EltTy.bits .f32 = 32 ∨ (Rect.block (s := S32x196x768) S8x196x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x196x768.size a ≤ S32x196x768.size a
  hwx1_1 : ∀ i : grid1.Coords, EltTy.bits .f32 = 32 ∨ (Rect.block (s := S32x196x768) S8x196x768.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x196.size a ≤ S32x196.size a
  hwx1_2 : ∀ i : grid1.Coords, EltTy.bits .f32 = 32 ∨ (Rect.block (s := S32x196) S8x196.size (cc1_transform_2 i) (hinb1_2 i)).WholeWords (EltTy.packing .f32)

variable [Facts₀]

def gather_S32x128x32000_S32x128x1x1_S32x128x1_n_2_01_01_2_3_111 : GatherDims S32x128x32000 S32x128x1x1 S32x128x1 where
  offsetDims := []
  collapsedSliceDims := [2]
  operandBatchingDims := [0, 1]
  startIndicesBatchingDims := [0, 1]
  startIndexMap := [2]
  indexVectorDim := 3
  sliceSizes := ![1, 1, 1]
  wf := gather_S32x128x32000_S32x128x1x1_S32x128x1_n_2_01_01_2_3_111_wf

abbrev win0_0 : Pipeline.Window sig grid0 :=
  Pipeline.Window.ofSpec (Memref.whole main_arg3) S8x128x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S8x196x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S8x196x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8x196.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x196x768 : Shape := ⟨3, ![32, 196, 768]⟩
abbrev S32x128 : Shape := ⟨2, ![32, 128]⟩
abbrev S32x128x32000 : Shape := ⟨3, ![32, 128, 32000]⟩
abbrev S32x196 : Shape := ⟨2, ![32, 196]⟩
abbrev S_ : Shape := ⟨0, ![]⟩
abbrev S32x14 : Shape := ⟨2, ![32, 14]⟩
abbrev S32x128x1 : Shape := ⟨3, ![32, 128, 1]⟩
abbrev S32x128x1x1 : Shape := ⟨4, ![32, 128, 1, 1]⟩
abbrev S1 : Shape := ⟨1, ![1]⟩
abbrev S1x1x1x1 : Shape := ⟨4, ![1, 1, 1, 1]⟩

abbrev nBuf : Space → Nat
  | .hbm => 73
  | .vmem => 0
  | .smem => 0
  | _ => 0

abbrev bufTy : (tb : Table) → Fin (tcTables nBuf tb) → BufTy
  | .hbm, ⟨0, _⟩ => ⟨S32x196x768, .f32⟩
  | .hbm, ⟨1, _⟩ => ⟨S32x128, .i32⟩
  | .hbm, ⟨2, _⟩ => ⟨S32x196x768, .f32⟩
  | .hbm, ⟨3, _⟩ => ⟨S32x128x32000, .f32⟩
  | .hbm, ⟨4, _⟩ => ⟨S32x196, .f32⟩
  | .hbm, ⟨5, _⟩ => ⟨S32x128, .f32⟩
  | .hbm, ⟨6, _⟩ => ⟨S_, .f32⟩
  | .hbm, ⟨7, _⟩ => ⟨S_, .f32⟩
  | .hbm, ⟨8, _⟩ => ⟨S32x14, .f32⟩
  | .hbm, ⟨9, _⟩ => ⟨S32x14, .f32⟩
  | .hbm, ⟨10, _⟩ => ⟨S32x128, .f32⟩
  | .hbm, ⟨11, _⟩ => ⟨S_, .f32⟩
  | .hbm, ⟨12, _⟩ => ⟨S32x128, .f32⟩
  | .hbm, ⟨13, _⟩ => ⟨S_, .f32⟩
  | .hbm, ⟨14, _⟩ => ⟨S32x128, .f32⟩
  | .hbm, ⟨15, _⟩ => ⟨S32x128, .f32⟩
  | .hbm, ⟨16, _⟩ => ⟨S32x128x1, .f32⟩
  | .hbm, ⟨17, _⟩ => ⟨S32x128x32000, .f32⟩
  | .hbm, ⟨18, _⟩ => ⟨S32x128x32000, .f32⟩
  | .hbm, ⟨19, _⟩ => ⟨S32x128x32000, .f32⟩
  | .hbm, ⟨20, _⟩ => ⟨S_, .f32⟩
  | .hbm, ⟨21, _⟩ => ⟨S32x128, .f32⟩
  | .hbm, ⟨22, _⟩ => ⟨S32x128x1, .f32⟩
  | .hbm, ⟨23, _⟩ => ⟨S32x128x1, .f32⟩
  | .hbm, ⟨24, _⟩ => ⟨S32x128x32000, .f32⟩
  | .hbm, ⟨25, _⟩ => ⟨S32x128x32000, .f32⟩
  | .hbm, ⟨26, _⟩ => ⟨S32x128x1, .i32⟩
  | .hbm, ⟨27, _⟩ => ⟨S_, .i32⟩
  | .hbm, ⟨28, _⟩ => ⟨S32x128x1, .i32⟩
  | .hbm, ⟨29, _⟩ => ⟨S32x128x1, .i1⟩
  | .hbm, ⟨30, _⟩ => ⟨S_, .i32⟩
  | .hbm, ⟨31, _⟩ => ⟨S32x128x1, .i32⟩
  | .hbm, ⟨32, _⟩ => ⟨S32x128x1, .i32⟩
  | .hbm, ⟨33, _⟩ => ⟨S32x128x1, .i32⟩
  | .hbm, ⟨34, _⟩ => ⟨S32x128x1x1, .i32⟩
  | .hbm, ⟨35, _⟩ => ⟨S1, .i32⟩
  | .hbm, ⟨36, _⟩ => ⟨S_, .i32⟩
  | .hbm, ⟨37, _⟩ => ⟨S32x128x1x1, .i32⟩
  | .hbm, ⟨38, _⟩ => ⟨S32x128x1x1, .i1⟩
  | .hbm, ⟨39, _⟩ => ⟨S1x1x1x1, .i32⟩
  | .hbm, ⟨40, _⟩ => ⟨S32x128x1x1, .i32⟩
  | .hbm, ⟨41, _⟩ => ⟨S32x128x1x1, .i1⟩
  | .hbm, ⟨42, _⟩ => ⟨S32x128x1x1, .i1⟩
  | .hbm, ⟨43, _⟩ => ⟨S_, .i1⟩
  | .hbm, ⟨44, _⟩ => ⟨S32x128x1, .i1⟩
  | .hbm, ⟨45, _⟩ => ⟨S32x128x1, .f32⟩
  | .hbm, ⟨46, _⟩ => ⟨S_, .f32⟩
  | .hbm, ⟨47, _⟩ => ⟨S32x128x1, .f32⟩
  | .hbm, ⟨48, _⟩ => ⟨S32x128x1, .f32⟩
  | .hbm, ⟨49, _⟩ => ⟨S32x128, .f32⟩
  | .hbm, ⟨50, _⟩ => ⟨S32x128, .f32⟩
  | .hbm, ⟨51, _⟩ => ⟨S32x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S32x196x768, .f32⟩
  | .hbm, ⟨59, _⟩ => ⟨S32x196x768, .f32⟩
  | .hbm, ⟨60, _⟩ => ⟨S_, .f32⟩
  | .hbm, ⟨61, _⟩ => ⟨S32x196, .f32⟩
  | .hbm, ⟨62, _⟩ => ⟨S_, .f32⟩
  | .hbm, ⟨63, _⟩ => ⟨S32x196, .f32⟩
  | .hbm, ⟨64, _⟩ => ⟨S32x196, .f32⟩
  | .hbm, ⟨65, _⟩ => ⟨S32x196, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | _, _ => ⟨S32x196x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_cst : Ref sig .tc := ⟨.hbm, 46, rfl⟩
abbrev main_call1_v14 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_cst : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_v11 : Ref sig .tc := ⟨.hbm, 59, rfl⟩
abbrev main_cst_1 : Ref sig .tc := ⟨.hbm, 60, rfl⟩
abbrev main_v12 : Ref sig .tc := ⟨.hbm, 61, rfl⟩
abbrev main_cst_2 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_cst_3 : Ref sig .tc := ⟨.hbm, 66, rfl⟩
abbrev main_v16 : Ref sig .tc := ⟨.hbm, 67, rfl⟩
abbrev main_cst_4 : Ref sig .tc := ⟨.hbm, 68, rfl⟩
abbrev main_v17 : Ref sig .tc := ⟨.hbm, 69, rfl⟩
abbrev main_v18 : Ref sig .tc := ⟨.hbm, 70, rfl⟩
abbrev main_v19 : Ref sig .tc := ⟨.hbm, 71, rfl⟩
abbrev main_v20 : Ref sig .tc := ⟨.hbm, 72, rfl⟩

abbrev nD : Nat := 1
abbrev τ : Topo := Topo.v7x

variable {F : FTy → Type} [FloatOps F]

class Facts₀ : Prop where
  reducesTo_S32x128x32000_S32x128_d2 : S32x128x32000.ReducesTo [2] S32x128
  h_S_ : 0 < S_.numel
  bcast_S_S32x128 : S_.BroadcastsInDim S32x128 (![] : Fin 0 → Fin S32x128.rank)
  bcast_S32x128_S32x128x1_0_1 : S32x128.BroadcastsInDim S32x128x1 (![0, 1] : Fin 2 → Fin S32x128x1.rank)
  bcast_S32x128x1_S32x128x32000_0_1_2 : S32x128x1.BroadcastsInDim S32x128x32000 (![0, 1, 2] : Fin 3 → Fin S32x128x32000.rank)
  bcast_S_S32x128x1 : S_.BroadcastsInDim S32x128x1 (![] : Fin 0 → Fin S32x128x1.rank)
  shapeCasts_S32x128x1_S32x128x1x1 : S32x128x1.ShapeCasts S32x128x1x1
  bcast_S_S32x128x1x1 : S_.BroadcastsInDim S32x128x1x1 (![] : Fin 0 → Fin S32x128x1x1.rank)
  bcast_S1_S1x1x1x1_3 : S1.BroadcastsInDim S1x1x1x1 (![3] : Fin 1 → Fin S1x1x1x1.rank)
  bcast_S1x1x1x1_S32x128x1x1_0_1_2_3 : S1x1x1x1.BroadcastsInDim S32x128x1x1 (![0, 1, 2, 3] : Fin 4 → Fin S32x128x1x1.rank)
  reducesTo_S32x128x1x1_S32x128x1_d3 : S32x128x1x1.ReducesTo [3] S32x128x1
  shapeCasts_S32x128x1_S32x128 : S32x128x1.ShapeCasts S32x128
  reducesTo_S32x128_S_d0_1 : S32x128.ReducesTo [0, 1] S_
  reducesTo_S32x196x768_S32x196_d2 : S32x196x768.ReducesTo [2] S32x196
  bcast_S_S32x196 : S_.BroadcastsInDim S32x196 (![] : Fin 0 → Fin S32x196.rank)
  reducesTo_S32x196_S_d0_1 : S32x196.ReducesTo [0, 1] S_
  gather_S32x128x32000_S32x128x1x1_S32x128x1_n_2_01_01_2_3_111_wf : GatherDims.WF S32x128x32000 S32x128x1x1 S32x128x1 [] [2] [0, 1] [2] [0, 1] 3 ![1, 1, 1]

variable [Facts₀]

def gather_S32x128x32000_S32x128x1x1_S32x128x1_n_2_01_01_2_3_111 : GatherDims S32x128x32000 S32x128x1x1 S32x128x1 where
  offsetDims := []
  collapsedSliceDims := [2]
  operandBatchingDims := [0, 1]
  startIndicesBatchingDims := [0, 1]
  startIndexMap := [2]
  indexVectorDim := 3
  sliceSizes := ![1, 1, 1]
  wf := gather_S32x128x32000_S32x128x1x1_S32x128x1_n_2_01_01_2_3_111_wf

class Facts : Prop extends Facts₀ where

variable [Facts]
-- ==== Proof.KLseRuns.lean ====
/-
  The first region: the streaming log-sum-exp over the vocabulary axis.  The grid is 4 blocks of eight sequences by
  25 tiles of 1280 vocabulary entries, 100 points in row-major order, so point `t` works on tile `t % 25` of block
  `t / 25`.  Two scratch buffers live across the points of a block: the running maximum and the running rescaled
  sum.  The body has three cases: at the first tile (`t % 25 = 0`) it first resets the two scratch buffers, at the
  last tile (`t % 25 = 24`) it also stores maximum + log sum into the output block, in between it only updates the
  scratch.  This module: the case conditions in closed form, where the output window is idle, the memrefs the body is
  called with, and the body's run in each case on any whole memrefs.
-/
import proofs.«151323_j54468775248230_1_alg».proof.Proof.Gen.Kernel.Launch
import proofs.«151323_j54468775248230_1_alg».proof.Proof.Gen.Kernel.Skeleton
import proofs.«151323_j54468775248230_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The case conditions -/

/-- "This is the block's first tile", as the body computes it from the grid coordinates. -/
abbrev firstTile (i : grid0.Coords) : Prop := (Scalar.cmpi .ne (Scalar.extui (Scalar.cmpi .eq (BitVec.ofNat 32 (i 1).val) 0#32)) 0#32) = 1#1
theorem firstTile_iff : ∀ t : Fin cfg0.N, firstTile (grid0.coords t) ↔ t.val % 25 = 0 :=
  (by decide +kernel : ∀ t : Fin grid0.N, firstTile (grid0.coords t) ↔ t.val % 25 = 0)

/-- "This is the block's last tile". -/
abbrev lastTile (i : grid0.Coords) : Prop := k0_cond2 i = 1#1
theorem lastTile_iff : ∀ t : Fin cfg0.N, lastTile (grid0.coords t) ↔ t.val % 25 = 24 :=
  (by decide +kernel : ∀ t : Fin grid0.N, lastTile (grid0.coords t) ↔ t.val % 25 = 24)

/-! ## Where the windows are idle -/

theorem live_in : ∀ t : Fin cfg0.N, cfg0.idle 0 (grid0.coords t) = false := by decide +kernel
theorem idle_out : ∀ t : Fin cfg0.N, ¬lastTile (grid0.coords t) → cfg0.idle 1 (grid0.coords t) = true := by decide +kernel
theorem noFlush_out : ∀ t : Fin cfg0.N, ¬lastTile (grid0.coords t) → (cfg0.win 1).flush t = false := by decide +kernel
theorem live_out : ∀ t : Fin cfg0.N, lastTile (grid0.coords t) → cfg0.idle 1 (grid0.coords t) = false := by decide +kernel

/-! ## The memrefs the body is called with -/

abbrev outView : View sig .tc .vmem S8x128 .f32 := (Memref.whole cc0_stg1_0 : Memref sig .tc .vmem S8x128 .f32).view
abbrev mIn (t : Fin cfg0.N) : Memref sig .tc .vmem S8x128x1280 .f32 := win0_0.stage (cfg0.slots t 0)
abbrev hIn (t : Fin cfg0.N) : (mIn t).IsWhole := hstage0_0 ((cfg0.slots t 0).cast nbuf0_0)
abbrev mOut (t : Fin cfg0.N) : Memref sig .tc .vmem S8x128 .f32 := win0_1.stage (cfg0.slots t 1)
abbrev hOut (t : Fin cfg0.N) : (mOut t).IsWhole := hstage0_1 ((cfg0.slots t 1).cast nbuf0_1)
/-- The running maximum's and the running sum's scratch buffers. -/
abbrev mMax : Memref sig .tc .vmem S8x128 .f32 := Memref.whole cc0_scratch0
abbrev mSum : Memref sig .tc .vmem S8x128 .f32 := Memref.whole cc0_scratch1
abbrev maxView : View sig .tc .vmem S8x128 .f32 := mMax.view
abbrev sumView : View sig .tc .vmem S8x128 .f32 := mSum.view

/-- The other region's six staging buffers, each whole at some contents: scoped buffers this region never touches. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the two scratch buffers and the other region's staging buffers at anything, and the
    generator register at some state. -/
theorem scopedAtAnything (c : Dev nD) :
    (Pipeline.ΦA spec0 c : sProp 𝕄)
      = iprop(iprop((∃ d, owns (c : Thread nD τ) mMax fullShare d) ∗ (∃ d, owns (c : Thread nD τ) mSum fullShare d) ∗ otherStaging c) ∗ (∃ r, prngReg c r)) := by
  unfold Pipeline.ΦA otherStaging; rw [scopedRest0_eq]; simp only [mMax, mSum, owns_whole]; try rfl

/-! ## The body's run, case by case -/

set_option maxHeartbeats 2000000 in
/-- FIRST TILE.  On whole memrefs — the logits' at its block `x0`, the output's at contents handed back untouched, the two
    scratch buffers at anything — the body runs and leaves each scratch with the pieces it stored (found by the run). -/
noncomputable def runFirst (c : Dev nD) (i : grid0.Coords) (arg2 : Memref sig .tc .vmem S8x128x1280 .f32) (harg2 : arg2.IsWhole)
    (arg3 : Memref sig .tc .vmem S8x128 .f32) (harg3 : arg3.IsWhole) (arg4 : Memref sig .tc .vmem S8x128 .f32) (harg4 : arg4.IsWhole)
    (arg5 : Memref sig .tc .vmem S8x128 .f32) (harg5 : arg5.IsWhole) (hc0 : firstTile i) (hc1 : ¬lastTile i)
    (x0 : Vec F S8x128x1280 .f32) :
    Σ' (LM : List (View.Piece (Elt F) S8x128 .f32)), { LS : List (View.Piece (Elt F) S8x128 .f32) //
      ∀ (xo : Vec F S8x128 .f32) (E : Set ℕ) (K : PUnit → sProp 𝕄),
        iprop(owns (c : Thread nD τ) arg2 fullShare x0 ∗ owns (c : Thread nD τ) arg3 fullShare xo
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0__ce_logsumexp_kernel i arg2 harg2 arg3 harg3 arg4 harg4 arg5 harg5) K } := by
  refine ⟨?_, ?_, fun xo E K => ?run⟩
  case run =>
    simp only [cc0__ce_logsumexp_kernel_eq_skeleton]; unfold cc0__ce_logsumexp_kernel_skel
    unfold owns
    iintro ⟨⟨%f0, %hf0, H0⟩, ⟨%f1, %hf1, H1⟩, ⟨%dm, %fm, -, HM⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

set_option maxHeartbeats 2000000 in
/-- A MIDDLE TILE.  The scratch buffers at what the tile before left (`xm`, `xs`). -/
noncomputable def runMiddle (c : Dev nD) (i : grid0.Coords) (arg2 : Memref sig .tc .vmem S8x128x1280 .f32) (harg2 : arg2.IsWhole)
    (arg3 : Memref sig .tc .vmem S8x128 .f32) (harg3 : arg3.IsWhole) (arg4 : Memref sig .tc .vmem S8x128 .f32) (harg4 : arg4.IsWhole)
    (arg5 : Memref sig .tc .vmem S8x128 .f32) (harg5 : arg5.IsWhole) (hc0 : ¬firstTile i) (hc1 : ¬lastTile i)
    (x0 : Vec F S8x128x1280 .f32) (xm xs : Vec F S8x128 .f32) :
    Σ' (LM : List (View.Piece (Elt F) S8x128 .f32)), { LS : List (View.Piece (Elt F) S8x128 .f32) //
      ∀ (xo : Vec F S8x128 .f32) (E : Set ℕ) (K : PUnit → sProp 𝕄),
        iprop(owns (c : Thread nD τ) arg2 fullShare x0 ∗ owns (c : Thread nD τ) arg3 fullShare xo
            ∗ owns (c : Thread nD τ) arg4 fullShare xm ∗ owns (c : Thread nD τ) arg5 fullShare xs
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0__ce_logsumexp_kernel i arg2 harg2 arg3 harg3 arg4 harg4 arg5 harg5) K } := by
  refine ⟨?_, ?_, fun xo E K => ?run⟩
  case run =>
    simp only [cc0__ce_logsumexp_kernel_eq_skeleton]; unfold cc0__ce_logsumexp_kernel_skel
    unfold owns
    iintro ⟨⟨%f0, %hf0, H0⟩, ⟨%f1, %hf1, H1⟩, ⟨%fm, %hfm, HM⟩, ⟨%fs, %hfs, HS⟩, Hk⟩
    obtain rfl := harg2.eq_unread hf0; obtain rfl := harg3.eq_unread hf1
    obtain rfl := harg4.eq_unread hfm; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

set_option maxHeartbeats 2000000 in
/-- THE LAST TILE.  The output's buffer at anything; it ends with the pieces the body stored. -/
noncomputable def runLast (c : Dev nD) (i : grid0.Coords) (arg2 : Memref sig .tc .vmem S8x128x1280 .f32) (harg2 : arg2.IsWhole)
    (arg3 : Memref sig .tc .vmem S8x128 .f32) (harg3 : arg3.IsWhole) (arg4 : Memref sig .tc .vmem S8x128 .f32) (harg4 : arg4.IsWhole)
    (arg5 : Memref sig .tc .vmem S8x128 .f32) (harg5 : arg5.IsWhole) (hc0 : ¬firstTile i) (hc1 : lastTile i)
    (x0 : Vec F S8x128x1280 .f32) (xm xs : Vec F S8x128 .f32) :
    Σ' (LO : List (View.Piece (Elt F) S8x128 .f32)) (LM : List (View.Piece (Elt F) S8x128 .f32)), { LS : List (View.Piece (Elt F) S8x128 .f32) //
      ∀ (E : Set ℕ) (K : PUnit → sProp 𝕄),
        iprop(owns (c : Thread nD τ) arg2 fullShare x0 ∗ (∃ d, owns (c : Thread nD τ) arg3 fullShare d)
            ∗ owns (c : Thread nD τ) arg4 fullShare xm ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0__ce_logsumexp_kernel i arg2 harg2 arg3 harg3 arg4 harg4 arg5 harg5) K } := by
  refine ⟨?_, ?_, ?_, fun E K => ?run⟩
  case run =>
    simp only [cc0__ce_logsumexp_kernel_eq_skeleton]; unfold cc0__ce_logsumexp_kernel_skel
    unfold owns
    iintro ⟨⟨%f0, %hf0, H0⟩, ⟨%d1, %f1, -, H1⟩, ⟨%fm, %hfm, HM⟩, ⟨%fs, %hfs, HS⟩, Hk⟩
    obtain rfl := harg2.eq_unread hf0
    obtain rfl := harg4.eq_unread hfm; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [HM]; · iexists _; iexact HM
    iexists _; iexact HS

end Cert.Kernel.Hand

end
-- ==== Proof.KLse.lean ====
/-
  The first region's proof data and body obligation.  What the two scratch buffers hold after point `n` is defined by
  recursion on `n`: at a block's first tile from the tile's logits alone (the scratch is reset first), at every other
  tile from the tile's logits and what point `n - 1` left.  The output block is stored at a block's last tile only.
-/
import proofs.«151323_j54468775248230_1_alg».proof.Proof.Gen.Kernel.Launch
import proofs.«151323_j54468775248230_1_alg».proof.Proof.Gen.Kernel.Skeleton
import proofs.«151323_j54468775248230_1_alg».proof.Proof.Gen.Kernel.Points
import proofs.«151323_j54468775248230_1_alg».proof.Proof.KLseRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' staging buffer holds their block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What each case leaves -/

/-- The first tile's pieces cover each scratch buffer. -/
theorem firstCoverM (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) (y : S8x128.Idx) :
    ∃ pc ∈ (runFirst c i a2 h2 a3 h3 a4 h4 a5 h5 hc0 hc1 x0).1, y ∈ pc.1.set :=
  View.cover_of_tiledL (runFirst c i a2 h2 a3 h3 a4 h4 a5 h5 hc0 hc1 x0).1 S8x128.size (by sl_kernel_rfl) y
theorem firstCoverS (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) (y : S8x128.Idx) :
    ∃ pc ∈ (runFirst c i a2 h2 a3 h3 a4 h4 a5 h5 hc0 hc1 x0).2.1, y ∈ pc.1.set :=
  View.cover_of_tiledL (runFirst c i a2 h2 a3 h3 a4 h4 a5 h5 hc0 hc1 x0).2.1 S8x128.size (by sl_kernel_rfl) y
/-- What the first tile leaves in the running maximum's and the running sum's buffers. -/
def firstMax (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) : Vec F S8x128 .f32 :=
  maxView.read (Elt F) (maxView.writes (Elt F) maxView.junk (runFirst c i a2 h2 a3 h3 a4 h4 a5 h5 hc0 hc1 x0).1)
def firstSum (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) : Vec F S8x128 .f32 :=
  sumView.read (Elt F) (sumView.writes (Elt F) sumView.junk (runFirst c i a2 h2 a3 h3 a4 h4 a5 h5 hc0 hc1 x0).2.1)

theorem midCoverM (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) (y : S8x128.Idx) :
    ∃ pc ∈ (runMiddle c i a2 h2 a3 h3 a4 h4 a5 h5 hc0 hc1 x0 xm xs).1, y ∈ pc.1.set :=
  View.cover_of_tiledL (runMiddle c i a2 h2 a3 h3 a4 h4 a5 h5 hc0 hc1 x0 xm xs).1 S8x128.size (by sl_kernel_rfl) y
theorem midCoverS (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) (y : S8x128.Idx) :
    ∃ pc ∈ (runMiddle c i a2 h2 a3 h3 a4 h4 a5 h5 hc0 hc1 x0 xm xs).2.1, y ∈ pc.1.set :=
  View.cover_of_tiledL (runMiddle c i a2 h2 a3 h3 a4 h4 a5 h5 hc0 hc1 x0 xm xs).2.1 S8x128.size (by sl_kernel_rfl) y
def midMax (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) : Vec F S8x128 .f32 :=
  maxView.read (Elt F) (maxView.writes (Elt F) maxView.junk (runMiddle c i a2 h2 a3 h3 a4 h4 a5 h5 hc0 hc1 x0 xm xs).1)
def midSum (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) : Vec F S8x128 .f32 :=
  sumView.read (Elt F) (sumView.writes (Elt F) sumView.junk (runMiddle c i a2 h2 a3 h3 a4 h4 a5 h5 hc0 hc1 x0 xm xs).2.1)

theorem lastCoverO (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) (y : S8x128.Idx) :
    ∃ pc ∈ (runLast c i a2 h2 a3 h3 a4 h4 a5 h5 hc0 hc1 x0 xm xs).1, y ∈ pc.1.set :=
  View.cover_of_tiledL (runLast c i a2 h2 a3 h3 a4 h4 a5 h5 hc0 hc1 x0 xm xs).1 S8x128.size (by sl_kernel_rfl) y
theorem lastCoverM (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) (y : S8x128.Idx) :
    ∃ pc ∈ (runLast c i a2 h2 a3 h3 a4 h4 a5 h5 hc0 hc1 x0 xm xs).2.1, y ∈ pc.1.set :=
  View.cover_of_tiledL (runLast c i a2 h2 a3 h3 a4 h4 a5 h5 hc0 hc1 x0 xm xs).2.1 S8x128.size (by sl_kernel_rfl) y
theorem lastCoverS (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) (y : S8x128.Idx) :
    ∃ pc ∈ (runLast c i a2 h2 a3 h3 a4 h4 a5 h5 hc0 hc1 x0 xm xs).2.2.1, y ∈ pc.1.set :=
  View.cover_of_tiledL (runLast c i a2 h2 a3 h3 a4 h4 a5 h5 hc0 hc1 x0 xm xs).2.2.1 S8x128.size (by sl_kernel_rfl) y
def lastOut (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) : Vec F S8x128 .f32 :=
  outView.read (Elt F) (outView.writes (Elt F) outView.junk (runLast c i a2 h2 a3 h3 a4 h4 a5 h5 hc0 hc1 x0 xm xs).1)
def lastMax (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) : Vec F S8x128 .f32 :=
  maxView.read (Elt F) (maxView.writes (Elt F) maxView.junk (runLast c i a2 h2 a3 h3 a4 h4 a5 h5 hc0 hc1 x0 xm xs).2.1)
def lastSum (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) : Vec F S8x128 .f32 :=
  sumView.read (Elt F) (sumView.writes (Elt F) sumView.junk (runLast c i a2 h2 a3 h3 a4 h4 a5 h5 hc0 hc1 x0 xm xs).2.2.1)

/-! ## Point by point -/

/-- What the output's staging buffer (first component; a placeholder where nothing is stored into it) and the two
    scratch buffers (maximum, sum) hold after the body at position `n`. -/
def leftAt (c : Dev nD) : (n : ℕ) → n < cfg0.N → Vec F S8x128 .f32 × Vec F S8x128 .f32 × Vec F S8x128 .f32
  | 0, hn =>
    (outView.read (Elt F) outView.junk,
     firstMax c (grid0.coords ⟨0, hn⟩) (mIn ⟨0, hn⟩) (hIn ⟨0, hn⟩) (mOut ⟨0, hn⟩) (hOut ⟨0, hn⟩) mMax (Memref.isWhole_whole _) mSum (Memref.isWhole_whole _)
       ((firstTile_iff ⟨0, hn⟩).mpr (Nat.zero_mod _)) (fun h => by have := (lastTile_iff ⟨0, hn⟩).mp h; (try dsimp only at this); omega) (blk0 V c 0 ⟨0, hn⟩),
     firstSum c (grid0.coords ⟨0, hn⟩) (mIn ⟨0, hn⟩) (hIn ⟨0, hn⟩) (mOut ⟨0, hn⟩) (hOut ⟨0, hn⟩) mMax (Memref.isWhole_whole _) mSum (Memref.isWhole_whole _)
       ((firstTile_iff ⟨0, hn⟩).mpr (Nat.zero_mod _)) (fun h => by have := (lastTile_iff ⟨0, hn⟩).mp h; (try dsimp only at this); omega) (blk0 V c 0 ⟨0, hn⟩))
  | n + 1, hn =>
    if h0 : (n + 1) % 25 = 0 then
      (outView.read (Elt F) outView.junk,
       firstMax c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         ((firstTile_iff ⟨n + 1, hn⟩).mpr h0) (fun h => by have := (lastTile_iff ⟨n + 1, hn⟩).mp h; (try dsimp only at this); omega) (blk0 V c 0 ⟨n + 1, hn⟩),
       firstSum c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         ((firstTile_iff ⟨n + 1, hn⟩).mpr h0) (fun h => by have := (lastTile_iff ⟨n + 1, hn⟩).mp h; (try dsimp only at this); omega) (blk0 V c 0 ⟨n + 1, hn⟩))
    else if h1 : (n + 1) % 25 = 24 then
      (lastOut c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) ((lastTile_iff ⟨n + 1, hn⟩).mpr h1) (blk0 V c 0 ⟨n + 1, hn⟩)
         (leftAt c n (Nat.lt_of_succ_lt hn)).2.1 (leftAt c n (Nat.lt_of_succ_lt hn)).2.2,
       lastMax c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) ((lastTile_iff ⟨n + 1, hn⟩).mpr h1) (blk0 V c 0 ⟨n + 1, hn⟩)
         (leftAt c n (Nat.lt_of_succ_lt hn)).2.1 (leftAt c n (Nat.lt_of_succ_lt hn)).2.2,
       lastSum c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) ((lastTile_iff ⟨n + 1, hn⟩).mpr h1) (blk0 V c 0 ⟨n + 1, hn⟩)
         (leftAt c n (Nat.lt_of_succ_lt hn)).2.1 (leftAt c n (Nat.lt_of_succ_lt hn)).2.2)
    else
      (outView.read (Elt F) outView.junk,
       midMax c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) (fun h => h1 ((lastTile_iff ⟨n + 1, hn⟩).mp h)) (blk0 V c 0 ⟨n + 1, hn⟩)
         (leftAt c n (Nat.lt_of_succ_lt hn)).2.1 (leftAt c n (Nat.lt_of_succ_lt hn)).2.2,
       midSum c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) (fun h => h1 ((lastTile_iff ⟨n + 1, hn⟩).mp h)) (blk0 V c 0 ⟨n + 1, hn⟩)
         (leftAt c n (Nat.lt_of_succ_lt hn)).2.1 (leftAt c n (Nat.lt_of_succ_lt hn)).2.2)

/-- `leftAt` at a block's first tile. -/
theorem leftAt_first (c : Dev nD) (t : Fin cfg0.N) (h0 : t.val % 25 = 0) (hc1 : ¬lastTile (grid0.coords t)) :
    leftAt V c t.val t.isLt = (outView.read (Elt F) outView.junk,
      firstMax c (grid0.coords t) (mIn t) (hIn t) (mOut t) (hOut t) mMax (Memref.isWhole_whole _) mSum (Memref.isWhole_whole _) ((firstTile_iff t).mpr h0) hc1 (blk0 V c 0 t),
      firstSum c (grid0.coords t) (mIn t) (hIn t) (mOut t) (hOut t) mMax (Memref.isWhole_whole _) mSum (Memref.isWhole_whole _) ((firstTile_iff t).mpr h0) hc1 (blk0 V c 0 t)) := by
  obtain ⟨n, hn⟩ := t
  cases n with
  | zero => exact rfl
  | succ n => exact (dif_pos h0).trans rfl

/-- `leftAt` at a middle tile, over what the point before left. -/
theorem leftAt_mid (c : Dev nD) (t : Fin cfg0.N) (h0 : ¬t.val % 25 = 0) (h1 : ¬t.val % 25 = 24) :
    leftAt V c t.val t.isLt = (outView.read (Elt F) outView.junk,
      midMax c (grid0.coords t) (mIn t) (hIn t) (mOut t) (hOut t) mMax (Memref.isWhole_whole _) mSum (Memref.isWhole_whole _) (fun h => h0 ((firstTile_iff t).mp h)) (fun h => h1 ((lastTile_iff t).mp h)) (blk0 V c 0 t)
        (leftAt V c (t.val - 1) (Nat.lt_of_le_of_lt (Nat.sub_le _ _) t.isLt)).2.1 (leftAt V c (t.val - 1) (Nat.lt_of_le_of_lt (Nat.sub_le _ _) t.isLt)).2.2,
      midSum c (grid0.coords t) (mIn t) (hIn t) (mOut t) (hOut t) mMax (Memref.isWhole_whole _) mSum (Memref.isWhole_whole _) (fun h => h0 ((firstTile_iff t).mp h)) (fun h => h1 ((lastTile_iff t).mp h)) (blk0 V c 0 t)
        (leftAt V c (t.val - 1) (Nat.lt_of_le_of_lt (Nat.sub_le _ _) t.isLt)).2.1 (leftAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `leftAt` at a block's last tile, over what the point before left. -/
theorem leftAt_last (c : Dev nD) (t : Fin cfg0.N) (h0 : ¬t.val % 25 = 0) (h1 : t.val % 25 = 24) :
    leftAt V c t.val t.isLt = (
      lastOut c (grid0.coords t) (mIn t) (hIn t) (mOut t) (hOut t) mMax (Memref.isWhole_whole _) mSum (Memref.isWhole_whole _) (fun h => h0 ((firstTile_iff t).mp h)) ((lastTile_iff t).mpr h1) (blk0 V c 0 t)
        (leftAt V c (t.val - 1) (Nat.lt_of_le_of_lt (Nat.sub_le _ _) t.isLt)).2.1 (leftAt V c (t.val - 1) (Nat.lt_of_le_of_lt (Nat.sub_le _ _) t.isLt)).2.2,
      lastMax c (grid0.coords t) (mIn t) (hIn t) (mOut t) (hOut t) mMax (Memref.isWhole_whole _) mSum (Memref.isWhole_whole _) (fun h => h0 ((firstTile_iff t).mp h)) ((lastTile_iff t).mpr h1) (blk0 V c 0 t)
        (leftAt V c (t.val - 1) (Nat.lt_of_le_of_lt (Nat.sub_le _ _) t.isLt)).2.1 (leftAt V c (t.val - 1) (Nat.lt_of_le_of_lt (Nat.sub_le _ _) t.isLt)).2.2,
      lastSum c (grid0.coords t) (mIn t) (hIn t) (mOut t) (hOut t) mMax (Memref.isWhole_whole _) mSum (Memref.isWhole_whole _) (fun h => h0 ((firstTile_iff t).mp h)) ((lastTile_iff t).mpr h1) (blk0 V c 0 t)
        (leftAt V c (t.val - 1) (Nat.lt_of_le_of_lt (Nat.sub_le _ _) t.isLt)).2.1 (leftAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the very first point whatever the launch hands over; afterwards the two scratch buffers at what
    point `n - 1` left, the other region's staging buffers and the generator register at anything. -/
def carried (c : Dev nD) : (n : ℕ) → n ≤ cfg0.N → sProp 𝕄
  | 0, _ => Pipeline.ΦA spec0 c
  | n + 1, hn => iprop(iprop(owns (c : Thread nD τ) mMax fullShare (leftAt V c n hn).2.1 ∗ owns (c : Thread nD τ) mSum fullShare (leftAt V c n hn).2.2 ∗ otherStaging c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) mMax fullShare (leftAt V c n hn).2.1 ∗ owns (c : Thread nD τ) mSum fullShare (leftAt V c n hn).2.2 ∗ otherStaging c) ∗ (∃ r, prngReg c r)) := rfl
theorem carried_pos (c : Dev nD) (n : ℕ) (h : n ≤ cfg0.N) (hz : n ≠ 0) :
    carried V c n h = iprop(iprop(owns (c : Thread nD τ) mMax fullShare (leftAt V c (n - 1) (by omega)).2.1 ∗ owns (c : Thread nD τ) mSum fullShare (leftAt V c (n - 1) (by omega)).2.2 ∗ otherStaging c) ∗ (∃ r, prngReg c r)) := by
  cases n with
  | zero => exact absurd rfl hz
  | succ n => rfl

/-! ## The proof data -/

def lseDat (c : Dev nD) : Dat τ (Elt F) Unit ℕ (UR sig nD τ) ℕ cfg0 c where
  A w := V c (Pipeline.arrRef spec0 w)
  after w t := match w with
    | ⟨0, _⟩ => blk0 V c 0 t
    | ⟨1, _⟩ => (leftAt V c t.val t.isLt).1
  Φ t := carried V c t.val (Nat.le_of_lt_succ t.isLt)
  q _ := fullShare
  owed _ := 0

theorem lseDat_A (c : Dev nD) (w : Fin cfg0.W) : (lseDat V c).A w = V c (Pipeline.arrRef spec0 w) := by
  dsimp only [lseDat]
theorem carried_castSucc (c : Dev nD) (t : Fin cfg0.N) :
    (lseDat V c).Φ t.castSucc = carried V c t.val (Nat.le_of_lt t.isLt) := by
  dsimp only [lseDat]; simp only [Fin.coe_castSucc]
theorem lseAfter_0 (c : Dev nD) (t : Fin cfg0.N) : (lseDat V c).after 0 t = blk0 V c 0 t := by dsimp only [lseDat]
theorem lseAfter_1 (c : Dev nD) (t : Fin cfg0.N) : (lseDat V c).after 1 t = (leftAt V c t.val t.isLt).1 := by dsimp only [lseDat]
theorem lseBefore_0 (c : Dev nD) (t : Fin cfg0.N) (d) : (lseDat V c).before 0 t d = blk0 V c 0 t :=
  before0_0_of V (lseDat V c) (lseDat_A V c 0) (lseAfter_0 V c) t d

/-! ## The body obligation -/

def lsePre (c : Dev nD) (t : Fin cfg0.N) : sProp 𝕄 :=
  iprop((lseDat V c).Φ t.castSucc ∗ (lseDat V c).owesAt () t.castSucc
    ∗ (∃ d, owns (c : Thread nD τ) (mIn t) fullShare ((lseDat V c).before 0 t d))
    ∗ (∃ d, owns (c : Thread nD τ) (mOut t) fullShare ((lseDat V c).before 1 t d)))

def lsePost (c : Dev nD) (t : Fin cfg0.N) : sProp 𝕄 :=
  iprop((lseDat V c).Φ t.succ ∗ (lseDat V c).owesAt () t.succ
    ∗ (lseDat V c).leavesExact 0 t
    ∗ (lseDat V c).leavesExact 1 t)

set_option maxHeartbeats 4800000 in
/-- The body at any point.  The closed forms say which case the point is in; the invariant hands the body the two scratch
    buffers (at anything at the very first point, at what the point before left afterwards) and takes them back at this
    point's contents; where the output is idle its buffer is handed back as found. -/
theorem lseBody (c : Dev nD) (t : Fin cfg0.N) :
    lsePre V c t ⊢ wp frame (wpE (defs₀ (F := F)) Variants.none c none) Set.univ (bodyAt0 t) (fun _ => lsePost V c t) := by
  unfold lsePre lsePost bodyAt0
  simp only [lseBefore_0]
  rw [show (lseDat V c).owesAt () t.succ = (lseDat V c).owesAt () t.castSucc from rfl]
  rw [show (lseDat V c).Φ t.succ = carried V c (t.val + 1) t.isLt from rfl, carried_succ]
  have hN : t.val < 100 := lt_of_lt_of_eq t.isLt (show cfg0.N = 100 from N_0)
  rw [show (lseDat V c).leavesExact 0 t = owns (c : Thread nD τ) (mIn t) fullShare ((lseDat V c).after 0 t) from by
    unfold Dat.leavesExact; rw [live_in t], lseAfter_0]
  by_cases h0 : t.val % 25 = 0
  · have hc1 : ¬lastTile (grid0.coords t) := fun h => by have := (lastTile_iff t).mp h; omega
    rw [Dat.leavesExact_idle (lseDat V c) 1 t (idle_out t hc1) (noFlush_out t hc1)]
    rw [leftAt_first V c t h0 hc1]
    unfold firstMax firstSum; (try dsimp only)
    by_cases hz : t.val = 0
    · rw [carried_castSucc V c t, carried_zero V c _ _ hz, scopedAtAnything]
      iintro ⟨⟨⟨HM, HS, HR⟩, Hg⟩, Ho, ⟨%d0, H0⟩, ⟨%d1, H1⟩⟩
      iapply ((runFirst c (grid0.coords t) _ _ _ _ _ _ _ _ ((firstTile_iff t).mpr h0) hc1 (blk0 V c 0 t)).2.2 _ Set.univ _)
      isplitl [H0]; · iexact H0
      isplitl [H1]; · iexact H1
      isplitl [HM]; · iexact HM
      isplitl [HS]; · iexact HS
      iintro ⟨H0, H1, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (firstCoverM c _ _ _ _ _ _ _ _ _ _ _ _)
          isplitl [HS]
          · unfold owns; iexists _; isplitr
            swap; · iexact HS
            ipureintro; exact View.read_writes_of_cover _ _ _ _ _ (firstCoverS c _ _ _ _ _ _ _ _ _ _ _ _)
          iexact HR
        iexact Hg
      isplitl [Ho]; · iexact Ho
      isplitl [H0]; · iexact H0
      iexists _; iexact H1
    · rw [carried_castSucc V c t, carried_pos V c _ _ hz]
      iintro ⟨⟨⟨HM, HS, HR⟩, Hg⟩, Ho, ⟨%d0, H0⟩, ⟨%d1, H1⟩⟩
      iapply ((runFirst c (grid0.coords t) _ _ _ _ _ _ _ _ ((firstTile_iff t).mpr h0) hc1 (blk0 V c 0 t)).2.2 _ Set.univ _)
      isplitl [H0]; · iexact H0
      isplitl [H1]; · iexact H1
      isplitl [HM]; · iexists _; iexact HM
      isplitl [HS]; · iexists _; iexact HS
      iintro ⟨H0, H1, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (firstCoverM c _ _ _ _ _ _ _ _ _ _ _ _)
          isplitl [HS]
          · unfold owns; iexists _; isplitr
            swap; · iexact HS
            ipureintro; exact View.read_writes_of_cover _ _ _ _ _ (firstCoverS c _ _ _ _ _ _ _ _ _ _ _ _)
          iexact HR
        iexact Hg
      isplitl [Ho]; · iexact Ho
      isplitl [H0]; · iexact H0
      iexists _; iexact H1
  · have hz : t.val ≠ 0 := fun h => h0 (by rw [h])
    by_cases h1 : t.val % 25 = 24
    · have hc0 : ¬firstTile (grid0.coords t) := fun h => h0 ((firstTile_iff t).mp h)
      have hc1 : lastTile (grid0.coords t) := (lastTile_iff t).mpr h1
      rw [show (lseDat V c).leavesExact 1 t = owns (c : Thread nD τ) (mOut t) fullShare ((lseDat V c).after 1 t) from by
        unfold Dat.leavesExact; rw [live_out t hc1], lseAfter_1]
      rw [leftAt_last V c t h0 h1]
      unfold lastOut lastMax lastSum; (try dsimp only)
      rw [carried_castSucc V c t, carried_pos V c _ _ hz]
      iintro ⟨⟨⟨HM, HS, HR⟩, Hg⟩, Ho, ⟨%d0, H0⟩, ⟨%d1, H1⟩⟩
      iapply ((runLast c (grid0.coords t) _ _ _ _ _ _ _ _ hc0 hc1 (blk0 V c 0 t) _ _).2.2.2 Set.univ _)
      isplitl [H0]; · iexact H0
      isplitl [H1]; · iexists _; iexact H1
      isplitl [HM]; · iexact HM
      isplitl [HS]; · iexact HS
      iintro ⟨H0, ⟨%eo, H1⟩, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (lastCoverM c _ _ _ _ _ _ _ _ _ _ _ _ _ _)
          isplitl [HS]
          · unfold owns; iexists _; isplitr
            swap; · iexact HS
            ipureintro; exact View.read_writes_of_cover _ _ _ _ _ (lastCoverS c _ _ _ _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (lastCoverO c _ _ _ _ _ _ _ _ _ _ _ _ _ _)
    · have hc0 : ¬firstTile (grid0.coords t) := fun h => h0 ((firstTile_iff t).mp h)
      have hc1 : ¬lastTile (grid0.coords t) := fun h => h1 ((lastTile_iff t).mp h)
      rw [Dat.leavesExact_idle (lseDat V c) 1 t (idle_out t hc1) (noFlush_out t hc1)]
      rw [leftAt_mid V c t h0 h1]
      unfold midMax midSum; (try dsimp only)
      rw [carried_castSucc V c t, carried_pos V c _ _ hz]
      iintro ⟨⟨⟨HM, HS, HR⟩, Hg⟩, Ho, ⟨%d0, H0⟩, ⟨%d1, H1⟩⟩
      iapply ((runMiddle c (grid0.coords t) _ _ _ _ _ _ _ _ hc0 hc1 (blk0 V c 0 t) _ _).2.2 _ Set.univ _)
      isplitl [H0]; · iexact H0
      isplitl [H1]; · iexact H1
      isplitl [HM]; · iexact HM
      isplitl [HS]; · iexact HS
      iintro ⟨H0, H1, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (midCoverM c _ _ _ _ _ _ _ _ _ _ _ _ _ _)
          isplitl [HS]
          · unfold owns; iexists _; isplitr
            swap; · iexact HS
            ipureintro; exact View.read_writes_of_cover _ _ _ _ _ (midCoverS c _ _ _ _ _ _ _ _ _ _ _ _ _ _)
          iexact HR
        iexact Hg
      isplitl [Ho]; · iexact Ho
      isplitl [H0]; · iexact H0
      iexists _; iexact H1

/-- The body obligation of the first region, at every point. -/
theorem lseObligation (c : Dev nD) : BodyObligation (lseDat (F := F) V c) (defs₀ (F := F)) Variants.none () Set.univ := fun t => by
  rw [bigSep_W0, bigSep_W0]
  exact lseBody V c t

/-- What the launch hands the region is the invariant before the first point. -/
theorem lseIn (c : Dev nD) : Pipeline.ΦA spec0 c ⊢ (lseDat V c).Φ 0 := by
  rw [show (lseDat V c).Φ 0 = carried V c 0 (Nat.zero_le _) from rfl, carried_zero V c 0 _ rfl]
  try exact Idealize.SL.BI.Entails.refl _

/-- After any point but the very first the invariant gives the launch's form back, the scratch contents forgotten. -/
theorem lseOutAt (c : Dev nD) (t : Fin (cfg0.N + 1)) (ht : t.val ≠ 0) : (lseDat V c).Φ t ⊢ Pipeline.ΦA spec0 c := by
  rw [show (lseDat V c).Φ t = carried V c t.val (Nat.le_of_lt_succ t.isLt) from rfl, carried_pos V c _ _ ht, scopedAtAnything]
  iintro ⟨⟨HM, HS, HR⟩, Hg⟩
  isplitl [HM HS HR]
  · isplitl [HM]; · iexists _; iexact HM
    isplitl [HS]; · iexists _; iexact HS
    iexact HR
  iexact Hg

/-- So it does after the last point. -/
theorem lseOut (c : Dev nD) : (lseDat V c).Φ (Fin.last cfg0.N) ⊢ Pipeline.ΦA spec0 c :=
  lseOutAt V c _ (by rw [Fin.val_last]; have : cfg0.N = 100 := N_0; omega)

end

end Cert.Kernel.Hand

end
-- ==== Proof.KMse.lean ====
/-
  The second region: the per-patch mean squared error.  Four grid points, one per block of eight images; at a
  point the body loads the block of the predicted and of the true images whole, and stores the block of means
  whole — nothing is kept between points.  Stated at a parameter `V`, the buffers' contents when the region is
  entered.
-/
import proofs.«151323_j54468775248230_1_alg».proof.Proof.Gen.Kernel.Launch
import proofs.«151323_j54468775248230_1_alg».proof.Proof.Gen.Kernel.Skeleton
import proofs.«151323_j54468775248230_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The true images' staging buffer holds their block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The predicted images' staging buffer holds their block at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole image block and the whole block of means, as the body's rectangles. -/
abbrev rImg : Rect S8x196x768 := Rect.unit (s := S8x196x768) ![0, 0, 0] S8x196x768.size inb_S8x196x768_S8x196x768_0_0_0
abbrev rMse : Rect S8x196 := Rect.unit (s := S8x196) ![0, 0] S8x196.size inb_S8x196_S8x196_0_0

/-- What the body leaves in the means' staging buffer from the true block `x0` and the predicted block `x1`:
    its one store, of the mean over the last axis of the squared difference. -/
def mseOut (x0 x1 : Vec F S8x196x768 .f32) : Vec F S8x196 .f32 :=
  View.canon [⟨rMse, k1_pay1 (View.ld x1 rImg) (View.ld x0 rImg)⟩]

/-- That one store covers the buffer. -/
theorem mseCover (p0 : Vec F S8x196 .f32) (y : S8x196.Idx) :
    ∃ pc ∈ ([⟨rMse, p0⟩] : List (View.Piece (Elt F) S8x196 .f32)), y ∈ pc.1.set :=
  View.cover_of_tiled [⟨rMse, p0⟩] S8x196.size (by rfl) y

set_option maxHeartbeats 1000000 in
/-- The body on whole staging memrefs, the inputs' at contents `x0`, `x1` and the output's at anything: it ends with
    the inputs' as they were and the output's at `mseOut x0 x1`. -/
theorem mseKernel (c : Dev nD) (E : Set ℕ) (i : grid1.Coords) (arg1 : Memref sig .tc .vmem S8x196x768 .f32) (harg1 : arg1.IsWhole)
    (arg2 : Memref sig .tc .vmem S8x196x768 .f32) (harg2 : arg2.IsWhole) (arg3 : Memref sig .tc .vmem S8x196 .f32) (harg3 : arg3.IsWhole)
    (x0 x1 : Vec F S8x196x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (mseOut x0 x1)) -∗ K ⟨⟩))
      ⊢ wp frame (wpE (defs₀ (F := F)) Variants.none c none) E (cc1__mse_kernel i arg1 harg1 arg2 harg2 arg3 harg3) K := by
  simp only [cc1__mse_kernel_eq_skeleton]; unfold cc1__mse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mseCover _)

/-- The region's proof data on core `c`: the arrays as the region finds them; after the body at point `t` each input's
    buffer at its block and the output's at `mseOut` of the two blocks; the invariant the scoped rest and the generator
    register, untouched; nothing owed; full shares. -/
def mseDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => mseOut (blk1 V c 0 t) (blk1 V c 1 t)
  Φ _ := Pipeline.ΦA spec1 c
  q _ := fullShare
  owed _ := 0

theorem mseDat_A (c : Dev nD) (w : Fin cfg1.W) : (mseDat V c).A w = V c (Pipeline.arrRef spec1 w) := by
  dsimp only [mseDat]
theorem mseAfter_0 (c : Dev nD) (t : Fin cfg1.N) : (mseDat V c).after 0 t = blk1 V c 0 t := by dsimp only [mseDat]
theorem mseAfter_1 (c : Dev nD) (t : Fin cfg1.N) : (mseDat V c).after 1 t = blk1 V c 1 t := by dsimp only [mseDat]
theorem mseAfter_2 (c : Dev nD) (t : Fin cfg1.N) : (mseDat V c).after 2 t = mseOut (blk1 V c 0 t) (blk1 V c 1 t) := by dsimp only [mseDat]
theorem mseBefore_0 (c : Dev nD) (t : Fin cfg1.N) (d) : (mseDat V c).before 0 t d = blk1 V c 0 t :=
  before1_0_of V (mseDat V c) (mseDat_A V c 0) (mseAfter_0 V c) t d
theorem mseBefore_1 (c : Dev nD) (t : Fin cfg1.N) (d) : (mseDat V c).before 1 t d = blk1 V c 1 t :=
  before1_1_of V (mseDat V c) (mseDat_A V c 1) (mseAfter_1 V c) t d

/-- What the body is called with at point `t`, -/
def msePre (c : Dev nD) (t : Fin cfg1.N) : sProp 𝕄 :=
  iprop((mseDat V c).Φ t.castSucc ∗ (mseDat V c).owesAt () t.castSucc
    ∗ (∃ d, owns (c : Thread nD τ) (st1_0 t) fullShare ((mseDat V c).before 0 t d))
    ∗ (∃ d, owns (c : Thread nD τ) (st1_1 t) fullShare ((mseDat V c).before 1 t d))
    ∗ (∃ d, owns (c : Thread nD τ) (st1_2 t) fullShare ((mseDat V c).before 2 t d)))

/-- and what it returns. -/
def msePost (c : Dev nD) (t : Fin cfg1.N) : sProp 𝕄 :=
  iprop((mseDat V c).Φ t.succ ∗ (mseDat V c).owesAt () t.succ
    ∗ owns (c : Thread nD τ) (st1_0 t) fullShare ((mseDat V c).after 0 t)
    ∗ owns (c : Thread nD τ) (st1_1 t) fullShare ((mseDat V c).after 1 t)
    ∗ owns (c : Thread nD τ) (st1_2 t) fullShare ((mseDat V c).after 2 t))

/-- The body at any point: the inputs' memrefs hold their blocks, so `mseKernel` applies; the invariant and the
    core's dues pass through unread. -/
theorem mseBody (c : Dev nD) (t : Fin cfg1.N) :
    msePre V c t ⊢ wp frame (wpE (defs₀ (F := F)) Variants.none c none) Set.univ (bodyAt1 t) (fun _ => msePost V c t) := by
  unfold msePre msePost bodyAt1
  simp only [mseBefore_0, mseBefore_1]
  rw [show (mseDat V c).Φ t.succ = (mseDat V c).Φ t.castSucc from rfl,
    show (mseDat V c).owesAt () t.succ = (mseDat V c).owesAt () t.castSucc from rfl,
    mseAfter_0, mseAfter_1, mseAfter_2]
  iintro ⟨HΦ, Ho, ⟨%d0, H0⟩, ⟨%d1, H1⟩, ⟨%d2, H2⟩⟩
  iapply (mseKernel c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second region, at every point. -/
theorem mseObligation (c : Dev nD) : BodyObligation (mseDat (F := F) V c) (defs₀ (F := F)) Variants.none () Set.univ := fun t => by
  rw [bigSep_W1, bigSep_W1]
  exact mseBody V c t

end

end Cert.Kernel.Hand

end
-- ==== Proof.KRun.lean ====
/-
  The whole run of @main: the first region, three stretches of host operations, the second region, the last stretch.
  Between two items every unscoped buffer is held at a named valuation: the launch contents, then what an item leaves.
  A region leaves its output array at what its write-backs fold to and everything else as entered; a host stretch
  leaves the composition of its operations.  Every weakly fair execution terminates, and the final memory holds every
  unscoped buffer at the last valuation — from which the arguments (unchanged) and the result are read.
-/
import proofs.«151323_j54468775248230_1_alg».proof.Proof.Gen.Kernel.Launch
import proofs.«151323_j54468775248230_1_alg».proof.Proof.Gen.Kernel.Skeleton
import proofs.«151323_j54468775248230_1_alg».proof.Proof.Gen.Kernel.Points
import proofs.«151323_j54468775248230_1_alg».proof.Proof.Gen.Kernel.Regions
import proofs.«151323_j54468775248230_1_alg».proof.Proof.KLse
import proofs.«151323_j54468775248230_1_alg».proof.Proof.KMse
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The run, given the regions' records -/

set_option backward.isDefEq.respectTransparency.types false in
/-- For any contents `outs` the regions leave and any proof data: given, per region, a segment record entered from the
    valuation before it and left at the one after it, every weakly fair execution of @main terminates and the final memory
    holds every unscoped buffer at the last valuation. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, hpost0 c, .rfl, .rfl, hpre1 c, hpost1 c, sep_mono .rfl (hE2 c)⟩)
    (hinit := ?_) (QY := fun c s => ∀ b ∈ Pipeline.ucRefs τ sig, s.mem (((c : Thread nD τ)).1, b) = V6 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro; exact h
    · iexact HSI

/-! ## What the regions leave -/

variable (m : (ℓ : Loc nD τ sig) → Buf (Elt F) ℓ) (ρ : Dev nD → PrngReg)

/-- The buffers as the first region finds them: the launch contents. -/
abbrev entry0 (c : Dev nD) (b : Ref sig .tc) : Buf (Elt F) ((c : Thread nD τ).loc b) := V0 m c b
/-- After the first region: its arrays at what its write-backs fold to, every other buffer as entered. -/
def after0 (c : Dev nD) : Valuation τ sig (Elt F) :=
  Pipeline.withArrays spec0 c (V0 m c) fun w => (lseDat (entry0 m) c).arrAt w cfg0.N
/-- The contents the first region leaves, as the unknowns of the valuations. -/
abbrev outsA : Outs (F := F) := fun _ r c => after0 m c r
/-- The buffers as the second region finds them. -/
abbrev entry1 (c : Dev nD) (b : Ref sig .tc) : Buf (Elt F) ((c : Thread nD τ).loc b) := V4 m (outsA m) c b
/-- After the second region. -/
def after1 (c : Dev nD) : Valuation τ sig (Elt F) :=
  Pipeline.withArrays spec1 c (V4 m (outsA m) c) fun w => (mseDat (entry1 m) c).arrAt w cfg1.N
/-- What both regions leave: item 1 reads the first region's, item 5 the second's. -/
abbrev outs : Outs (F := F) := fun J r c => if J = 5 then after1 m c r else after0 m c r

theorem after0_arr (c : Dev nD) (w : Fin cfg0.W) :
    after0 m c (Proc.devRef .tc (Pipeline.arrRef spec0 w)) = (lseDat (entry0 m) c).arrAt w cfg0.N := by
  unfold after0; exact Pipeline.withArrays_arr spec0 launch0.win.arr_inj c _ _ w
theorem after1_arr (c : Dev nD) (w : Fin cfg1.W) :
    after1 m c (Proc.devRef .tc (Pipeline.arrRef spec1 w)) = (mseDat (entry1 m) c).arrAt w cfg1.N := by
  unfold after1; exact Pipeline.withArrays_arr spec1 launch1.win.arr_inj c _ _ w

/-- The valuation after the first region, as the regions' data see it. -/
abbrev exit0 (c : Dev nD) (b : Ref sig .tc) : Buf (Elt F) ((c : Thread nD τ).loc b) := V1 m (outs m) c b
abbrev exit1 (c : Dev nD) (b : Ref sig .tc) : Buf (Elt F) ((c : Thread nD τ).loc b) := V5 m (outs m) c b

/-- The first region's arrays at its exit: the logits as entered, the output at its folded write-backs. -/
theorem exit0_arr (c : Dev nD) (w : Fin cfg0.W) : (lseDat (entry0 m) c).arrAt w cfg0.N = exit0 m c (Pipeline.arrRef spec0 w) := by
  fin_cases w
  · exact ((lseDat (entry0 m) c).arrAt_in 0 rfl _).trans ((lseDat_A (entry0 m) c 0).trans (V1_of m (outs m) c main_arg3 (by decide)).symm)
  · exact ((after0_arr m c 1).symm.trans (by simp only [exit0, V1, Function.update_self]; rfl))
theorem exit0_rest (c : Dev nD) : ∀ b, b ∉ Finset.univ.image (Pipeline.arrRef spec0) → exit0 m c b = entry0 m c b := by
  intro b hb
  refine V1_of m (outs m) c b (fun h => hb ?_)
  simp only [List.mem_singleton] at h
  subst h
  exact Finset.mem_image.mpr ⟨1, Finset.mem_univ _, rfl⟩

/-- The second region is entered from the same valuation whichever way the first region's leavings are named. -/
theorem V4_outs (c : Dev nD) : V4 m (outs m) c = V4 m (outsA m) c := rfl

theorem entry1_eq (c : Dev nD) (b : Ref sig .tc) : (V4 m (outs m) c b : Buf (Elt F) ((c : Thread nD τ).loc b)) = entry1 m c b := rfl

theorem exit1_arr (c : Dev nD) (w : Fin cfg1.W) : (mseDat (entry1 m) c).arrAt w cfg1.N = exit1 m c (Pipeline.arrRef spec1 w) := by
  fin_cases w
  · exact ((mseDat (entry1 m) c).arrAt_in 0 rfl _).trans ((mseDat_A (entry1 m) c 0).trans (V5_of m (outs m) c main_arg0 (by decide)).symm)
  · exact ((mseDat (entry1 m) c).arrAt_in 1 rfl _).trans ((mseDat_A (entry1 m) c 1).trans (V5_of m (outs m) c main_arg2 (by decide)).symm)
  · exact ((after1_arr m c 2).symm.trans (by simp only [exit1, V5, Function.update_self]; rfl))
theorem exit1_rest (c : Dev nD) : ∀ b, b ∉ Finset.univ.image (Pipeline.arrRef spec1) → exit1 m c b = entry1 m c b := by
  intro b hb
  refine V5_of m (outs m) c b (fun h => hb ?_)
  simp only [List.mem_singleton] at h
  subst h
  exact Finset.mem_image.mpr ⟨2, Finset.mem_univ _, rfl⟩

/-! ## The proof data, the thread state, the regions as segments -/

def pdats : (p : Fin 2) → (c : Dev nD) → Dat τ (Elt F) Unit ℕ (UR sig nD τ) ℕ (Pipeline.pin (pcfgs (F := F)) adm p) c
  | ⟨0, _⟩ => fun c => lseDat (entry0 m) c
  | ⟨1, _⟩ => fun c => mseDat (entry1 m) c
abbrev 𝒱₀ : Variants := Variants.none
abbrev Lz : GSem nD τ sig → Finset Unit := fun _ => ∅
abbrev lvz : GSem nD τ sig → Unit → ℕ := fun _ _ => 0
/-- What rides beside the buffers through every item: the generator register at some state and the core owing nothing. -/
abbrev rest (c : Dev nD) : sProp 𝕄 := iprop((∃ r, prngReg c r) ∗ ∃ W, owes (c : Thread nD τ) (0 : CellTallies nD τ sig Unit) W)

set_option backward.isDefEq.respectTransparency.types false in
/-- The first region over the thread state: its arrays split out of the unscoped buffers and put back at the exit
    contents; the generator register into the invariant and out; nothing owed; no semaphore of the kernel's own. -/
def reg0 : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (lseObligation (entry0 m) c).loose
  hwaits := Pipeline.hwaits_of_owed_zero _ _ _ _ Lz lvz 0 fun _ _ => rfl
  pre c := iprop(StableHlo.held (c : Thread nD τ) (Pipeline.ucRefs τ sig) (V0 m c) ∗ rest c)
  post c := iprop(StableHlo.held (c : Thread nD τ) (Pipeline.ucRefs τ sig) (V1 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (lseIn (entry0 m) c)
    unfold Pipeline.ΦA
    iintro ⟨Hp, -, Hr⟩
    isplitl [Hr]; · iexact Hr
    iexact Hp
  hout c := by
    rw [Pipeline.ownSems0_none]
    refine (lseOut (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state, likewise; its invariant is the scoped rest and the generator register throughout. -/
def reg1 : RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (mseObligation (entry1 m) c).loose
  hwaits := Pipeline.hwaits_of_owed_zero _ _ _ _ Lz lvz 1 fun _ _ => rfl
  pre c := iprop(StableHlo.held (c : Thread nD τ) (Pipeline.ucRefs τ sig) (V4 m (outsA m) c) ∗ rest c)
  post c := iprop(StableHlo.held (c : Thread nD τ) (Pipeline.ucRefs τ sig) (V5 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates, and the final memory holds every unscoped buffer at the last valuation. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = V6 m (outs m) c b) :=
  run_cond m emb₁ () 𝒱₀ Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (by
      have hper : ∀ c : Dev nD, (iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)) : sProp 𝕄) ⊢ (rest c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            ⊢ (bigSep Finset.univ fun c : Dev nD => rest c : sProp 𝕄) :=
        bigSep_mono fun c _ => hper c
      iintro ⟨H, -⟩
      imodintro
      iapply hmono
      iexact H)
    (fun c => by iintro ⟨-, H⟩; iexact H)
    (reg0 m) (fun _ => .rfl) (fun _ => .rfl) (reg1 m) (fun c => by rw [V4_outs m c]; exact .rfl) (fun _ => .rfl)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c),
     (h c _ (mem_uc main_arg10 (by decide))).trans (V6_main_arg10 m (outs m) c)⟩) (run_all m ρ)

end Cert.Kernel.Hand

end
-- ==== Proof.KILseRuns.lean ====
/-
  The first region: the streaming log-sum-exp over the vocabulary axis.  The grid is 4 blocks of eight sequences by
  25 tiles of 1280 vocabulary entries, 100 points in row-major order, so point `t` works on tile `t % 25` of block
  `t / 25`.  Two scratch buffers live across the points of a block: the running maximum and the running rescaled
  sum.  The body has three cases: at the first tile (`t % 25 = 0`) it first resets the two scratch buffers, at the
  last tile (`t % 25 = 24`) it also stores maximum + log sum into the output block, in between it only updates the
  scratch.  This module: the case conditions in closed form, where the output window is idle, the memrefs the body is
  called with, and the body's run in each case on any whole memrefs.
-/
import proofs.«151323_j54468775248230_1_alg».proof.Proof.Gen.KernelIdeal.Launch
import proofs.«151323_j54468775248230_1_alg».proof.Proof.Gen.KernelIdeal.Skeleton
import proofs.«151323_j54468775248230_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The case conditions -/

/-- "This is the block's first tile", as the body computes it from the grid coordinates. -/
abbrev firstTile (i : grid0.Coords) : Prop := (Scalar.cmpi .ne (Scalar.extui (Scalar.cmpi .eq (BitVec.ofNat 32 (i 1).val) 0#32)) 0#32) = 1#1
theorem firstTile_iff : ∀ t : Fin cfg0.N, firstTile (grid0.coords t) ↔ t.val % 25 = 0 :=
  (by decide +kernel : ∀ t : Fin grid0.N, firstTile (grid0.coords t) ↔ t.val % 25 = 0)

/-- "This is the block's last tile". -/
abbrev lastTile (i : grid0.Coords) : Prop := k0_cond2 i = 1#1
theorem lastTile_iff : ∀ t : Fin cfg0.N, lastTile (grid0.coords t) ↔ t.val % 25 = 24 :=
  (by decide +kernel : ∀ t : Fin grid0.N, lastTile (grid0.coords t) ↔ t.val % 25 = 24)

/-! ## Where the windows are idle -/

theorem live_in : ∀ t : Fin cfg0.N, cfg0.idle 0 (grid0.coords t) = false := by decide +kernel
theorem idle_out : ∀ t : Fin cfg0.N, ¬lastTile (grid0.coords t) → cfg0.idle 1 (grid0.coords t) = true := by decide +kernel
theorem noFlush_out : ∀ t : Fin cfg0.N, ¬lastTile (grid0.coords t) → (cfg0.win 1).flush t = false := by decide +kernel
theorem live_out : ∀ t : Fin cfg0.N, lastTile (grid0.coords t) → cfg0.idle 1 (grid0.coords t) = false := by decide +kernel

/-! ## The memrefs the body is called with -/

abbrev outView : View sig .tc .vmem S8x128 .f32 := (Memref.whole cc0_stg1_0 : Memref sig .tc .vmem S8x128 .f32).view
abbrev mIn (t : Fin cfg0.N) : Memref sig .tc .vmem S8x128x1280 .f32 := win0_0.stage (cfg0.slots t 0)
abbrev hIn (t : Fin cfg0.N) : (mIn t).IsWhole := hstage0_0 ((cfg0.slots t 0).cast nbuf0_0)
abbrev mOut (t : Fin cfg0.N) : Memref sig .tc .vmem S8x128 .f32 := win0_1.stage (cfg0.slots t 1)
abbrev hOut (t : Fin cfg0.N) : (mOut t).IsWhole := hstage0_1 ((cfg0.slots t 1).cast nbuf0_1)
/-- The running maximum's and the running sum's scratch buffers. -/
abbrev mMax : Memref sig .tc .vmem S8x128 .f32 := Memref.whole cc0_scratch0
abbrev mSum : Memref sig .tc .vmem S8x128 .f32 := Memref.whole cc0_scratch1
abbrev maxView : View sig .tc .vmem S8x128 .f32 := mMax.view
abbrev sumView : View sig .tc .vmem S8x128 .f32 := mSum.view

/-- The other region's six staging buffers, each whole at some contents: scoped buffers this region never touches. -/
def otherStaging (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- What the launch hands the region: the two scratch buffers and the other region's staging buffers at anything, and the
    generator register at some state. -/
theorem scopedAtAnything (c : Dev nD) :
    (Pipeline.ΦA spec0 c : sProp 𝕄)
      = iprop(iprop((∃ d, owns (c : Thread nD τ) mMax fullShare d) ∗ (∃ d, owns (c : Thread nD τ) mSum fullShare d) ∗ otherStaging c) ∗ (∃ r, prngReg c r)) := by
  unfold Pipeline.ΦA otherStaging; rw [scopedRest0_eq]; simp only [mMax, mSum, owns_whole]; try rfl

/-! ## The body's run, case by case -/

set_option maxHeartbeats 2000000 in
/-- FIRST TILE.  On whole memrefs — the logits' at its block `x0`, the output's at contents handed back untouched, the two
    scratch buffers at anything — the body runs and leaves each scratch with the pieces it stored (found by the run). -/
noncomputable def runFirst (c : Dev nD) (i : grid0.Coords) (arg2 : Memref sig .tc .vmem S8x128x1280 .f32) (harg2 : arg2.IsWhole)
    (arg3 : Memref sig .tc .vmem S8x128 .f32) (harg3 : arg3.IsWhole) (arg4 : Memref sig .tc .vmem S8x128 .f32) (harg4 : arg4.IsWhole)
    (arg5 : Memref sig .tc .vmem S8x128 .f32) (harg5 : arg5.IsWhole) (hc0 : firstTile i) (hc1 : ¬lastTile i)
    (x0 : Vec F S8x128x1280 .f32) :
    Σ' (LM : List (View.Piece (Elt F) S8x128 .f32)), { LS : List (View.Piece (Elt F) S8x128 .f32) //
      ∀ (xo : Vec F S8x128 .f32) (E : Set ℕ) (K : PUnit → sProp 𝕄),
        iprop(owns (c : Thread nD τ) arg2 fullShare x0 ∗ owns (c : Thread nD τ) arg3 fullShare xo
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0__ce_logsumexp_kernel i arg2 harg2 arg3 harg3 arg4 harg4 arg5 harg5) K } := by
  refine ⟨?_, ?_, fun xo E K => ?run⟩
  case run =>
    simp only [cc0__ce_logsumexp_kernel_eq_skeleton]; unfold cc0__ce_logsumexp_kernel_skel
    unfold owns
    iintro ⟨⟨%f0, %hf0, H0⟩, ⟨%f1, %hf1, H1⟩, ⟨%dm, %fm, -, HM⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

set_option maxHeartbeats 2000000 in
/-- A MIDDLE TILE.  The scratch buffers at what the tile before left (`xm`, `xs`). -/
noncomputable def runMiddle (c : Dev nD) (i : grid0.Coords) (arg2 : Memref sig .tc .vmem S8x128x1280 .f32) (harg2 : arg2.IsWhole)
    (arg3 : Memref sig .tc .vmem S8x128 .f32) (harg3 : arg3.IsWhole) (arg4 : Memref sig .tc .vmem S8x128 .f32) (harg4 : arg4.IsWhole)
    (arg5 : Memref sig .tc .vmem S8x128 .f32) (harg5 : arg5.IsWhole) (hc0 : ¬firstTile i) (hc1 : ¬lastTile i)
    (x0 : Vec F S8x128x1280 .f32) (xm xs : Vec F S8x128 .f32) :
    Σ' (LM : List (View.Piece (Elt F) S8x128 .f32)), { LS : List (View.Piece (Elt F) S8x128 .f32) //
      ∀ (xo : Vec F S8x128 .f32) (E : Set ℕ) (K : PUnit → sProp 𝕄),
        iprop(owns (c : Thread nD τ) arg2 fullShare x0 ∗ owns (c : Thread nD τ) arg3 fullShare xo
            ∗ owns (c : Thread nD τ) arg4 fullShare xm ∗ owns (c : Thread nD τ) arg5 fullShare xs
            ∗ (iprop(owns (c : Thread nD τ) arg2 fullShare x0 ∗ owns (c : Thread nD τ) arg3 fullShare xo
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0__ce_logsumexp_kernel i arg2 harg2 arg3 harg3 arg4 harg4 arg5 harg5) K } := by
  refine ⟨?_, ?_, fun xo E K => ?run⟩
  case run =>
    simp only [cc0__ce_logsumexp_kernel_eq_skeleton]; unfold cc0__ce_logsumexp_kernel_skel
    unfold owns
    iintro ⟨⟨%f0, %hf0, H0⟩, ⟨%f1, %hf1, H1⟩, ⟨%fm, %hfm, HM⟩, ⟨%fs, %hfs, HS⟩, Hk⟩
    obtain rfl := harg2.eq_unread hf0; obtain rfl := harg3.eq_unread hf1
    obtain rfl := harg4.eq_unread hfm; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [HM]; · iexists _; iexact HM
    iexists _; iexact HS

set_option maxHeartbeats 2000000 in
/-- THE LAST TILE.  The output's buffer at anything; it ends with the pieces the body stored. -/
noncomputable def runLast (c : Dev nD) (i : grid0.Coords) (arg2 : Memref sig .tc .vmem S8x128x1280 .f32) (harg2 : arg2.IsWhole)
    (arg3 : Memref sig .tc .vmem S8x128 .f32) (harg3 : arg3.IsWhole) (arg4 : Memref sig .tc .vmem S8x128 .f32) (harg4 : arg4.IsWhole)
    (arg5 : Memref sig .tc .vmem S8x128 .f32) (harg5 : arg5.IsWhole) (hc0 : ¬firstTile i) (hc1 : lastTile i)
    (x0 : Vec F S8x128x1280 .f32) (xm xs : Vec F S8x128 .f32) :
    Σ' (LO : List (View.Piece (Elt F) S8x128 .f32)) (LM : List (View.Piece (Elt F) S8x128 .f32)), { LS : List (View.Piece (Elt F) S8x128 .f32) //
      ∀ (E : Set ℕ) (K : PUnit → sProp 𝕄),
        iprop(owns (c : Thread nD τ) arg2 fullShare x0 ∗ (∃ d, owns (c : Thread nD τ) arg3 fullShare d)
            ∗ owns (c : Thread nD τ) arg4 fullShare xm ∗ owns (c : Thread nD τ) arg5 fullShare xs
            ∗ (iprop(owns (c : Thread nD τ) arg2 fullShare x0
                ∗ (∃ f, arg3.view.loc (c : Thread nD τ) ↦[arg3.view.set]{fullShare} arg3.view.writes (Elt F) f LO)
                ∗ (∃ f, arg4.view.loc (c : Thread nD τ) ↦[arg4.view.set]{fullShare} arg4.view.writes (Elt F) f LM)
                ∗ (∃ f, arg5.view.loc (c : Thread nD τ) ↦[arg5.view.set]{fullShare} arg5.view.writes (Elt F) f LS)) -∗ K ⟨⟩))
          ⊢ wp frame (wpE (defs₀ (F := F)) Variants.none c none) E (cc0__ce_logsumexp_kernel i arg2 harg2 arg3 harg3 arg4 harg4 arg5 harg5) K } := by
  refine ⟨?_, ?_, ?_, fun E K => ?run⟩
  case run =>
    simp only [cc0__ce_logsumexp_kernel_eq_skeleton]; unfold cc0__ce_logsumexp_kernel_skel
    unfold owns
    iintro ⟨⟨%f0, %hf0, H0⟩, ⟨%d1, %f1, -, H1⟩, ⟨%fm, %hfm, HM⟩, ⟨%fs, %hfs, HS⟩, Hk⟩
    obtain rfl := harg2.eq_unread hf0
    obtain rfl := harg4.eq_unread hfm; obtain rfl := harg5.eq_unread hfs
    sl_exec (disch := first | exact hc0 | exact hc1)
    sl_step
    iapply Hk
    isplitl [H0]
    · iexists _; isplitr; · ipureintro; exact harg2.read_unread _
      iexact H0
    isplitl [H1]; · iexists _; iexact H1
    isplitl [HM]; · iexists _; iexact HM
    iexists _; iexact HS

end Cert.KernelIdeal.Hand

end
-- ==== Proof.KILse.lean ====
/-
  The first region's proof data and body obligation.  What the two scratch buffers hold after point `n` is defined by
  recursion on `n`: at a block's first tile from the tile's logits alone (the scratch is reset first), at every other
  tile from the tile's logits and what point `n - 1` left.  The output block is stored at a block's last tile only.
-/
import proofs.«151323_j54468775248230_1_alg».proof.Proof.Gen.KernelIdeal.Launch
import proofs.«151323_j54468775248230_1_alg».proof.Proof.Gen.KernelIdeal.Skeleton
import proofs.«151323_j54468775248230_1_alg».proof.Proof.Gen.KernelIdeal.Points
import proofs.«151323_j54468775248230_1_alg».proof.Proof.KILseRuns
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The logits' staging buffer holds their block at every point. -/
theorem before0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-! ## What each case leaves -/

/-- The first tile's pieces cover each scratch buffer. -/
theorem firstCoverM (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) (y : S8x128.Idx) :
    ∃ pc ∈ (runFirst c i a2 h2 a3 h3 a4 h4 a5 h5 hc0 hc1 x0).1, y ∈ pc.1.set :=
  View.cover_of_tiledL (runFirst c i a2 h2 a3 h3 a4 h4 a5 h5 hc0 hc1 x0).1 S8x128.size (by sl_kernel_rfl) y
theorem firstCoverS (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) (y : S8x128.Idx) :
    ∃ pc ∈ (runFirst c i a2 h2 a3 h3 a4 h4 a5 h5 hc0 hc1 x0).2.1, y ∈ pc.1.set :=
  View.cover_of_tiledL (runFirst c i a2 h2 a3 h3 a4 h4 a5 h5 hc0 hc1 x0).2.1 S8x128.size (by sl_kernel_rfl) y
/-- What the first tile leaves in the running maximum's and the running sum's buffers. -/
def firstMax (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) : Vec F S8x128 .f32 :=
  maxView.read (Elt F) (maxView.writes (Elt F) maxView.junk (runFirst c i a2 h2 a3 h3 a4 h4 a5 h5 hc0 hc1 x0).1)
def firstSum (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) : Vec F S8x128 .f32 :=
  sumView.read (Elt F) (sumView.writes (Elt F) sumView.junk (runFirst c i a2 h2 a3 h3 a4 h4 a5 h5 hc0 hc1 x0).2.1)

theorem midCoverM (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) (y : S8x128.Idx) :
    ∃ pc ∈ (runMiddle c i a2 h2 a3 h3 a4 h4 a5 h5 hc0 hc1 x0 xm xs).1, y ∈ pc.1.set :=
  View.cover_of_tiledL (runMiddle c i a2 h2 a3 h3 a4 h4 a5 h5 hc0 hc1 x0 xm xs).1 S8x128.size (by sl_kernel_rfl) y
theorem midCoverS (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) (y : S8x128.Idx) :
    ∃ pc ∈ (runMiddle c i a2 h2 a3 h3 a4 h4 a5 h5 hc0 hc1 x0 xm xs).2.1, y ∈ pc.1.set :=
  View.cover_of_tiledL (runMiddle c i a2 h2 a3 h3 a4 h4 a5 h5 hc0 hc1 x0 xm xs).2.1 S8x128.size (by sl_kernel_rfl) y
def midMax (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) : Vec F S8x128 .f32 :=
  maxView.read (Elt F) (maxView.writes (Elt F) maxView.junk (runMiddle c i a2 h2 a3 h3 a4 h4 a5 h5 hc0 hc1 x0 xm xs).1)
def midSum (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) : Vec F S8x128 .f32 :=
  sumView.read (Elt F) (sumView.writes (Elt F) sumView.junk (runMiddle c i a2 h2 a3 h3 a4 h4 a5 h5 hc0 hc1 x0 xm xs).2.1)

theorem lastCoverO (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) (y : S8x128.Idx) :
    ∃ pc ∈ (runLast c i a2 h2 a3 h3 a4 h4 a5 h5 hc0 hc1 x0 xm xs).1, y ∈ pc.1.set :=
  View.cover_of_tiledL (runLast c i a2 h2 a3 h3 a4 h4 a5 h5 hc0 hc1 x0 xm xs).1 S8x128.size (by sl_kernel_rfl) y
theorem lastCoverM (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) (y : S8x128.Idx) :
    ∃ pc ∈ (runLast c i a2 h2 a3 h3 a4 h4 a5 h5 hc0 hc1 x0 xm xs).2.1, y ∈ pc.1.set :=
  View.cover_of_tiledL (runLast c i a2 h2 a3 h3 a4 h4 a5 h5 hc0 hc1 x0 xm xs).2.1 S8x128.size (by sl_kernel_rfl) y
theorem lastCoverS (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) (y : S8x128.Idx) :
    ∃ pc ∈ (runLast c i a2 h2 a3 h3 a4 h4 a5 h5 hc0 hc1 x0 xm xs).2.2.1, y ∈ pc.1.set :=
  View.cover_of_tiledL (runLast c i a2 h2 a3 h3 a4 h4 a5 h5 hc0 hc1 x0 xm xs).2.2.1 S8x128.size (by sl_kernel_rfl) y
def lastOut (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) : Vec F S8x128 .f32 :=
  outView.read (Elt F) (outView.writes (Elt F) outView.junk (runLast c i a2 h2 a3 h3 a4 h4 a5 h5 hc0 hc1 x0 xm xs).1)
def lastMax (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) : Vec F S8x128 .f32 :=
  maxView.read (Elt F) (maxView.writes (Elt F) maxView.junk (runLast c i a2 h2 a3 h3 a4 h4 a5 h5 hc0 hc1 x0 xm xs).2.1)
def lastSum (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) : Vec F S8x128 .f32 :=
  sumView.read (Elt F) (sumView.writes (Elt F) sumView.junk (runLast c i a2 h2 a3 h3 a4 h4 a5 h5 hc0 hc1 x0 xm xs).2.2.1)

/-! ## Point by point -/

/-- What the output's staging buffer (first component; a placeholder where nothing is stored into it) and the two
    scratch buffers (maximum, sum) hold after the body at position `n`. -/
def leftAt (c : Dev nD) : (n : ℕ) → n < cfg0.N → Vec F S8x128 .f32 × Vec F S8x128 .f32 × Vec F S8x128 .f32
  | 0, hn =>
    (outView.read (Elt F) outView.junk,
     firstMax c (grid0.coords ⟨0, hn⟩) (mIn ⟨0, hn⟩) (hIn ⟨0, hn⟩) (mOut ⟨0, hn⟩) (hOut ⟨0, hn⟩) mMax (Memref.isWhole_whole _) mSum (Memref.isWhole_whole _)
       ((firstTile_iff ⟨0, hn⟩).mpr (Nat.zero_mod _)) (fun h => by have := (lastTile_iff ⟨0, hn⟩).mp h; (try dsimp only at this); omega) (blk0 V c 0 ⟨0, hn⟩),
     firstSum c (grid0.coords ⟨0, hn⟩) (mIn ⟨0, hn⟩) (hIn ⟨0, hn⟩) (mOut ⟨0, hn⟩) (hOut ⟨0, hn⟩) mMax (Memref.isWhole_whole _) mSum (Memref.isWhole_whole _)
       ((firstTile_iff ⟨0, hn⟩).mpr (Nat.zero_mod _)) (fun h => by have := (lastTile_iff ⟨0, hn⟩).mp h; (try dsimp only at this); omega) (blk0 V c 0 ⟨0, hn⟩))
  | n + 1, hn =>
    if h0 : (n + 1) % 25 = 0 then
      (outView.read (Elt F) outView.junk,
       firstMax c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         ((firstTile_iff ⟨n + 1, hn⟩).mpr h0) (fun h => by have := (lastTile_iff ⟨n + 1, hn⟩).mp h; (try dsimp only at this); omega) (blk0 V c 0 ⟨n + 1, hn⟩),
       firstSum c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         ((firstTile_iff ⟨n + 1, hn⟩).mpr h0) (fun h => by have := (lastTile_iff ⟨n + 1, hn⟩).mp h; (try dsimp only at this); omega) (blk0 V c 0 ⟨n + 1, hn⟩))
    else if h1 : (n + 1) % 25 = 24 then
      (lastOut c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) ((lastTile_iff ⟨n + 1, hn⟩).mpr h1) (blk0 V c 0 ⟨n + 1, hn⟩)
         (leftAt c n (Nat.lt_of_succ_lt hn)).2.1 (leftAt c n (Nat.lt_of_succ_lt hn)).2.2,
       lastMax c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) ((lastTile_iff ⟨n + 1, hn⟩).mpr h1) (blk0 V c 0 ⟨n + 1, hn⟩)
         (leftAt c n (Nat.lt_of_succ_lt hn)).2.1 (leftAt c n (Nat.lt_of_succ_lt hn)).2.2,
       lastSum c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) ((lastTile_iff ⟨n + 1, hn⟩).mpr h1) (blk0 V c 0 ⟨n + 1, hn⟩)
         (leftAt c n (Nat.lt_of_succ_lt hn)).2.1 (leftAt c n (Nat.lt_of_succ_lt hn)).2.2)
    else
      (outView.read (Elt F) outView.junk,
       midMax c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) (fun h => h1 ((lastTile_iff ⟨n + 1, hn⟩).mp h)) (blk0 V c 0 ⟨n + 1, hn⟩)
         (leftAt c n (Nat.lt_of_succ_lt hn)).2.1 (leftAt c n (Nat.lt_of_succ_lt hn)).2.2,
       midSum c (grid0.coords ⟨n + 1, hn⟩) (mIn ⟨n + 1, hn⟩) (hIn ⟨n + 1, hn⟩) (mOut ⟨n + 1, hn⟩) (hOut ⟨n + 1, hn⟩) mMax (Memref.isWhole_whole _) mSum (Memref.isWhole_whole _)
         (fun h => h0 ((firstTile_iff ⟨n + 1, hn⟩).mp h)) (fun h => h1 ((lastTile_iff ⟨n + 1, hn⟩).mp h)) (blk0 V c 0 ⟨n + 1, hn⟩)
         (leftAt c n (Nat.lt_of_succ_lt hn)).2.1 (leftAt c n (Nat.lt_of_succ_lt hn)).2.2)

/-- `leftAt` at a block's first tile. -/
theorem leftAt_first (c : Dev nD) (t : Fin cfg0.N) (h0 : t.val % 25 = 0) (hc1 : ¬lastTile (grid0.coords t)) :
    leftAt V c t.val t.isLt = (outView.read (Elt F) outView.junk,
      firstMax c (grid0.coords t) (mIn t) (hIn t) (mOut t) (hOut t) mMax (Memref.isWhole_whole _) mSum (Memref.isWhole_whole _) ((firstTile_iff t).mpr h0) hc1 (blk0 V c 0 t),
      firstSum c (grid0.coords t) (mIn t) (hIn t) (mOut t) (hOut t) mMax (Memref.isWhole_whole _) mSum (Memref.isWhole_whole _) ((firstTile_iff t).mpr h0) hc1 (blk0 V c 0 t)) := by
  obtain ⟨n, hn⟩ := t
  cases n with
  | zero => exact rfl
  | succ n => exact (dif_pos h0).trans rfl

/-- `leftAt` at a middle tile, over what the point before left. -/
theorem leftAt_mid (c : Dev nD) (t : Fin cfg0.N) (h0 : ¬t.val % 25 = 0) (h1 : ¬t.val % 25 = 24) :
    leftAt V c t.val t.isLt = (outView.read (Elt F) outView.junk,
      midMax c (grid0.coords t) (mIn t) (hIn t) (mOut t) (hOut t) mMax (Memref.isWhole_whole _) mSum (Memref.isWhole_whole _) (fun h => h0 ((firstTile_iff t).mp h)) (fun h => h1 ((lastTile_iff t).mp h)) (blk0 V c 0 t)
        (leftAt V c (t.val - 1) (Nat.lt_of_le_of_lt (Nat.sub_le _ _) t.isLt)).2.1 (leftAt V c (t.val - 1) (Nat.lt_of_le_of_lt (Nat.sub_le _ _) t.isLt)).2.2,
      midSum c (grid0.coords t) (mIn t) (hIn t) (mOut t) (hOut t) mMax (Memref.isWhole_whole _) mSum (Memref.isWhole_whole _) (fun h => h0 ((firstTile_iff t).mp h)) (fun h => h1 ((lastTile_iff t).mp h)) (blk0 V c 0 t)
        (leftAt V c (t.val - 1) (Nat.lt_of_le_of_lt (Nat.sub_le _ _) t.isLt)).2.1 (leftAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `leftAt` at a block's last tile, over what the point before left. -/
theorem leftAt_last (c : Dev nD) (t : Fin cfg0.N) (h0 : ¬t.val % 25 = 0) (h1 : t.val % 25 = 24) :
    leftAt V c t.val t.isLt = (
      lastOut c (grid0.coords t) (mIn t) (hIn t) (mOut t) (hOut t) mMax (Memref.isWhole_whole _) mSum (Memref.isWhole_whole _) (fun h => h0 ((firstTile_iff t).mp h)) ((lastTile_iff t).mpr h1) (blk0 V c 0 t)
        (leftAt V c (t.val - 1) (Nat.lt_of_le_of_lt (Nat.sub_le _ _) t.isLt)).2.1 (leftAt V c (t.val - 1) (Nat.lt_of_le_of_lt (Nat.sub_le _ _) t.isLt)).2.2,
      lastMax c (grid0.coords t) (mIn t) (hIn t) (mOut t) (hOut t) mMax (Memref.isWhole_whole _) mSum (Memref.isWhole_whole _) (fun h => h0 ((firstTile_iff t).mp h)) ((lastTile_iff t).mpr h1) (blk0 V c 0 t)
        (leftAt V c (t.val - 1) (Nat.lt_of_le_of_lt (Nat.sub_le _ _) t.isLt)).2.1 (leftAt V c (t.val - 1) (Nat.lt_of_le_of_lt (Nat.sub_le _ _) t.isLt)).2.2,
      lastSum c (grid0.coords t) (mIn t) (hIn t) (mOut t) (hOut t) mMax (Memref.isWhole_whole _) mSum (Memref.isWhole_whole _) (fun h => h0 ((firstTile_iff t).mp h)) ((lastTile_iff t).mpr h1) (blk0 V c 0 t)
        (leftAt V c (t.val - 1) (Nat.lt_of_le_of_lt (Nat.sub_le _ _) t.isLt)).2.1 (leftAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant that carries the scratch -/

/-- Before position `n`: at the very first point whatever the launch hands over; afterwards the two scratch buffers at what
    point `n - 1` left, the other region's staging buffers and the generator register at anything. -/
def carried (c : Dev nD) : (n : ℕ) → n ≤ cfg0.N → sProp 𝕄
  | 0, _ => Pipeline.ΦA spec0 c
  | n + 1, hn => iprop(iprop(owns (c : Thread nD τ) mMax fullShare (leftAt V c n hn).2.1 ∗ owns (c : Thread nD τ) mSum fullShare (leftAt V c n hn).2.2 ∗ otherStaging c) ∗ (∃ r, prngReg c r))

theorem carried_zero (c : Dev nD) (n : ℕ) (h : n ≤ cfg0.N) (hz : n = 0) : carried V c n h = Pipeline.ΦA spec0 c := by
  subst hz; rfl
theorem carried_succ (c : Dev nD) (n : ℕ) (hn : n < cfg0.N) :
    carried V c (n + 1) hn = iprop(iprop(owns (c : Thread nD τ) mMax fullShare (leftAt V c n hn).2.1 ∗ owns (c : Thread nD τ) mSum fullShare (leftAt V c n hn).2.2 ∗ otherStaging c) ∗ (∃ r, prngReg c r)) := rfl
theorem carried_pos (c : Dev nD) (n : ℕ) (h : n ≤ cfg0.N) (hz : n ≠ 0) :
    carried V c n h = iprop(iprop(owns (c : Thread nD τ) mMax fullShare (leftAt V c (n - 1) (by omega)).2.1 ∗ owns (c : Thread nD τ) mSum fullShare (leftAt V c (n - 1) (by omega)).2.2 ∗ otherStaging c) ∗ (∃ r, prngReg c r)) := by
  cases n with
  | zero => exact absurd rfl hz
  | succ n => rfl

/-! ## The proof data -/

def lseDat (c : Dev nD) : Dat τ (Elt F) Unit ℕ (UR sig nD τ) ℕ cfg0 c where
  A w := V c (Pipeline.arrRef spec0 w)
  after w t := match w with
    | ⟨0, _⟩ => blk0 V c 0 t
    | ⟨1, _⟩ => (leftAt V c t.val t.isLt).1
  Φ t := carried V c t.val (Nat.le_of_lt_succ t.isLt)
  q _ := fullShare
  owed _ := 0

theorem lseDat_A (c : Dev nD) (w : Fin cfg0.W) : (lseDat V c).A w = V c (Pipeline.arrRef spec0 w) := by
  dsimp only [lseDat]
theorem carried_castSucc (c : Dev nD) (t : Fin cfg0.N) :
    (lseDat V c).Φ t.castSucc = carried V c t.val (Nat.le_of_lt t.isLt) := by
  dsimp only [lseDat]; simp only [Fin.coe_castSucc]
theorem lseAfter_0 (c : Dev nD) (t : Fin cfg0.N) : (lseDat V c).after 0 t = blk0 V c 0 t := by dsimp only [lseDat]
theorem lseAfter_1 (c : Dev nD) (t : Fin cfg0.N) : (lseDat V c).after 1 t = (leftAt V c t.val t.isLt).1 := by dsimp only [lseDat]
theorem lseBefore_0 (c : Dev nD) (t : Fin cfg0.N) (d) : (lseDat V c).before 0 t d = blk0 V c 0 t :=
  before0_0_of V (lseDat V c) (lseDat_A V c 0) (lseAfter_0 V c) t d

/-! ## The body obligation -/

def lsePre (c : Dev nD) (t : Fin cfg0.N) : sProp 𝕄 :=
  iprop((lseDat V c).Φ t.castSucc ∗ (lseDat V c).owesAt () t.castSucc
    ∗ (∃ d, owns (c : Thread nD τ) (mIn t) fullShare ((lseDat V c).before 0 t d))
    ∗ (∃ d, owns (c : Thread nD τ) (mOut t) fullShare ((lseDat V c).before 1 t d)))

def lsePost (c : Dev nD) (t : Fin cfg0.N) : sProp 𝕄 :=
  iprop((lseDat V c).Φ t.succ ∗ (lseDat V c).owesAt () t.succ
    ∗ (lseDat V c).leavesExact 0 t
    ∗ (lseDat V c).leavesExact 1 t)

set_option maxHeartbeats 4800000 in
/-- The body at any point.  The closed forms say which case the point is in; the invariant hands the body the two scratch
    buffers (at anything at the very first point, at what the point before left afterwards) and takes them back at this
    point's contents; where the output is idle its buffer is handed back as found. -/
theorem lseBody (c : Dev nD) (t : Fin cfg0.N) :
    lsePre V c t ⊢ wp frame (wpE (defs₀ (F := F)) Variants.none c none) Set.univ (bodyAt0 t) (fun _ => lsePost V c t) := by
  unfold lsePre lsePost bodyAt0
  simp only [lseBefore_0]
  rw [show (lseDat V c).owesAt () t.succ = (lseDat V c).owesAt () t.castSucc from rfl]
  rw [show (lseDat V c).Φ t.succ = carried V c (t.val + 1) t.isLt from rfl, carried_succ]
  have hN : t.val < 100 := lt_of_lt_of_eq t.isLt (show cfg0.N = 100 from N_0)
  rw [show (lseDat V c).leavesExact 0 t = owns (c : Thread nD τ) (mIn t) fullShare ((lseDat V c).after 0 t) from by
    unfold Dat.leavesExact; rw [live_in t], lseAfter_0]
  by_cases h0 : t.val % 25 = 0
  · have hc1 : ¬lastTile (grid0.coords t) := fun h => by have := (lastTile_iff t).mp h; omega
    rw [Dat.leavesExact_idle (lseDat V c) 1 t (idle_out t hc1) (noFlush_out t hc1)]
    rw [leftAt_first V c t h0 hc1]
    unfold firstMax firstSum; (try dsimp only)
    by_cases hz : t.val = 0
    · rw [carried_castSucc V c t, carried_zero V c _ _ hz, scopedAtAnything]
      iintro ⟨⟨⟨HM, HS, HR⟩, Hg⟩, Ho, ⟨%d0, H0⟩, ⟨%d1, H1⟩⟩
      iapply ((runFirst c (grid0.coords t) _ _ _ _ _ _ _ _ ((firstTile_iff t).mpr h0) hc1 (blk0 V c 0 t)).2.2 _ Set.univ _)
      isplitl [H0]; · iexact H0
      isplitl [H1]; · iexact H1
      isplitl [HM]; · iexact HM
      isplitl [HS]; · iexact HS
      iintro ⟨H0, H1, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (firstCoverM c _ _ _ _ _ _ _ _ _ _ _ _)
          isplitl [HS]
          · unfold owns; iexists _; isplitr
            swap; · iexact HS
            ipureintro; exact View.read_writes_of_cover _ _ _ _ _ (firstCoverS c _ _ _ _ _ _ _ _ _ _ _ _)
          iexact HR
        iexact Hg
      isplitl [Ho]; · iexact Ho
      isplitl [H0]; · iexact H0
      iexists _; iexact H1
    · rw [carried_castSucc V c t, carried_pos V c _ _ hz]
      iintro ⟨⟨⟨HM, HS, HR⟩, Hg⟩, Ho, ⟨%d0, H0⟩, ⟨%d1, H1⟩⟩
      iapply ((runFirst c (grid0.coords t) _ _ _ _ _ _ _ _ ((firstTile_iff t).mpr h0) hc1 (blk0 V c 0 t)).2.2 _ Set.univ _)
      isplitl [H0]; · iexact H0
      isplitl [H1]; · iexact H1
      isplitl [HM]; · iexists _; iexact HM
      isplitl [HS]; · iexists _; iexact HS
      iintro ⟨H0, H1, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (firstCoverM c _ _ _ _ _ _ _ _ _ _ _ _)
          isplitl [HS]
          · unfold owns; iexists _; isplitr
            swap; · iexact HS
            ipureintro; exact View.read_writes_of_cover _ _ _ _ _ (firstCoverS c _ _ _ _ _ _ _ _ _ _ _ _)
          iexact HR
        iexact Hg
      isplitl [Ho]; · iexact Ho
      isplitl [H0]; · iexact H0
      iexists _; iexact H1
  · have hz : t.val ≠ 0 := fun h => h0 (by rw [h])
    by_cases h1 : t.val % 25 = 24
    · have hc0 : ¬firstTile (grid0.coords t) := fun h => h0 ((firstTile_iff t).mp h)
      have hc1 : lastTile (grid0.coords t) := (lastTile_iff t).mpr h1
      rw [show (lseDat V c).leavesExact 1 t = owns (c : Thread nD τ) (mOut t) fullShare ((lseDat V c).after 1 t) from by
        unfold Dat.leavesExact; rw [live_out t hc1], lseAfter_1]
      rw [leftAt_last V c t h0 h1]
      unfold lastOut lastMax lastSum; (try dsimp only)
      rw [carried_castSucc V c t, carried_pos V c _ _ hz]
      iintro ⟨⟨⟨HM, HS, HR⟩, Hg⟩, Ho, ⟨%d0, H0⟩, ⟨%d1, H1⟩⟩
      iapply ((runLast c (grid0.coords t) _ _ _ _ _ _ _ _ hc0 hc1 (blk0 V c 0 t) _ _).2.2.2 Set.univ _)
      isplitl [H0]; · iexact H0
      isplitl [H1]; · iexists _; iexact H1
      isplitl [HM]; · iexact HM
      isplitl [HS]; · iexact HS
      iintro ⟨H0, ⟨%eo, H1⟩, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (lastCoverM c _ _ _ _ _ _ _ _ _ _ _ _ _ _)
          isplitl [HS]
          · unfold owns; iexists _; isplitr
            swap; · iexact HS
            ipureintro; exact View.read_writes_of_cover _ _ _ _ _ (lastCoverS c _ _ _ _ _ _ _ _ _ _ _ _ _ _)
          iexact HR
        iexact Hg
      isplitl [Ho]; · iexact Ho
      isplitl [H0]; · iexact H0
      unfold owns; iexists _; isplitr
      swap; · iexact H1
      ipureintro; exact View.read_writes_of_cover _ _ _ _ _ (lastCoverO c _ _ _ _ _ _ _ _ _ _ _ _ _ _)
    · have hc0 : ¬firstTile (grid0.coords t) := fun h => h0 ((firstTile_iff t).mp h)
      have hc1 : ¬lastTile (grid0.coords t) := fun h => h1 ((lastTile_iff t).mp h)
      rw [Dat.leavesExact_idle (lseDat V c) 1 t (idle_out t hc1) (noFlush_out t hc1)]
      rw [leftAt_mid V c t h0 h1]
      unfold midMax midSum; (try dsimp only)
      rw [carried_castSucc V c t, carried_pos V c _ _ hz]
      iintro ⟨⟨⟨HM, HS, HR⟩, Hg⟩, Ho, ⟨%d0, H0⟩, ⟨%d1, H1⟩⟩
      iapply ((runMiddle c (grid0.coords t) _ _ _ _ _ _ _ _ hc0 hc1 (blk0 V c 0 t) _ _).2.2 _ Set.univ _)
      isplitl [H0]; · iexact H0
      isplitl [H1]; · iexact H1
      isplitl [HM]; · iexact HM
      isplitl [HS]; · iexact HS
      iintro ⟨H0, H1, ⟨%em, HM⟩, ⟨%es, HS⟩⟩
      isplitl [HM HS HR Hg]
      · isplitl [HM HS HR]
        · isplitl [HM]
          · unfold owns; iexists _; isplitr
            swap; · iexact HM
            ipureintro; exact View.read_writes_of_cover _ _ _ _ _ (midCoverM c _ _ _ _ _ _ _ _ _ _ _ _ _ _)
          isplitl [HS]
          · unfold owns; iexists _; isplitr
            swap; · iexact HS
            ipureintro; exact View.read_writes_of_cover _ _ _ _ _ (midCoverS c _ _ _ _ _ _ _ _ _ _ _ _ _ _)
          iexact HR
        iexact Hg
      isplitl [Ho]; · iexact Ho
      isplitl [H0]; · iexact H0
      iexists _; iexact H1

/-- The body obligation of the first region, at every point. -/
theorem lseObligation (c : Dev nD) : BodyObligation (lseDat (F := F) V c) (defs₀ (F := F)) Variants.none () Set.univ := fun t => by
  rw [bigSep_W0, bigSep_W0]
  exact lseBody V c t

/-- What the launch hands the region is the invariant before the first point. -/
theorem lseIn (c : Dev nD) : Pipeline.ΦA spec0 c ⊢ (lseDat V c).Φ 0 := by
  rw [show (lseDat V c).Φ 0 = carried V c 0 (Nat.zero_le _) from rfl, carried_zero V c 0 _ rfl]
  try exact Idealize.SL.BI.Entails.refl _

/-- After any point but the very first the invariant gives the launch's form back, the scratch contents forgotten. -/
theorem lseOutAt (c : Dev nD) (t : Fin (cfg0.N + 1)) (ht : t.val ≠ 0) : (lseDat V c).Φ t ⊢ Pipeline.ΦA spec0 c := by
  rw [show (lseDat V c).Φ t = carried V c t.val (Nat.le_of_lt_succ t.isLt) from rfl, carried_pos V c _ _ ht, scopedAtAnything]
  iintro ⟨⟨HM, HS, HR⟩, Hg⟩
  isplitl [HM HS HR]
  · isplitl [HM]; · iexists _; iexact HM
    isplitl [HS]; · iexists _; iexact HS
    iexact HR
  iexact Hg

/-- So it does after the last point. -/
theorem lseOut (c : Dev nD) : (lseDat V c).Φ (Fin.last cfg0.N) ⊢ Pipeline.ΦA spec0 c :=
  lseOutAt V c _ (by rw [Fin.val_last]; have : cfg0.N = 100 := N_0; omega)

end

end Cert.KernelIdeal.Hand

end
-- ==== Proof.KIMse.lean ====
/-
  The second region: the per-patch mean squared error.  Four grid points, one per block of eight images; at a
  point the body loads the block of the predicted and of the true images whole, and stores the block of means
  whole — nothing is kept between points.  Stated at a parameter `V`, the buffers' contents when the region is
  entered.
-/
import proofs.«151323_j54468775248230_1_alg».proof.Proof.Gen.KernelIdeal.Launch
import proofs.«151323_j54468775248230_1_alg».proof.Proof.Gen.KernelIdeal.Skeleton
import proofs.«151323_j54468775248230_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The true images' staging buffer holds their block at every point. -/
theorem before1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The predicted images' staging buffer holds their block at every point. -/
theorem before1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole image block and the whole block of means, as the body's rectangles. -/
abbrev rImg : Rect S8x196x768 := Rect.unit (s := S8x196x768) ![0, 0, 0] S8x196x768.size inb_S8x196x768_S8x196x768_0_0_0
abbrev rMse : Rect S8x196 := Rect.unit (s := S8x196) ![0, 0] S8x196.size inb_S8x196_S8x196_0_0

/-- What the body leaves in the means' staging buffer from the true block `x0` and the predicted block `x1`:
    its one store, of the mean over the last axis of the squared difference. -/
def mseOut (x0 x1 : Vec F S8x196x768 .f32) : Vec F S8x196 .f32 :=
  View.canon [⟨rMse, k1_pay1 (View.ld x1 rImg) (View.ld x0 rImg)⟩]

/-- That one store covers the buffer. -/
theorem mseCover (p0 : Vec F S8x196 .f32) (y : S8x196.Idx) :
    ∃ pc ∈ ([⟨rMse, p0⟩] : List (View.Piece (Elt F) S8x196 .f32)), y ∈ pc.1.set :=
  View.cover_of_tiled [⟨rMse, p0⟩] S8x196.size (by rfl) y

set_option maxHeartbeats 1000000 in
/-- The body on whole staging memrefs, the inputs' at contents `x0`, `x1` and the output's at anything: it ends with
    the inputs' as they were and the output's at `mseOut x0 x1`. -/
theorem mseKernel (c : Dev nD) (E : Set ℕ) (i : grid1.Coords) (arg1 : Memref sig .tc .vmem S8x196x768 .f32) (harg1 : arg1.IsWhole)
    (arg2 : Memref sig .tc .vmem S8x196x768 .f32) (harg2 : arg2.IsWhole) (arg3 : Memref sig .tc .vmem S8x196 .f32) (harg3 : arg3.IsWhole)
    (x0 x1 : Vec F S8x196x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (mseOut x0 x1)) -∗ K ⟨⟩))
      ⊢ wp frame (wpE (defs₀ (F := F)) Variants.none c none) E (cc1__mse_kernel i arg1 harg1 arg2 harg2 arg3 harg3) K := by
  simp only [cc1__mse_kernel_eq_skeleton]; unfold cc1__mse_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (mseCover _)

/-- The region's proof data on core `c`: the arrays as the region finds them; after the body at point `t` each input's
    buffer at its block and the output's at `mseOut` of the two blocks; the invariant the scoped rest and the generator
    register, untouched; nothing owed; full shares. -/
def mseDat (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => mseOut (blk1 V c 0 t) (blk1 V c 1 t)
  Φ _ := Pipeline.ΦA spec1 c
  q _ := fullShare
  owed _ := 0

theorem mseDat_A (c : Dev nD) (w : Fin cfg1.W) : (mseDat V c).A w = V c (Pipeline.arrRef spec1 w) := by
  dsimp only [mseDat]
theorem mseAfter_0 (c : Dev nD) (t : Fin cfg1.N) : (mseDat V c).after 0 t = blk1 V c 0 t := by dsimp only [mseDat]
theorem mseAfter_1 (c : Dev nD) (t : Fin cfg1.N) : (mseDat V c).after 1 t = blk1 V c 1 t := by dsimp only [mseDat]
theorem mseAfter_2 (c : Dev nD) (t : Fin cfg1.N) : (mseDat V c).after 2 t = mseOut (blk1 V c 0 t) (blk1 V c 1 t) := by dsimp only [mseDat]
theorem mseBefore_0 (c : Dev nD) (t : Fin cfg1.N) (d) : (mseDat V c).before 0 t d = blk1 V c 0 t :=
  before1_0_of V (mseDat V c) (mseDat_A V c 0) (mseAfter_0 V c) t d
theorem mseBefore_1 (c : Dev nD) (t : Fin cfg1.N) (d) : (mseDat V c).before 1 t d = blk1 V c 1 t :=
  before1_1_of V (mseDat V c) (mseDat_A V c 1) (mseAfter_1 V c) t d

/-- What the body is called with at point `t`, -/
def msePre (c : Dev nD) (t : Fin cfg1.N) : sProp 𝕄 :=
  iprop((mseDat V c).Φ t.castSucc ∗ (mseDat V c).owesAt () t.castSucc
    ∗ (∃ d, owns (c : Thread nD τ) (st1_0 t) fullShare ((mseDat V c).before 0 t d))
    ∗ (∃ d, owns (c : Thread nD τ) (st1_1 t) fullShare ((mseDat V c).before 1 t d))
    ∗ (∃ d, owns (c : Thread nD τ) (st1_2 t) fullShare ((mseDat V c).before 2 t d)))

/-- and what it returns. -/
def msePost (c : Dev nD) (t : Fin cfg1.N) : sProp 𝕄 :=
  iprop((mseDat V c).Φ t.succ ∗ (mseDat V c).owesAt () t.succ
    ∗ owns (c : Thread nD τ) (st1_0 t) fullShare ((mseDat V c).after 0 t)
    ∗ owns (c : Thread nD τ) (st1_1 t) fullShare ((mseDat V c).after 1 t)
    ∗ owns (c : Thread nD τ) (st1_2 t) fullShare ((mseDat V c).after 2 t))

/-- The body at any point: the inputs' memrefs hold their blocks, so `mseKernel` applies; the invariant and the
    core's dues pass through unread. -/
theorem mseBody (c : Dev nD) (t : Fin cfg1.N) :
    msePre V c t ⊢ wp frame (wpE (defs₀ (F := F)) Variants.none c none) Set.univ (bodyAt1 t) (fun _ => msePost V c t) := by
  unfold msePre msePost bodyAt1
  simp only [mseBefore_0, mseBefore_1]
  rw [show (mseDat V c).Φ t.succ = (mseDat V c).Φ t.castSucc from rfl,
    show (mseDat V c).owesAt () t.succ = (mseDat V c).owesAt () t.castSucc from rfl,
    mseAfter_0, mseAfter_1, mseAfter_2]
  iintro ⟨HΦ, Ho, ⟨%d0, H0⟩, ⟨%d1, H1⟩, ⟨%d2, H2⟩⟩
  iapply (mseKernel c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the second region, at every point. -/
theorem mseObligation (c : Dev nD) : BodyObligation (mseDat (F := F) V c) (defs₀ (F := F)) Variants.none () Set.univ := fun t => by
  rw [bigSep_W1, bigSep_W1]
  exact mseBody V c t

end

end Cert.KernelIdeal.Hand

end
-- ==== Proof.KIRun.lean ====
/-
  The whole run of @main: the first region, three stretches of host operations, the second region, the last stretch.
  Between two items every unscoped buffer is held at a named valuation: the launch contents, then what an item leaves.
  A region leaves its output array at what its write-backs fold to and everything else as entered; a host stretch
  leaves the composition of its operations.  Every weakly fair execution terminates, and the final memory holds every
  unscoped buffer at the last valuation — from which the arguments (unchanged) and the result are read.
-/
import proofs.«151323_j54468775248230_1_alg».proof.Proof.Gen.KernelIdeal.Launch
import proofs.«151323_j54468775248230_1_alg».proof.Proof.Gen.KernelIdeal.Skeleton
import proofs.«151323_j54468775248230_1_alg».proof.Proof.Gen.KernelIdeal.Points
import proofs.«151323_j54468775248230_1_alg».proof.Proof.Gen.KernelIdeal.Regions
import proofs.«151323_j54468775248230_1_alg».proof.Proof.KILse
import proofs.«151323_j54468775248230_1_alg».proof.Proof.KIMse
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! ## The run, given the regions' records -/

set_option backward.isDefEq.respectTransparency.types false in
/-- For any contents `outs` the regions leave and any proof data: given, per region, a segment record entered from the
    valuation before it and left at the one after it, every weakly fair execution of @main terminates and the final memory
    holds every unscoped buffer at the last valuation. -/
theorem run_cond (m : (ℓ : Loc nD τ sig) → Buf (Elt F) ℓ) {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V0 m c) ∗ E 0 c) ⊢ R0.pre c)
    (hpost0 : ∀ c : Dev nD, R0.post c ⊢ iprop(StableHlo.held (c : Thread nD τ) (Pipeline.ucRefs τ sig) (V1 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V4 m outs c) ∗ E 1 c) ⊢ R1.pre c)
    (hpost1 : ∀ c : Dev nD, R1.post c ⊢ iprop(StableHlo.held (c : Thread nD τ) (Pipeline.ucRefs τ sig) (V5 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V6 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V6 m outs c))
    (hch := fun c => ⟨hpre0 c, hpost0 c, .rfl, .rfl, hpre1 c, hpost1 c, sep_mono .rfl (hE2 c)⟩)
    (hinit := ?_) (QY := fun c s => ∀ b ∈ Pipeline.ucRefs τ sig, s.mem (((c : Thread nD τ)).1, b) = V6 m outs c b)
    (hfin := fun c s' => ?_) (hQ := fun _ h => h)
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · unfold StableHlo.held
    iintro ⟨Hh, HSI⟩
    ihave Hr := (pointsTo_read_all (Pipeline.ucRefs τ sig) (fun b => ((c : Thread nD τ).1, b)) (V6 m outs c) s') $$ [Hh HSI]
    · isplitl [Hh] <;> iassumption
    icases Hr with ⟨%h, HSI⟩
    imodintro
    isplitr
    · ipureintro; exact h
    · iexact HSI

/-! ## What the regions leave -/

variable (m : (ℓ : Loc nD τ sig) → Buf (Elt F) ℓ) (ρ : Dev nD → PrngReg)

/-- The buffers as the first region finds them: the launch contents. -/
abbrev entry0 (c : Dev nD) (b : Ref sig .tc) : Buf (Elt F) ((c : Thread nD τ).loc b) := V0 m c b
/-- After the first region: its arrays at what its write-backs fold to, every other buffer as entered. -/
def after0 (c : Dev nD) : Valuation τ sig (Elt F) :=
  Pipeline.withArrays spec0 c (V0 m c) fun w => (lseDat (entry0 m) c).arrAt w cfg0.N
/-- The contents the first region leaves, as the unknowns of the valuations. -/
abbrev outsA : Outs (F := F) := fun _ r c => after0 m c r
/-- The buffers as the second region finds them. -/
abbrev entry1 (c : Dev nD) (b : Ref sig .tc) : Buf (Elt F) ((c : Thread nD τ).loc b) := V4 m (outsA m) c b
/-- After the second region. -/
def after1 (c : Dev nD) : Valuation τ sig (Elt F) :=
  Pipeline.withArrays spec1 c (V4 m (outsA m) c) fun w => (mseDat (entry1 m) c).arrAt w cfg1.N
/-- What both regions leave: item 1 reads the first region's, item 5 the second's. -/
abbrev outs : Outs (F := F) := fun J r c => if J = 5 then after1 m c r else after0 m c r

theorem after0_arr (c : Dev nD) (w : Fin cfg0.W) :
    after0 m c (Proc.devRef .tc (Pipeline.arrRef spec0 w)) = (lseDat (entry0 m) c).arrAt w cfg0.N := by
  unfold after0; exact Pipeline.withArrays_arr spec0 launch0.win.arr_inj c _ _ w
theorem after1_arr (c : Dev nD) (w : Fin cfg1.W) :
    after1 m c (Proc.devRef .tc (Pipeline.arrRef spec1 w)) = (mseDat (entry1 m) c).arrAt w cfg1.N := by
  unfold after1; exact Pipeline.withArrays_arr spec1 launch1.win.arr_inj c _ _ w

/-- The valuation after the first region, as the regions' data see it. -/
abbrev exit0 (c : Dev nD) (b : Ref sig .tc) : Buf (Elt F) ((c : Thread nD τ).loc b) := V1 m (outs m) c b
abbrev exit1 (c : Dev nD) (b : Ref sig .tc) : Buf (Elt F) ((c : Thread nD τ).loc b) := V5 m (outs m) c b

/-- The first region's arrays at its exit: the logits as entered, the output at its folded write-backs. -/
theorem exit0_arr (c : Dev nD) (w : Fin cfg0.W) : (lseDat (entry0 m) c).arrAt w cfg0.N = exit0 m c (Pipeline.arrRef spec0 w) := by
  fin_cases w
  · exact ((lseDat (entry0 m) c).arrAt_in 0 rfl _).trans ((lseDat_A (entry0 m) c 0).trans (V1_of m (outs m) c main_arg3 (by decide)).symm)
  · exact ((after0_arr m c 1).symm.trans (by simp only [exit0, V1, Function.update_self]; rfl))
theorem exit0_rest (c : Dev nD) : ∀ b, b ∉ Finset.univ.image (Pipeline.arrRef spec0) → exit0 m c b = entry0 m c b := by
  intro b hb
  refine V1_of m (outs m) c b (fun h => hb ?_)
  simp only [List.mem_singleton] at h
  subst h
  exact Finset.mem_image.mpr ⟨1, Finset.mem_univ _, rfl⟩

/-- The second region is entered from the same valuation whichever way the first region's leavings are named. -/
theorem V4_outs (c : Dev nD) : V4 m (outs m) c = V4 m (outsA m) c := rfl

theorem entry1_eq (c : Dev nD) (b : Ref sig .tc) : (V4 m (outs m) c b : Buf (Elt F) ((c : Thread nD τ).loc b)) = entry1 m c b := rfl

theorem exit1_arr (c : Dev nD) (w : Fin cfg1.W) : (mseDat (entry1 m) c).arrAt w cfg1.N = exit1 m c (Pipeline.arrRef spec1 w) := by
  fin_cases w
  · exact ((mseDat (entry1 m) c).arrAt_in 0 rfl _).trans ((mseDat_A (entry1 m) c 0).trans (V5_of m (outs m) c main_arg0 (by decide)).symm)
  · exact ((mseDat (entry1 m) c).arrAt_in 1 rfl _).trans ((mseDat_A (entry1 m) c 1).trans (V5_of m (outs m) c main_arg2 (by decide)).symm)
  · exact ((after1_arr m c 2).symm.trans (by simp only [exit1, V5, Function.update_self]; rfl))
theorem exit1_rest (c : Dev nD) : ∀ b, b ∉ Finset.univ.image (Pipeline.arrRef spec1) → exit1 m c b = entry1 m c b := by
  intro b hb
  refine V5_of m (outs m) c b (fun h => hb ?_)
  simp only [List.mem_singleton] at h
  subst h
  exact Finset.mem_image.mpr ⟨2, Finset.mem_univ _, rfl⟩

/-! ## The proof data, the thread state, the regions as segments -/

def pdats : (p : Fin 2) → (c : Dev nD) → Dat τ (Elt F) Unit ℕ (UR sig nD τ) ℕ (Pipeline.pin (pcfgs (F := F)) adm p) c
  | ⟨0, _⟩ => fun c => lseDat (entry0 m) c
  | ⟨1, _⟩ => fun c => mseDat (entry1 m) c
abbrev 𝒱₀ : Variants := Variants.none
abbrev Lz : GSem nD τ sig → Finset Unit := fun _ => ∅
abbrev lvz : GSem nD τ sig → Unit → ℕ := fun _ _ => 0
/-- What rides beside the buffers through every item: the generator register at some state and the core owing nothing. -/
abbrev rest (c : Dev nD) : sProp 𝕄 := iprop((∃ r, prngReg c r) ∗ ∃ W, owes (c : Thread nD τ) (0 : CellTallies nD τ sig Unit) W)

set_option backward.isDefEq.respectTransparency.types false in
/-- The first region over the thread state: its arrays split out of the unscoped buffers and put back at the exit
    contents; the generator register into the invariant and out; nothing owed; no semaphore of the kernel's own. -/
def reg0 : RegionSeg (pcfgs (F := F)) adm (pdats m) () defs₀ 𝒱₀ Lz lvz 0 where
  win := launch0.win.to₀
  block_pos := launch0.block_pos
  stage_whole := launch0.stage_whole
  K := PEmpty
  osem k := k.elim
  ho := Pipeline.OwnSemFacts.none _
  hbody c := (lseObligation (entry0 m) c).loose
  hwaits := Pipeline.hwaits_of_owed_zero _ _ _ _ Lz lvz 0 fun _ _ => rfl
  pre c := iprop(StableHlo.held (c : Thread nD τ) (Pipeline.ucRefs τ sig) (V0 m c) ∗ rest c)
  post c := iprop(StableHlo.held (c : Thread nD τ) (Pipeline.ucRefs τ sig) (V1 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (entry0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (entry0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (lseIn (entry0 m) c)
    unfold Pipeline.ΦA
    iintro ⟨Hp, -, Hr⟩
    isplitl [Hr]; · iexact Hr
    iexact Hp
  hout c := by
    rw [Pipeline.ownSems0_none]
    refine (lseOut (entry0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (entry0 m c) (exit0 m c) ((pdats m 0 c).arrAt · cfg0.N) (exit0_arr m c) (exit0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state, likewise; its invariant is the scoped rest and the generator register throughout. -/
def reg1 : RegionSeg (pcfgs (F := F)) adm (pdats m) () defs₀ 𝒱₀ Lz lvz 1 where
  win := launch1.win.to₀
  block_pos := launch1.block_pos
  stage_whole := launch1.stage_whole
  K := PEmpty
  osem k := k.elim
  ho := Pipeline.OwnSemFacts.none _
  hbody c := (mseObligation (entry1 m) c).loose
  hwaits := Pipeline.hwaits_of_owed_zero _ _ _ _ Lz lvz 1 fun _ _ => rfl
  pre c := iprop(StableHlo.held (c : Thread nD τ) (Pipeline.ucRefs τ sig) (V4 m (outsA m) c) ∗ rest c)
  post c := iprop(StableHlo.held (c : Thread nD τ) (Pipeline.ucRefs τ sig) (V5 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (entry1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (entry1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (entry1 m c) (exit1 m c) ((pdats m 1 c).arrAt · cfg1.N) (exit1_arr m c) (exit1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main terminates, and the final memory holds every unscoped buffer at the last valuation. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = V6 m (outs m) c b) :=
  run_cond m emb₁ () 𝒱₀ Lz lvz (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => rest c)
    (by
      have hper : ∀ c : Dev nD, (iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)) : sProp 𝕄) ⊢ (rest c : sProp 𝕄) := fun c => by
        iintro ⟨-, HO, -, Hp, -⟩
        isplitl [Hp]; · iexists _; iexact Hp
        iexists ∅; iexact HO
      have hmono : (bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (BI.emp : sProp 𝕄)))
            ⊢ (bigSep Finset.univ fun c : Dev nD => rest c : sProp 𝕄) :=
        bigSep_mono fun c _ => hper c
      iintro ⟨H, -⟩
      imodintro
      iapply hmono
      iexact H)
    (fun c => by iintro ⟨-, H⟩; iexact H)
    (reg0 m) (fun _ => .rfl) (fun _ => .rfl) (reg1 m) (fun c => by rw [V4_outs m c]; exact .rfl) (fun _ => .rfl)

/-- An unscoped TensorCore reference is among those the final memory is read at. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c),
     (h c _ (mem_uc main_arg10 (by decide))).trans (V6_main_arg10 m (outs m) c)⟩) (run_all m ρ)

end Cert.KernelIdeal.Hand

end
-- ==== Proof.KILsePieces.lean ====
/-
  What each case of the streaming body leaves, in terms of the body's arithmetic.  Every store of the body writes a whole
  buffer, so a buffer ends at its last store's value, and a load after a store reads that value.  Hence: the first tile
  leaves (max, sum) computed from the reset values; every later tile from what the tile before left; the last tile stores
  max + log sum of what it has just computed.
-/
import proofs.«151323_j54468775248230_1_alg».proof.Proof.Gen.KernelIdeal.Launch
import proofs.«151323_j54468775248230_1_alg».proof.Proof.Gen.KernelIdeal.Skeleton
import proofs.«151323_j54468775248230_1_alg».proof.Proof.Gen.KernelIdeal.Points
import proofs.«151323_j54468775248230_1_alg».proof.Proof.KILse
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := by funext a; fin_cases a <;> rfl
theorem zero3 : (![0, 0, 0] : Fin 3 → Nat) = fun _ => 0 := by funext a; fin_cases a <;> rfl

theorem firstMax_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) :
    firstMax c i a2 h2 a3 h3 a4 h4 a5 h5 hc0 hc1 x0 = k0_pay5 x0 (k0_pay1 (F := F)) := by
  unfold firstMax
  rw [View.read_writes_eq_canon _ _ _ (firstCoverM c i a2 h2 a3 h3 a4 h4 a5 h5 hc0 hc1 x0)]
  unfold runFirst; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

theorem firstSum_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : firstTile i) (hc1 : ¬lastTile i)
    (x0 : Vec F S8x128x1280 .f32) :
    firstSum c i a2 h2 a3 h3 a4 h4 a5 h5 hc0 hc1 x0 = k0_pay4 x0 (k0_pay1 (F := F)) (k0_pay1 (F := F)) (k0_pay2 (F := F)) := by
  unfold firstSum
  rw [View.read_writes_eq_canon _ _ _ (firstCoverS c i a2 h2 a3 h3 a4 h4 a5 h5 hc0 hc1 x0)]
  unfold runFirst; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

theorem midMax_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) :
    midMax c i a2 h2 a3 h3 a4 h4 a5 h5 hc0 hc1 x0 xm xs = k0_pay5 x0 xm := by
  unfold midMax
  rw [View.read_writes_eq_canon _ _ _ (midCoverM c i a2 h2 a3 h3 a4 h4 a5 h5 hc0 hc1 x0 xm xs)]
  unfold runMiddle; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

theorem midSum_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : ¬lastTile i)
    (x0 : Vec F S8x128x1280 .f32) (xm xs : Vec F S8x128 .f32) :
    midSum c i a2 h2 a3 h3 a4 h4 a5 h5 hc0 hc1 x0 xm xs = k0_pay4 x0 xm xm xs := by
  unfold midSum
  rw [View.read_writes_eq_canon _ _ _ (midCoverS c i a2 h2 a3 h3 a4 h4 a5 h5 hc0 hc1 x0 xm xs)]
  unfold runMiddle; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

theorem lastMax_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) :
    lastMax c i a2 h2 a3 h3 a4 h4 a5 h5 hc0 hc1 x0 xm xs = k0_pay5 x0 xm := by
  unfold lastMax
  rw [View.read_writes_eq_canon _ _ _ (lastCoverM c i a2 h2 a3 h3 a4 h4 a5 h5 hc0 hc1 x0 xm xs)]
  unfold runLast; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

theorem lastSum_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) :
    lastSum c i a2 h2 a3 h3 a4 h4 a5 h5 hc0 hc1 x0 xm xs = k0_pay4 x0 xm xm xs := by
  unfold lastSum
  rw [View.read_writes_eq_canon _ _ _ (lastCoverS c i a2 h2 a3 h3 a4 h4 a5 h5 hc0 hc1 x0 xm xs)]
  unfold runLast; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

theorem lastOut_eq (c : Dev nD) (i : grid0.Coords) (a2 : Memref sig .tc .vmem S8x128x1280 .f32) (h2 : a2.IsWhole) (a3 : Memref sig .tc .vmem S8x128 .f32) (h3 : a3.IsWhole)
    (a4 : Memref sig .tc .vmem S8x128 .f32) (h4 : a4.IsWhole) (a5 : Memref sig .tc .vmem S8x128 .f32) (h5 : a5.IsWhole) (hc0 : ¬firstTile i) (hc1 : lastTile i)
    (x0 : Vec F S8x128x1280 .f32) (xm xs : Vec F S8x128 .f32) :
    lastOut c i a2 h2 a3 h3 a4 h4 a5 h5 hc0 hc1 x0 xm xs = k0_pay6 (k0_pay5 x0 xm) (k0_pay4 x0 xm xm xs) := by
  unfold lastOut
  rw [View.read_writes_eq_canon _ _ _ (lastCoverO c i a2 h2 a3 h3 a4 h4 a5 h5 hc0 hc1 x0 xm xs)]
  unfold runLast; dsimp only
  sl_unfold_run_names
  rw [View.canon_cons_unit_zero zero2]
  simp only [View.readAt_eq_ld, h2.read_unread, h4.read_unread, h5.read_unread, View.ld_unit_zero (S := S8x128x1280) zero3,
    View.ld_unit_zero (S := S8x128) zero2, View.readCov_unit_zero (S := S8x128) _ zero2]

end Cert.KernelIdeal.Hand

end
-- ==== Proof.LibTiles.lean ====
/-
  A maximum and a sum taken tile by tile.

  A long row is often walked in tiles of a fixed width while a running value is carried along: a running maximum
  that starts at the bottom element and at each tile becomes the larger of itself and the tile's own maximum, or a
  running sum that starts at zero and at each tile gains the tile's own sum. The lemmas below say, in any complete
  linear order, that the running maximum after the tiles covering the indices below `cnt` is the supremum of the row
  over those indices (`above`), that the empty prefix gives the bottom element, that one more tile extends the prefix
  by the tile's width (`above_add`), and that the full prefix is the supremum of the whole row (`above_of_le`). A fold
  of `max` from the bottom element over a finite type is the supremum of the family (`fold_max_bot_eq_iSup`). The
  same four statements hold for the running sum in any additive commutative monoid, with the prefix sum `psum` in
  place of the prefix supremum: `psum_zero`, `psum_add`, `psum_of_le`.
-/
import Mathlib.Order.CompleteLattice.Finset
import Mathlib.Data.Finset.Fold
import Mathlib.Data.Fintype.Basic
import Mathlib.Algebra.BigOperators.Fin

open scoped BigOperators

namespace Cert.Tiles

section Max

variable {α : Type*} [CompleteLinearOrder α]

/-- `max` of two elements is their supremum. -/
theorem max_eq_sup (x y : α) : max x y = x ⊔ y :=
  le_antisymm (max_le le_sup_left le_sup_right) (sup_le (le_max_left _ _) (le_max_right _ _))

/-- The fold of `max` from the bottom element over a finite set is the supremum of the family over the set. -/
theorem fold_max_bot_eq_biSup {ι : Type*} [DecidableEq ι] (g : ι → α) (s : Finset ι) :
    s.fold max ⊥ g = ⨆ k ∈ s, g k := by
  induction s using Finset.induction_on with
  | empty => simp
  | insert a s ha ih => rw [Finset.fold_insert ha, ih, Finset.iSup_insert, max_eq_sup]

/-- The fold of `max` from the bottom element over a whole finite type is the supremum of the family. -/
theorem fold_max_bot_eq_iSup {ι : Type*} [Fintype ι] (g : ι → α) :
    (Finset.univ : Finset ι).fold max ⊥ g = ⨆ k, g k := by
  classical
  rw [fold_max_bot_eq_biSup]
  simp

/-- The supremum of `f` over the indices below `cnt`. -/
def above {N : ℕ} (f : Fin N → α) (cnt : ℕ) : α := ⨆ m : Fin N, ⨆ (_ : m.val < cnt), f m

/-- No index is below zero: the supremum over the empty prefix is the bottom element. -/
theorem above_zero {N : ℕ} (f : Fin N → α) : above f 0 = ⊥ := by
  unfold above
  simp

/-- Every index is below a bound that is at least the length: the prefix is the whole row. -/
theorem above_of_le {N : ℕ} (f : Fin N → α) {cnt : ℕ} (h : N ≤ cnt) : above f cnt = ⨆ m, f m := by
  unfold above
  exact iSup_congr fun m => iSup_pos (lt_of_lt_of_le m.isLt h)

/-- One more tile: the larger of the prefix's supremum and the supremum of a tile of width `T` that holds the entries
    `cnt, cnt + 1, …, cnt + T - 1` is the supremum over the prefix extended by the tile. -/
theorem above_add {N T : ℕ} (f : Fin N → α) (cnt : ℕ) (hc : cnt + T ≤ N) (tile : Fin T → α)
    (ht : ∀ l : Fin T, tile l = f ⟨cnt + l.val, Nat.lt_of_lt_of_le (Nat.add_lt_add_left l.isLt cnt) hc⟩) :
    max (above f cnt) (⨆ l, tile l) = above f (cnt + T) := by
  unfold above
  have key : ∀ (m : Fin N) (c : ℕ), m.val < c → f m ≤ ⨆ m : Fin N, ⨆ (_ : m.val < c), f m := fun m c h =>
    le_trans (le_iSup (fun _ : m.val < c => f m) h) (le_iSup (fun m : Fin N => ⨆ (_ : m.val < c), f m) m)
  apply le_antisymm
  · refine max_le (iSup_le fun m => iSup_le fun hm => key m (cnt + T) (by omega)) (iSup_le fun l => ?_)
    rw [ht]
    have hl := l.isLt
    exact key _ (cnt + T) (by show cnt + l.val < cnt + T; omega)
  · refine iSup_le fun m => iSup_le fun hm => ?_
    by_cases h : m.val < cnt
    · exact (key m cnt h).trans (le_max_left _ _)
    · have hl : m.val - cnt < T := by omega
      refine le_trans ?_ ((le_iSup tile ⟨m.val - cnt, hl⟩).trans (le_max_right _ _))
      rw [ht]
      exact le_of_eq (congrArg f (Fin.ext (by show m.val = cnt + (m.val - cnt); omega)))

end Max

section Sum

variable {M : Type*} [AddCommMonoid M]

/-- The sum of `f` over the indices below `cnt`. -/
def psum {N : ℕ} (f : Fin N → M) (cnt : ℕ) : M := ∑ m : Fin N, if m.val < cnt then f m else 0

/-- No index is below zero: the sum over the empty prefix is zero. -/
theorem psum_zero {N : ℕ} (f : Fin N → M) : psum f 0 = 0 := by
  unfold psum
  simp

/-- Every index is below a bound that is at least the length: the prefix is the whole row. -/
theorem psum_of_le {N : ℕ} (f : Fin N → M) {cnt : ℕ} (h : N ≤ cnt) : psum f cnt = ∑ m, f m := by
  unfold psum
  exact Finset.sum_congr rfl fun m _ => if_pos (lt_of_lt_of_le m.isLt h)

/-- One more entry: the prefix sum up to `c + 1` is the prefix sum up to `c` plus the entry at `c`. -/
theorem psum_succ {N : ℕ} (f : Fin N → M) (c : ℕ) (h : c < N) : psum f (c + 1) = psum f c + f ⟨c, h⟩ := by
  unfold psum
  have split : ∀ m : Fin N, (if m.val < c + 1 then f m else 0)
      = (if m.val < c then f m else 0) + (if m = ⟨c, h⟩ then f m else 0) := by
    intro m
    by_cases h1 : m.val < c
    · have h2 : m ≠ ⟨c, h⟩ := fun e => absurd (congrArg Fin.val e) (Nat.ne_of_lt h1)
      have h3 : m.val < c + 1 := Nat.lt_succ_of_lt h1
      rw [if_pos h1, if_pos h3, if_neg h2, add_zero]
    · by_cases h2 : m = ⟨c, h⟩
      · have h3 : m.val < c + 1 := by rw [h2]; exact Nat.lt_succ_self c
        rw [if_neg h1, if_pos h3, if_pos h2, zero_add]
      · have h3 : ¬ m.val < c + 1 := by
          intro h4
          exact h2 (Fin.ext (by show m.val = c; omega))
        rw [if_neg h1, if_neg h3, if_neg h2, add_zero]
  rw [Finset.sum_congr rfl fun m _ => split m, Finset.sum_add_distrib, Finset.sum_ite_eq' Finset.univ (⟨c, h⟩ : Fin N) f,
    if_pos (Finset.mem_univ _)]

/-- One more tile: the prefix sum plus the sum of a tile of width `T` that holds the entries
    `cnt, cnt + 1, …, cnt + T - 1` is the sum over the prefix extended by the tile. -/
theorem psum_add {N T : ℕ} (f : Fin N → M) (cnt : ℕ) (hc : cnt + T ≤ N) (tile : Fin T → M)
    (ht : ∀ l : Fin T, tile l = f ⟨cnt + l.val, Nat.lt_of_lt_of_le (Nat.add_lt_add_left l.isLt cnt) hc⟩) :
    psum f cnt + ∑ l, tile l = psum f (cnt + T) := by
  induction T with
  | zero => simp
  | succ T ih =>
    have hc' : cnt + T ≤ N := by omega
    have hlast : cnt + T < N := by omega
    rw [Fin.sum_univ_castSucc, ← add_assoc, ih hc' (fun l => tile l.castSucc) (fun l => ht l.castSucc), ht (Fin.last T)]
    exact (psum_succ f (cnt + T) hlast).symm

end Sum

end Cert.Tiles
-- ==== Proof.LibCoeReal.lean ====
/-
  Moving finite sums and finite maxima between the reals and the extended reals.
-/
import Mathlib

namespace Cert.Attention

open Finset

/-- The coercion of a finite real sum is the sum of the coercions. -/
theorem coe_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- Folding `max` from `⊥` over the coercions of a nonempty family of reals gives the coercion of its largest member. -/
theorem fold_max_bot_coe_of_nonempty {ι : Type*} (t : Finset ι) (ht : t.Nonempty) (f : ι → ℝ) :
    Finset.fold max (⊥ : EReal) (fun j => ((f j : ℝ) : EReal)) t = ((t.sup' ht f : ℝ) : EReal) := by
  have h : Finset.fold max (⊥ : EReal) (fun j => ((f j : ℝ) : EReal)) t
      = t.sup (fun j => ((f j : ℝ) : EReal)) := rfl
  rw [h, ← Finset.sup'_eq_sup ht]
  exact (Finset.comp_sup'_eq_sup'_comp ht (fun x : ℝ => (x : EReal)) (fun _ _ => EReal.coe_strictMono.monotone.map_max)).symm

/-- The same over all of `Fin (n+1)`. -/
theorem fold_max_bot_coe {n : ℕ} (f : Fin (n+1) → ℝ) :
    Finset.fold max (⊥ : EReal) (fun j => ((f j : ℝ) : EReal)) Finset.univ
      = ((Finset.univ.sup' ⟨0, Finset.mem_univ _⟩ f : ℝ) : EReal) :=
  fold_max_bot_coe_of_nonempty Finset.univ ⟨0, Finset.mem_univ _⟩ f

end Cert.Attention
-- ==== Proof.LibStreamLse.lean ====
/-
  A log-sum-exp taken tile by tile, on the extended reals.

  A row of N real numbers x is walked in K tiles of width T (N = T·K) while a running maximum m and a running
  rescaled sum l are carried along.  They start at m = -∞, l = 0; a tile with entries y_1 … y_T turns (m, l) into
      m' = max(m, max_j y_j),      l' = exp(m - m') · l + Σ_j exp(y_j - m')
  (with exp(-∞) = 0, so the very first step only takes the tile's own sum).  After k ≥ 1 tiles, m is the largest of
  the first T·k entries, a real number M_k, and l = Σ_{the first T·k entries} exp(x - M_k): the rescaling factor
  exp(M_k - M_{k+1}) turns every old term exp(x - M_k) into exp(x - M_{k+1}).  After the last tile, m is the row's
  maximum M and l = Σ_all exp(x - M) > 0, so m + log l is the row's log-sum-exp, a real number.  Subtracting one
  entry x_i gives the cross entropy M + log Σ exp(x - M) - x_i, which is also what the log-softmax road
  -((x_i - M) - log(0 + Σ exp(x - M))) gives; subtracting -∞ instead gives +∞ on both roads.
-/
import Mathlib
import Idealize.ShloMosaic.PureOps.Ideal
import proofs.«151323_j54468775248230_1_alg».proof.Proof.LibTiles
import proofs.«151323_j54468775248230_1_alg».proof.Proof.LibCoeReal

open scoped BigOperators
open Idealize.ShloMosaic

noncomputable section

namespace Cert.StreamLse

/-- One tile of the streaming log-sum-exp: from the running maximum ml.1 and the running rescaled sum ml.2 to
    m' = max(m, max of the tile) and l' = exp(m - m') · l + Σ_j exp(row_j - m'). -/
def step {n : ℕ} (ml : EReal × EReal) (row : Fin n → EReal) : EReal × EReal :=
  let m' := max ml.1 (Finset.univ.fold max ⊥ row)
  (m', Ideal.exp (ml.1 - m') * ml.2 + ∑ j, Ideal.exp (row j - m'))

/-- The state after the first k tiles x 0, …, x (k-1), from the start m = -∞, l = 0. -/
def run {n : ℕ} (x : ℕ → Fin n → EReal) : ℕ → EReal × EReal
  | 0 => (⊥, 0)
  | k+1 => step (run x k) (x k)

/-- The first tile: from (-∞, 0) a tile of real numbers with maximum R gives (R, Σ_j exp(row_j - R)). -/
theorem step_bot {n : ℕ} (row : Fin n → ℝ) (R : ℝ)
    (hR : Finset.univ.fold max (⊥ : EReal) (fun j => ((row j : ℝ) : EReal)) = (R : EReal)) :
    step ((⊥ : EReal), (0 : EReal)) (fun j => ((row j : ℝ) : EReal))
      = ((R : EReal), ((∑ j, Real.exp (row j - R) : ℝ) : EReal)) := by
  show (max (⊥ : EReal) (Finset.univ.fold max (⊥ : EReal) (fun j => ((row j : ℝ) : EReal))),
      Ideal.exp ((⊥ : EReal) - max (⊥ : EReal) (Finset.univ.fold max (⊥ : EReal) (fun j => ((row j : ℝ) : EReal)))) * (0 : EReal)
        + ∑ j, Ideal.exp (((row j : ℝ) : EReal) - max (⊥ : EReal) (Finset.univ.fold max (⊥ : EReal) (fun j => ((row j : ℝ) : EReal))))) = _
  rw [hR, max_eq_right (bot_le : (⊥ : EReal) ≤ (R : EReal)), mul_zero, zero_add, Attention.coe_sum]
  refine congrArg (Prod.mk (R : EReal)) (Finset.sum_congr rfl fun j _ => ?_)
  rw [← EReal.coe_sub, Ideal.exp_coe]

/-- A later tile: from real numbers (M, S) a tile of real numbers with maximum R gives
    (max M R, exp(M - max M R) · S + Σ_j exp(row_j - max M R)), again real numbers. -/
theorem step_real {n : ℕ} (M S : ℝ) (row : Fin n → ℝ) (R : ℝ)
    (hR : Finset.univ.fold max (⊥ : EReal) (fun j => ((row j : ℝ) : EReal)) = (R : EReal)) :
    step ((M : EReal), (S : EReal)) (fun j => ((row j : ℝ) : EReal))
      = (((max M R : ℝ) : EReal),
          ((Real.exp (M - max M R) * S + ∑ j, Real.exp (row j - max M R) : ℝ) : EReal)) := by
  show (max (M : EReal) (Finset.univ.fold max (⊥ : EReal) (fun j => ((row j : ℝ) : EReal))),
      Ideal.exp ((M : EReal) - max (M : EReal) (Finset.univ.fold max (⊥ : EReal) (fun j => ((row j : ℝ) : EReal)))) * (S : EReal)
        + ∑ j, Ideal.exp (((row j : ℝ) : EReal) - max (M : EReal) (Finset.univ.fold max (⊥ : EReal) (fun j => ((row j : ℝ) : EReal))))) = _
  have hmax : max (M : EReal) (R : EReal) = ((max M R : ℝ) : EReal) :=
    (EReal.coe_strictMono.monotone.map_max).symm
  rw [hR, hmax, EReal.coe_add, EReal.coe_mul, Attention.coe_sum, ← EReal.coe_sub, Ideal.exp_coe]
  refine congrArg (fun s => (((max M R : ℝ) : EReal), ((Real.exp (M - max M R) : ℝ) : EReal) * (S : EReal) + s))
    (Finset.sum_congr rfl fun j _ => ?_)
  rw [← EReal.coe_sub, Ideal.exp_coe]

/-- One tile in the row: if before the tile that holds the entries c, …, c + T - 1 the state is the start (c = 0) or
    is (M, Σ_{entries below c} exp(x - M)) with M the largest entry below c, then after it the state is
    (M', Σ_{entries below c + T} exp(x - M')) with M' the largest entry below c + T. -/
theorem step_tile {N T : ℕ} (hT : 0 < T) (f : Fin N → ℝ) (c : ℕ) (hc : c + T ≤ N) (ml : EReal × EReal)
    (h : (c = 0 ∧ ml = ((⊥ : EReal), (0 : EReal))) ∨
      ∃ M : ℝ, ml = ((M : EReal), ((Tiles.psum (fun m => Real.exp (f m - M)) c : ℝ) : EReal))
        ∧ (M : EReal) = Tiles.above (fun m => ((f m : ℝ) : EReal)) c)
    (tile : Fin T → EReal)
    (ht : ∀ l : Fin T, tile l
      = ((f ⟨c + l.val, Nat.lt_of_lt_of_le (Nat.add_lt_add_left l.isLt c) hc⟩ : ℝ) : EReal)) :
    ∃ M : ℝ, step ml tile = ((M : EReal), ((Tiles.psum (fun m => Real.exp (f m - M)) (c + T) : ℝ) : EReal))
      ∧ (M : EReal) = Tiles.above (fun m => ((f m : ℝ) : EReal)) (c + T) := by
  have hlt : ∀ l : Fin T, c + l.val < N := fun l => Nat.lt_of_lt_of_le (Nat.add_lt_add_left l.isLt c) hc
  have htile : tile = fun l : Fin T => ((f ⟨c + l.val, hlt l⟩ : ℝ) : EReal) := funext ht
  have hne : (Finset.univ : Finset (Fin T)).Nonempty := ⟨⟨0, hT⟩, Finset.mem_univ _⟩
  obtain ⟨R, hR⟩ : ∃ R : ℝ, Finset.univ.fold max (⊥ : EReal)
      (fun l : Fin T => ((f ⟨c + l.val, hlt l⟩ : ℝ) : EReal)) = (R : EReal) :=
    ⟨_, Attention.fold_max_bot_coe_of_nonempty Finset.univ hne (fun l : Fin T => f ⟨c + l.val, hlt l⟩)⟩
  have hsup : (⨆ l, tile l) = (R : EReal) := by
    rw [← Tiles.fold_max_bot_eq_iSup, htile, hR]
  have habove := Tiles.above_add (fun m => ((f m : ℝ) : EReal)) c hc tile ht
  have hpsum : ∀ M' : ℝ, Tiles.psum (fun m => Real.exp (f m - M')) c
      + ∑ l : Fin T, Real.exp (f ⟨c + l.val, hlt l⟩ - M') = Tiles.psum (fun m => Real.exp (f m - M')) (c + T) :=
    fun M' => Tiles.psum_add (fun m => Real.exp (f m - M')) c hc
      (fun l : Fin T => Real.exp (f ⟨c + l.val, hlt l⟩ - M')) (fun _ => rfl)
  rcases h with ⟨hc0, hml⟩ | ⟨M, hml, hM⟩
  · refine ⟨R, ?_, ?_⟩
    · rw [hml, htile, step_bot (fun l : Fin T => f ⟨c + l.val, hlt l⟩) R hR, ← hpsum R]
      have h0 : Tiles.psum (fun m => Real.exp (f m - R)) c = 0 := by rw [hc0]; exact Tiles.psum_zero _
      rw [h0, zero_add]
    · have h0 : Tiles.above (fun m => ((f m : ℝ) : EReal)) c = ⊥ := by rw [hc0]; exact Tiles.above_zero _
      rw [← habove, h0, hsup, max_eq_right (bot_le : (⊥ : EReal) ≤ (R : EReal))]
  · refine ⟨max M R, ?_, ?_⟩
    · rw [hml, htile, step_real M _ (fun l : Fin T => f ⟨c + l.val, hlt l⟩) R hR, ← hpsum (max M R)]
      have hres : Real.exp (M - max M R) * Tiles.psum (fun m => Real.exp (f m - M)) c
          = Tiles.psum (fun m => Real.exp (f m - max M R)) c := by
        unfold Tiles.psum
        rw [Finset.mul_sum]
        refine Finset.sum_congr rfl fun m _ => ?_
        by_cases hm : m.val < c
        · rw [if_pos hm, if_pos hm, ← Real.exp_add]
          congr 1
          ring
        · rw [if_neg hm, if_neg hm, mul_zero]
      rw [hres]
    · rw [← habove, ← hM, hsup]
      exact EReal.coe_strictMono.monotone.map_max

/-- After k ≥ 1 tiles of width T the state is (M, Σ_{entries below T·k} exp(x - M)), M the largest entry below T·k. -/
theorem run_tiles {N T K : ℕ} (hT : 0 < T) (hN : T * K ≤ N) (f : Fin N → ℝ) (x : ℕ → Fin T → EReal)
    (hx : ∀ k, k < K → ∀ (j : Fin T) (h : T * k + j.val < N), x k j = ((f ⟨T * k + j.val, h⟩ : ℝ) : EReal)) :
    ∀ k, k + 1 ≤ K → ∃ M : ℝ,
      run x (k + 1) = ((M : EReal), ((Tiles.psum (fun m => Real.exp (f m - M)) (T * (k + 1)) : ℝ) : EReal))
        ∧ (M : EReal) = Tiles.above (fun m => ((f m : ℝ) : EReal)) (T * (k + 1)) := by
  have hbound : ∀ k, k + 1 ≤ K → T * k + T ≤ N := fun k hk =>
    le_trans (le_of_eq (Nat.mul_succ T k).symm) (le_trans (Nat.mul_le_mul_left T hk) hN)
  intro k
  induction k with
  | zero =>
    intro hk
    exact step_tile hT f (T * 0) (hbound 0 hk) (run x 0) (Or.inl ⟨Nat.mul_zero T, rfl⟩) (x 0)
      (fun l => hx 0 hk l _)
  | succ k ih =>
    intro hk
    exact step_tile hT f (T * (k + 1)) (hbound (k + 1) hk) (run x (k + 1)) (Or.inr (ih (Nat.le_of_succ_le hk)))
      (x (k + 1)) (fun l => hx (k + 1) hk l _)

/-- After all K ≥ 1 tiles of a row of N = T·K real numbers the state is (M, S) with M the row's maximum and
    S = Σ exp(x - M) > 0. -/
theorem run_all {N T K : ℕ} (hT : 0 < T) (hK : 0 < K) (hN : T * K = N) (f : Fin N → ℝ) (x : ℕ → Fin T → EReal)
    (hx : ∀ k, k < K → ∀ (j : Fin T) (h : T * k + j.val < N), x k j = ((f ⟨T * k + j.val, h⟩ : ℝ) : EReal)) :
    ∃ M : ℝ, run x K = ((M : EReal), ((∑ m, Real.exp (f m - M) : ℝ) : EReal))
      ∧ (M : EReal) = Finset.univ.fold max (⊥ : EReal) (fun m => ((f m : ℝ) : EReal))
      ∧ 0 < ∑ m, Real.exp (f m - M) := by
  obtain ⟨k, rfl⟩ : ∃ k, K = k + 1 := ⟨K - 1, by omega⟩
  obtain ⟨M, hrun, hM⟩ := run_tiles hT (le_of_eq hN) f x hx k le_rfl
  refine ⟨M, ?_, ?_, ?_⟩
  · rw [hrun, Tiles.psum_of_le _ (le_of_eq hN.symm)]
  · rw [hM, Tiles.above_of_le _ (le_of_eq hN.symm), Tiles.fold_max_bot_eq_iSup]
  · have hpos : 0 < N := by rw [← hN]; exact Nat.mul_pos hT hK
    exact Finset.sum_pos (fun m _ => Real.exp_pos _) ⟨⟨0, hpos⟩, Finset.mem_univ _⟩

/-- The streamed log-sum-exp minus one entry is the negated log-softmax at that entry:
    (M + log S) - x_i = -((x_i - M) - log(0 + Σ exp(x - M))), M the row's maximum taken as max(-∞, fold of max). -/
theorem stream_ce_gen {N T K : ℕ} (hT : 0 < T) (hK : 0 < K) (hN : T * K = N) (f : Fin N → ℝ)
    (x : ℕ → Fin T → EReal)
    (hx : ∀ k, k < K → ∀ (j : Fin T) (h : T * k + j.val < N), x k j = ((f ⟨T * k + j.val, h⟩ : ℝ) : EReal))
    (i : Fin N) :
    ((run x K).1 + Ideal.log (run x K).2) - ((f i : ℝ) : EReal)
      = -((((f i : ℝ) : EReal) - max (⊥ : EReal) (Finset.univ.fold max (⊥ : EReal) (fun m => ((f m : ℝ) : EReal))))
          - Ideal.log (0 + ∑ m, Ideal.exp (((f m : ℝ) : EReal)
              - max (⊥ : EReal) (Finset.univ.fold max (⊥ : EReal) (fun m => ((f m : ℝ) : EReal)))))) := by
  obtain ⟨M, hrun, hM, hS⟩ := run_all hT hK hN f x hx
  rw [hrun, ← hM, max_eq_right (bot_le : (⊥ : EReal) ≤ (M : EReal))]
  have hsum : ∑ m, Ideal.exp (((f m : ℝ) : EReal) - (M : EReal)) = ((∑ m, Real.exp (f m - M) : ℝ) : EReal) := by
    rw [Attention.coe_sum]
    refine Finset.sum_congr rfl fun m _ => ?_
    rw [← EReal.coe_sub, Ideal.exp_coe]
  rw [hsum, zero_add]
  show ((M : EReal) + Ideal.log ((∑ m, Real.exp (f m - M) : ℝ) : EReal)) - ((f i : ℝ) : EReal) = _
  rw [Ideal.log_coe, if_neg (not_le.mpr hS), ← EReal.coe_add, ← EReal.coe_sub, ← EReal.coe_sub, ← EReal.coe_sub,
    ← EReal.coe_neg]
  congr 1
  ring

/-- The streamed log-sum-exp is a real number, so minus -∞ it is +∞, which is also -(-∞). -/
theorem stream_fill_gen {N T K : ℕ} (hT : 0 < T) (hK : 0 < K) (hN : T * K = N) (f : Fin N → ℝ)
    (x : ℕ → Fin T → EReal)
    (hx : ∀ k, k < K → ∀ (j : Fin T) (h : T * k + j.val < N), x k j = ((f ⟨T * k + j.val, h⟩ : ℝ) : EReal)) :
    ((run x K).1 + Ideal.log (run x K).2) - (⊥ : EReal) = -(⊥ : EReal) := by
  obtain ⟨M, hrun, _, hS⟩ := run_all hT hK hN f x hx
  rw [hrun]
  show ((M : EReal) + Ideal.log ((∑ m, Real.exp (f m - M) : ℝ) : EReal)) - (⊥ : EReal) = _
  rw [Ideal.log_coe, if_neg (not_le.mpr hS), ← EReal.coe_add, EReal.coe_sub_bot, EReal.neg_bot]

/-- A row of 32000 logits walked in 25 tiles of 1280: the streamed cross entropy at entry i is the negated
    log-softmax at i. -/
theorem stream_ce (xs : Fin 32000 → ℝ) (x : ℕ → Fin 1280 → EReal)
    (hx : ∀ k (hk : k < 25) (j : Fin 1280), x k j = ((xs ⟨1280 * k + j.val, by omega⟩ : ℝ) : EReal))
    (i : Fin 32000) :
    ((run x 25).1 + Ideal.log (run x 25).2) - ((xs i : ℝ) : EReal)
      = -((((xs i : ℝ) : EReal) - max (⊥ : EReal) (Finset.univ.fold max (⊥ : EReal) (fun k : Fin 32000 => ((xs k : ℝ) : EReal))))
          - Ideal.log (0 + ∑ k : Fin 32000, Ideal.exp (((xs k : ℝ) : EReal)
              - max (⊥ : EReal) (Finset.univ.fold max (⊥ : EReal) (fun k : Fin 32000 => ((xs k : ℝ) : EReal)))))) :=
  stream_ce_gen (by norm_num) (by norm_num) (by norm_num) xs x (fun k hk j _ => hx k hk j) i

/-- The same row with the fill value -∞ in place of the picked entry: both roads give +∞. -/
theorem stream_fill (xs : Fin 32000 → ℝ) (x : ℕ → Fin 1280 → EReal)
    (hx : ∀ k (hk : k < 25) (j : Fin 1280), x k j = ((xs ⟨1280 * k + j.val, by omega⟩ : ℝ) : EReal)) :
    ((run x 25).1 + Ideal.log (run x 25).2) - (⊥ : EReal) = -(⊥ : EReal) :=
  stream_fill_gen (by norm_num) (by norm_num) (by norm_num) xs x (fun k hk j _ => hx k hk j)

end Cert.StreamLse

end
-- ==== Proof.KILsePay.lean ====
/-
  The streaming log-sum-exp's values at one row and lane.

  The first region of the kernel keeps, for 8 rows and 128 lanes at a time, a running maximum and a running rescaled
  sum, and walks the vocabulary in tiles of 1280 entries.  Read at row p and lane q:
    * the starting maximum is -∞ and the starting sum is 0;
    * one tile x(p, q, ·) turns the pair (m, l) into
          ( max(m, max_j x(p,q,j)),  exp(m - m') · l + Σ_j exp(x(p,q,j) - m') ),   m' the new maximum
      — the maximum over the tile is a fold of max from -∞ over the 1280 entries, the sum a plain finite sum, the new
      maximum is spread back over the tile by a reshape [8,128] → [8,128,1] and a broadcast [8,128,1] → [8,128,1280], both
      of which read entry (p, q) of their operand at (p, q, j);
    * the result is m + log l.
  This is one step of the streaming log-sum-exp on the extended reals, stated for the pair (m, l) and the tile's row.
-/
import proofs.«151323_j54468775248230_1_alg».proof.Proof.Gen.KernelIdeal.Skeleton
import proofs.«151323_j54468775248230_1_alg».proof.Proof.LibStreamLse
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen
open scoped BigOperators

/-- The pattern 0xFF800000 denotes -∞. -/
theorem ofBits_neg_inf : Ideal.ofBits .f32 0xFF800000#32 = (⊥ : EReal) := by simp [Ideal.ofBits, Ideal.ieee]

/-- The index (p, q) of the reduced shape [8,128] with coordinate j put back on the dropped last axis is (p, q, j). -/
theorem lift_ix (h : S8x128x1280.Reduces [2] S8x128) (p : Fin 8) (q : Fin 128) (j : Fin 1280) :
    h.lift (ix2 p q) j = ix3 p q j := by
  funext c
  match c with
  | ⟨0, _⟩ => exact Fin.ext rfl
  | ⟨1, _⟩ => exact Fin.ext rfl
  | ⟨2, _⟩ => exact Fin.ext rfl

/-- An [8,128] array reshaped to [8,128,1] reads, at (p, q, u), the operand at (p, q). -/
theorem shapeCast_keep_apply {α : Type} (v : S8x128.Idx → α) (h : S8x128.ShapeCasts S8x128x1) (p : Fin 8) (q : Fin 128)
    (u : Fin 1) : shapeCast S8x128x1 v h (ix3 p q u) = v (ix2 p q) :=
  shapeCast_apply v h _ _ (by
    have hu : u.val = 0 := by omega
    rw [Shape.rowMajor_val_two, Shape.rowMajor_val_three]
    show p.val * 128 + q.val = (p.val * 128 + q.val) * 1 + u.val
    rw [hu, Nat.mul_one, Nat.add_zero])

/-- An [8,128,1] array broadcast to [8,128,1280] reads, at (p, q, j), the operand at (p, q, 0). -/
theorem broadcastTo_keep_apply {α : Type} (w : S8x128x1.Idx → α) (h : S8x128x1.Broadcasts S8x128x1280) (p : Fin 8)
    (q : Fin 128) (j : Fin 1280) : broadcastTo S8x128x1280 w h (ix3 p q j) = w (ix3 p q (0 : Fin 1)) := by
  refine broadcastTo_apply w h (ix3 p q j) (ix3 p q (0 : Fin 1)) fun ax => ?_
  match ax with
  | ⟨0, _⟩ => rfl
  | ⟨1, _⟩ => rfl
  | ⟨2, _⟩ => rfl

/-- The starting maximum is -∞. -/
theorem pay_init_max (p : Fin 8) (q : Fin 128) : k0_pay1 (F := Ideal) (ix2 p q) = (⊥ : EReal) := by
  unfold k0_pay1
  refine (congrFun (shapeCast_self _ _) (ix2 p q)).trans ?_
  exact ofBits_neg_inf

/-- The starting sum is 0. -/
theorem pay_init_sum (p : Fin 8) (q : Fin 128) : k0_pay2 (F := Ideal) (ix2 p q) = (0 : EReal) := by
  unfold k0_pay2
  refine (congrFun (shapeCast_self _ _) (ix2 p q)).trans ?_
  exact Ideal.ofBits_zero_f32

/-- The new maximum at (p, q): the larger of the old one and the fold of max from -∞ over the tile's row. -/
theorem pay3_apply (x0 : Vec Ideal S8x128x1280 .f32) (xm : Vec Ideal S8x128 .f32) (p : Fin 8) (q : Fin 128) :
    k0_pay3 x0 xm (ix2 p q)
      = max (xm (ix2 p q)) (Finset.univ.fold max (⊥ : EReal) (fun j : Fin 1280 => x0 (ix3 p q j))) := by
  unfold k0_pay3
  refine congrArg (max (xm (ix2 p q))) ((Ideal.multiReduction_maximumf_single x0 _ _ _ _ (ix2 p q)).trans ?_)
  exact congrArg₂ (fun (a : EReal) (f : Fin 1280 → EReal) => Finset.univ.fold max a f) ofBits_neg_inf
    (funext fun j : Fin 1280 => congrArg x0 (lift_ix _ p q j))

/-- The stored maximum is the new maximum. -/
theorem pay5_apply (x0 : Vec Ideal S8x128x1280 .f32) (xm : Vec Ideal S8x128 .f32) (p : Fin 8) (q : Fin 128) :
    k0_pay5 x0 xm (ix2 p q)
      = max (xm (ix2 p q)) (Finset.univ.fold max (⊥ : EReal) (fun j : Fin 1280 => x0 (ix3 p q j))) := by
  unfold k0_pay5
  exact (congrFun (shapeCast_self _ _) (ix2 p q)).trans (pay3_apply x0 xm p q)

/-- The new sum at (p, q): exp(m - m') · l + Σ_j exp(x(p,q,j) - m'), m' the new maximum at (p, q). -/
theorem pay4_apply (x0 : Vec Ideal S8x128x1280 .f32) (xm xm' xs : Vec Ideal S8x128 .f32) (p : Fin 8) (q : Fin 128) :
    k0_pay4 x0 xm xm' xs (ix2 p q)
      = Ideal.exp (xm' (ix2 p q) - k0_pay3 x0 xm (ix2 p q)) * xs (ix2 p q)
        + ∑ j : Fin 1280, Ideal.exp (x0 (ix3 p q j) - k0_pay3 x0 xm (ix2 p q)) := by
  unfold k0_pay4
  refine (congrFun (shapeCast_self _ _) (ix2 p q)).trans ?_
  refine congrArg (fun s : EReal => Ideal.exp (xm' (ix2 p q) - k0_pay3 x0 xm (ix2 p q)) * xs (ix2 p q) + s)
    ((Ideal.multiReduction_add_single _ _ _ _ _ (ix2 p q)).trans ?_)
  refine Finset.sum_congr rfl fun (j : Fin 1280) _ => ?_
  rw [lift_ix _ p q j]
  show Ideal.exp (x0 (ix3 p q j) - broadcastTo S8x128x1280 (shapeCast S8x128x1 (k0_pay3 x0 xm) _) _ (ix3 p q j)) = _
  exact congrArg (fun t : EReal => Ideal.exp (x0 (ix3 p q j) - t))
    ((broadcastTo_keep_apply _ _ p q j).trans (shapeCast_keep_apply _ _ p q 0))

/-- One tile at (p, q) is one step of the streaming log-sum-exp on the pair (running maximum, running sum) and the
    tile's row x(p, q, ·). -/
theorem pay_step (x0 : Vec Ideal S8x128x1280 .f32) (xm xs : Vec Ideal S8x128 .f32) (p : Fin 8) (q : Fin 128) :
    (k0_pay5 x0 xm (ix2 p q), k0_pay4 x0 xm xm xs (ix2 p q))
      = Cert.StreamLse.step (xm (ix2 p q), xs (ix2 p q)) (fun j : Fin 1280 => x0 (ix3 p q j)) := by
  rw [pay5_apply, pay4_apply, pay3_apply]
  rfl

/-- The result at (p, q) is m + log l. -/
theorem pay_out (m l : Vec Ideal S8x128 .f32) (p : Fin 8) (q : Fin 128) :
    k0_pay6 m l (ix2 p q) = m (ix2 p q) + Ideal.log (l (ix2 p q)) := by
  unfold k0_pay6
  rfl

end Cert.KernelIdeal.Pay

end
-- ==== Proof.KILseValue.lean ====
/-
  The streaming log-sum-exp, read at one (row, lane) of a block.  Fix an entry valuation, a core, and a position
  (p, q) inside the [8, 128] block.  The logits' tile at grid point n gives the row j ↦ tile(p, q, j) of 1280 entries.
  By induction on the point: after point n the two scratch buffers hold, at (p, q), the running (maximum, rescaled sum)
  of the rows of the points n - n % 25, …, n — the tiles of the block so far.  At a block's last tile the body stores
  maximum + log sum of all 25 tiles.
-/
import proofs.«151323_j54468775248230_1_alg».proof.Proof.KILsePieces
import proofs.«151323_j54468775248230_1_alg».proof.Proof.KILsePay
import proofs.«151323_j54468775248230_1_alg».proof.Proof.LibStreamLse
import Idealize.ShloMosaic.Lib.ValueIdx
import Idealize.ShloMosaic.PureOps.Ideal.Laws

set_option maxRecDepth 16384

noncomputable section

namespace Cert.KernelIdeal.Hand

open Cert.KernelIdeal Cert.KernelIdeal.Gen Cert.KernelIdeal.Pay Cert.StreamLse
open Idealize.ShloMosaic Idealize.ShloMosaic.TcCoe Idealize.SL.Sem
open Idealize.ShloMosaic.ValueIdx (ix2 ix3)

variable (V : (c : Dev nD) → (b : Ref sig .tc) → Buf (Elt Ideal) ((c : Thread nD τ).loc b)) (c : Dev nD)

/-- The logits' tile at grid point `n` (the zero tile past the grid), as a [8, 128, 1280] array. -/
def tileAt (n : ℕ) : Vec Ideal S8x128x1280 .f32 :=
  if h : n < cfg0.N then blk0 V c 0 ⟨n, h⟩ else fun _ => 0

theorem tileAt_lt (n : ℕ) (h : n < cfg0.N) : tileAt V c n = blk0 V c 0 ⟨n, h⟩ := dif_pos h

/-- Row (p, q) of that tile. -/
def tileRow (p : Fin 8) (q : Fin 128) (n : ℕ) : Fin 1280 → EReal := fun j => tileAt V c n (ix3 p q j)

theorem tileRow_lt (p : Fin 8) (q : Fin 128) (n : ℕ) (h : n < cfg0.N) :
    tileRow V c p q n = fun j => blk0 V c 0 ⟨n, h⟩ (ix3 p q j) := by
  unfold tileRow; rw [tileAt_lt V c n h]

/-- One body step at (p, q): from the scratch pair (xm, xs) and the tile x0, the new pair is one streaming step over the
    tile's row. -/
theorem step_at (x0 : Vec Ideal S8x128x1280 .f32) (xm xs : Vec Ideal S8x128 .f32) (p : Fin 8) (q : Fin 128) :
    (k0_pay5 x0 xm (ix2 p q), k0_pay4 x0 xm xm xs (ix2 p q)) = step (xm (ix2 p q), xs (ix2 p q)) (fun j : Fin 1280 => x0 (ix3 p q j)) :=
  pay_step x0 xm xs p q

/-- The first tile's step starts from (⊥, 0). -/
theorem first_at (x0 : Vec Ideal S8x128x1280 .f32) (p : Fin 8) (q : Fin 128) :
    (k0_pay5 x0 (k0_pay1 (F := Ideal)) (ix2 p q), k0_pay4 x0 (k0_pay1 (F := Ideal)) (k0_pay1 (F := Ideal)) (k0_pay2 (F := Ideal)) (ix2 p q))
      = step ((⊥ : EReal), (0 : EReal)) (fun j : Fin 1280 => x0 (ix3 p q j)) := by
  rw [pay_step, pay_init_max, pay_init_sum]

/-- THE RECURSION CLOSED.  After point `n` the scratch pair at (p, q) is the streaming run over the tiles of the block so
    far: the points `n - n % 25 + k`, `k ≤ n % 25`. -/
theorem scratch_run (p : Fin 8) (q : Fin 128) : ∀ (n : ℕ) (hn : n < cfg0.N),
    ((leftAt V c n hn).2.1 (ix2 p q), (leftAt V c n hn).2.2 (ix2 p q))
      = run (fun k => tileRow V c p q (n - n % 25 + k)) (n % 25 + 1)
  | 0, hn => by
    have hc1 : ¬lastTile (grid0.coords (⟨0, hn⟩ : Fin cfg0.N)) := fun h => by
      have := (lastTile_iff ⟨0, hn⟩).mp h; (try dsimp only at this); omega
    rw [leftAt_first V c ⟨0, hn⟩ (Nat.zero_mod _) hc1]
    dsimp only
    rw [firstMax_eq, firstSum_eq, first_at]
    show _ = step ((⊥ : EReal), (0 : EReal)) (tileRow V c p q 0)
    rw [tileRow_lt V c p q 0 hn]
  | n + 1, hn => by
    by_cases h0 : (n + 1) % 25 = 0
    · have hc1 : ¬lastTile (grid0.coords (⟨n + 1, hn⟩ : Fin cfg0.N)) := fun h => by
        have := (lastTile_iff ⟨n + 1, hn⟩).mp h; (try dsimp only at this); omega
      rw [leftAt_first V c ⟨n + 1, hn⟩ h0 hc1]
      dsimp only
      rw [firstMax_eq, firstSum_eq, first_at, h0]
      show _ = step ((⊥ : EReal), (0 : EReal)) (tileRow V c p q (n + 1))
      rw [tileRow_lt V c p q (n + 1) hn]
    · have ih := scratch_run p q n (Nat.lt_of_succ_lt hn)
      have hmod : (n + 1) % 25 = n % 25 + 1 := by omega
      have hbase : n + 1 - (n + 1) % 25 = n - n % 25 := by omega
      have hrow : n - n % 25 + (n % 25 + 1) = n + 1 := by omega
      have key : ∀ (a b : Vec Ideal S8x128 .f32),
          (a, b) = (k0_pay5 (blk0 V c 0 ⟨n + 1, hn⟩) (leftAt V c n (Nat.lt_of_succ_lt hn)).2.1,
                    k0_pay4 (blk0 V c 0 ⟨n + 1, hn⟩) (leftAt V c n (Nat.lt_of_succ_lt hn)).2.1 (leftAt V c n (Nat.lt_of_succ_lt hn)).2.1 (leftAt V c n (Nat.lt_of_succ_lt hn)).2.2) →
          (a (ix2 p q), b (ix2 p q)) = run (fun k => tileRow V c p q (n + 1 - (n + 1) % 25 + k)) ((n + 1) % 25 + 1) := by
        intro a b hab
        obtain ⟨rfl, rfl⟩ := Prod.mk.inj hab
        rw [step_at, ih, hbase, hmod]
        show _ = step (run _ (n % 25 + 1)) (tileRow V c p q (n - n % 25 + (n % 25 + 1)))
        rw [hrow, tileRow_lt V c p q (n + 1) hn]
      by_cases h1 : (n + 1) % 25 = 24
      · rw [leftAt_last V c ⟨n + 1, hn⟩ h0 h1]
        dsimp only
        exact key _ _ (by rw [lastMax_eq, lastSum_eq]; rfl)
      · rw [leftAt_mid V c ⟨n + 1, hn⟩ h0 h1]
        dsimp only
        exact key _ _ (by rw [midMax_eq, midSum_eq]; rfl)

/-- What a block's last tile stores at (p, q): maximum + log sum of the streaming run over the block's 25 tiles. -/
theorem out_at (p : Fin 8) (q : Fin 128) (n : ℕ) (hn : n < cfg0.N) (h1 : n % 25 = 24) :
    (leftAt V c n hn).1 (ix2 p q)
      = (run (fun k => tileRow V c p q (n - 24 + k)) 25).1 + Ideal.log (run (fun k => tileRow V c p q (n - 24 + k)) 25).2 := by
  have h0 : ¬n % 25 = 0 := by omega
  obtain ⟨n', rfl⟩ : ∃ n', n = n' + 1 := ⟨n - 1, by omega⟩
  have hs := scratch_run V c p q (n' + 1) hn
  rw [leftAt_last V c ⟨n' + 1, hn⟩ h0 h1] at hs ⊢
  dsimp only at hs ⊢
  rw [lastOut_eq, pay_out]
  rw [lastMax_eq, lastSum_eq] at hs
  rw [h1] at hs
  have e1 := congrArg Prod.fst hs
  have e2 := congrArg Prod.snd hs
  dsimp only at e1 e2
  rw [e1, e2]

end Cert.KernelIdeal.Hand

end
-- ==== Proof.KILseArray.lean ====
/-
  The first region's output array as one function of the logits.

  The region walks a grid of 4 blocks of eight sequences by 25 tiles of 1280 vocabulary entries, 100 points in row-major
  order: point n works on tile n % 25 of block n / 25, whose logits' block is rows 8·(n/25) … 8·(n/25)+7, all 128
  positions, vocabulary entries 1280·(n%25) … 1280·(n%25)+1279 of the array of logits.  The output block (rows
  8·(n/25) … 8·(n/25)+7, all 128 positions) is written back only at a block's last tile, n % 25 = 24, and holds there,
  at (p, q), maximum + log sum of the streaming run over the 25 tiles of the block.  Those 25 tiles' rows at (p, q) are
  the 25 consecutive stretches of 1280 entries of the logits' row (8·(n/25)+p, q).  The four write-backs cover the 32 rows,
  so the array ends holding, at (b, t), the streamed log-sum-exp of the logits' row (b, t).
-/
import proofs.«151323_j54468775248230_1_alg».proof.Proof.KILseValue
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen Cert.StreamLse
open Idealize.ShloMosaic Idealize.ShloMosaic.TcCoe Idealize.ShloMosaic.ValueIdx
open Idealize.SL.Sem
open Idealize.ShloMosaic.Pipeline (Dat Cfg Window)
open scoped BigOperators

/-- The streaming run depends only on the tiles it walks. -/
theorem run_congr {n : ℕ} (x y : ℕ → Fin n → EReal) : ∀ K : ℕ, (∀ k, k < K → x k = y k) → run x K = run y K
  | 0, _ => rfl
  | K + 1, h => by
    show step (run x K) (x K) = step (run y K) (y K)
    rw [run_congr x y K (fun k hk => h k (Nat.lt_succ_of_lt hk)), h K (Nat.lt_succ_self K)]

/-- The printed index maps over the hundred grid points: the logits' block index is (n / 25, 0, n % 25), the output's
    (n / 25, 0). -/
theorem lse_index_facts : ∀ t : Fin cfg0.N,
    win0_0.index t (0 : Fin 3) = t.val / 25 ∧ win0_0.index t (1 : Fin 3) = 0 ∧ win0_0.index t (2 : Fin 3) = t.val % 25
    ∧ win0_1.index t (0 : Fin 2) = t.val / 25 ∧ win0_1.index t (1 : Fin 2) = 0 :=
  (by decide +kernel : ∀ t : Fin grid0.N, _)

/-- Row (b, t) of an array of logits cut into stretches of 1280 entries: stretch k, lane j is entry 1280·k + j (zero past
    the row's end, which the 25 stretches of a row of 32000 never reach). -/
def rowTiles (a : Vec Ideal S32x128x32000 .f32) (b : Fin 32) (t : Fin 128) : ℕ → Fin 1280 → EReal :=
  fun k j => if h : 1280 * k + j.val < 32000 then a (ix3 b t ⟨1280 * k + j.val, h⟩) else 0

theorem rowTiles_lt (a : Vec Ideal S32x128x32000 .f32) (b : Fin 32) (t : Fin 128) (k : ℕ) (j : Fin 1280)
    (h : 1280 * k + j.val < 32000) : rowTiles a b t k j = a (ix3 b t ⟨1280 * k + j.val, h⟩) := dif_pos h

section
variable (V : (c : Dev nD) → (b : Ref sig .tc) → Buf (Elt Ideal) ((c : Thread nD τ).loc b))

/-- The logits' block at point t is rows 8·(t/25) … +7 and vocabulary entries 1280·(t%25) … +1279 of their array. -/
theorem blk_logits_apply (c : Dev nD) (t : Fin cfg0.N) (p : Fin 8) (q : Fin 128) (j : Fin 1280) (b : Fin 32) (v : Fin 32000)
    (hb : b.val = 8 * (t.val / 25) + p.val) (hv : v.val = 1280 * (t.val % 25) + j.val) :
    blk0 V c 0 t (ix3 p q j) = V c main_arg3 (ix3 b q v) := by
  obtain ⟨e0, e1, e2, -⟩ := lse_index_facts t
  unfold blk0
  rw [View.read_apply]
  show V c main_arg3 _ = V c main_arg3 _
  congr 1
  funext a
  apply Fin.ext
  match a with
  | ⟨0, _⟩ => show win0_0.index t (0 : Fin 3) * 8 + 1 * p.val = b.val; rw [e0, hb]; omega
  | ⟨1, _⟩ => show win0_0.index t (1 : Fin 3) * 128 + 1 * q.val = q.val; rw [e1]; omega
  | ⟨2, _⟩ => show win0_0.index t (2 : Fin 3) * 1280 + 1 * j.val = v.val; rw [e2, hv]; omega

/-- The k-th tile of the block that ends at point n, read at (p, q), is stretch k of the logits' row (8·(n/25)+p, q). -/
theorem tileRow_eq (c : Dev nD) (p : Fin 8) (q : Fin 128) (n : ℕ) (hn : n < cfg0.N) (h1 : n % 25 = 24) (b : Fin 32)
    (hb : b.val = 8 * (n / 25) + p.val) (k : ℕ) (hk : k < 25) :
    tileRow V c p q (n - 24 + k) = rowTiles (V c main_arg3) b q k := by
  have hN : cfg0.N = 100 := N_0
  have hlt : n - 24 + k < cfg0.N := by omega
  funext j
  have hj : j.val < 1280 := j.isLt
  have hv : 1280 * k + j.val < 32000 := by omega
  unfold tileRow
  rw [tileAt_lt V c _ hlt, rowTiles_lt _ _ _ _ _ hv]
  refine blk_logits_apply V c ⟨n - 24 + k, hlt⟩ p q j b ⟨1280 * k + j.val, hv⟩ ?_ ?_
  · show b.val = 8 * ((n - 24 + k) / 25) + p.val
    rw [hb]; omega
  · show 1280 * k + j.val = 1280 * ((n - 24 + k) % 25) + j.val
    have : (n - 24 + k) % 25 = k := by omega
    rw [this]

/-- The streamed log-sum-exp of the logits' row (b, t). -/
def lseRow (a : Vec Ideal S32x128x32000 .f32) (b : Fin 32) (t : Fin 128) : EReal :=
  (run (rowTiles a b t) 25).1 + Ideal.log (run (rowTiles a b t) 25).2

theorem lseRow_def (a : Vec Ideal S32x128x32000 .f32) (b : Fin 32) (t : Fin 128) :
    lseRow a b t = (run (rowTiles a b t) 25).1 + Ideal.log (run (rowTiles a b t) 25).2 := rfl

/-- The whole array of streamed log-sum-exps. -/
def lseArr (c : Dev nD) : Buf (Elt Ideal) ((c : Thread nD τ).loc main_v0) := fun i => lseRow (V c main_arg3) (i 0) (i 1)

/-- What a block's last tile leaves in the output's staging buffer, at (p, q): the streamed log-sum-exp of the logits' row
    (8·(n/25)+p, q). -/
theorem out_row (c : Dev nD) (p : Fin 8) (q : Fin 128) (n : ℕ) (hn : n < cfg0.N) (h1 : n % 25 = 24) (b : Fin 32)
    (hb : b.val = 8 * (n / 25) + p.val) :
    (leftAt V c n hn).1 (ix2 p q) = lseRow (V c main_arg3) b q := by
  rw [out_at V c p q n hn h1, lseRow_def,
    run_congr (fun k => tileRow V c p q (n - 24 + k)) (rowTiles (V c main_arg3) b q) 25
      (fun k hk => tileRow_eq V c p q n hn h1 b hb k hk)]

/-- What a flushing point writes back is its block of the array of streamed log-sum-exps. -/
theorem lse_flushed_eq (c : Dev nD) (t : Fin cfg0.N) (hf : (cfg0.win 1).flush t = true) :
    (lseDat (F := Ideal) V c).flushed 1 t = ((cfg0.win 1).blk t).view.read (Elt Ideal) (lseArr V c) := by
  have h1 : t.val % 25 = 24 := (flush0_1 t).mp hf
  show (cfg0.win 1).cut (grid0.coords t) ((lseDat V c).after 1 t) = _
  rw [lseAfter_1]
  obtain ⟨-, -, -, e0, e1⟩ := lse_index_facts t
  have hN : t.val < 100 := t.isLt.trans_eq N_0
  funext j
  have hp : (j 0).val < 8 := (j 0).isLt
  have hq : (j 1).val < 128 := (j 1).isLt
  have hj : j = ix2 (⟨(j 0).val, hp⟩ : Fin 8) (⟨(j 1).val, hq⟩ : Fin 128) := by
    funext a
    match a with
    | ⟨0, _⟩ => rfl
    | ⟨1, _⟩ => rfl
  have hemb : ((cfg0.win 1).blk t).view.emb j
      = ix2 (⟨8 * (t.val / 25) + (j 0).val, by omega⟩ : Fin 32) (⟨(j 1).val, hq⟩ : Fin 128) := by
    funext a
    apply Fin.ext
    match a with
    | ⟨0, _⟩ => show win0_1.index t (0 : Fin 2) * 8 + 1 * (j 0).val = 8 * (t.val / 25) + (j 0).val; rw [e0]; omega
    | ⟨1, _⟩ => show win0_1.index t (1 : Fin 2) * 128 + 1 * (j 1).val = (j 1).val; rw [e1]; omega
  show (leftAt V c t.val t.isLt).1 j = lseArr V c (((cfg0.win 1).blk t).view.emb j)
  rw [hemb]
  refine (congrArg (leftAt V c t.val t.isLt).1 hj).trans ?_
  exact out_row V c _ _ t.val t.isLt h1 _ rfl

/-- An index of the array is in point t's block iff each coordinate is in the block's range on its axis. -/
theorem lse_mem_blk (t : Fin cfg0.N) (i : S32x128.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v0).slice (win0_1.rect t)).set ↔ _
  rw [View.set_slice_whole, Rect.mem_set_unit]
  exact Iff.rfl

/-- Every row of the array is in some flushing point's block: row b in that of the last tile of block b / 8. -/
theorem lse_cover (i : S32x128.Idx) : ∃ t : Fin cfg0.N, (cfg0.win 1).flush t = true ∧ i ∈ ((cfg0.win 1).blk t).view.set := by
  have hi0 : (i 0).val < 32 := (i 0).isLt
  have hi1 : (i 1).val < 128 := (i 1).isLt
  have hN : cfg0.N = 100 := N_0
  let t : Fin cfg0.N := ⟨25 * ((i 0).val / 8) + 24, by rw [hN]; omega⟩
  obtain ⟨-, -, -, e0, e1⟩ := lse_index_facts t
  refine ⟨t, (flush0_1 t).mpr (by show (25 * ((i 0).val / 8) + 24) % 25 = 24; omega), ?_⟩
  rw [lse_mem_blk]
  intro a
  match a with
  | ⟨0, _⟩ =>
    show win0_1.index t (0 : Fin 2) * 8 ≤ (i 0).val ∧ (i 0).val < win0_1.index t (0 : Fin 2) * 8 + 8
    rw [e0]
    show (25 * ((i 0).val / 8) + 24) / 25 * 8 ≤ (i 0).val ∧ (i 0).val < (25 * ((i 0).val / 8) + 24) / 25 * 8 + 8
    omega
  | ⟨1, _⟩ =>
    show win0_1.index t (1 : Fin 2) * 128 ≤ (i 1).val ∧ (i 1).val < win0_1.index t (1 : Fin 2) * 128 + 128
    rw [e1]; omega

/-- THE REGION'S VALUE: after the hundred points the output array is the array of streamed log-sum-exps. -/
theorem lseArray_eq (c : Dev nD) : (lseDat (F := Ideal) V c).arrAt 1 cfg0.N = lseArr V c :=
  (lseDat (F := Ideal) V c).arrAt_eq_of_cover 1 (lseArr V c) (lse_flushed_eq V c) lse_cover

/-- The same, index by index. -/
theorem lseArray (c : Dev nD) :
    (lseDat (F := Ideal) V c).arrAt 1 cfg0.N
      = fun i => (run (rowTiles (V c main_arg3) (i 0) (i 1)) 25).1 + Ideal.log (run (rowTiles (V c main_arg3) (i 0) (i 1)) 25).2 :=
  lseArray_eq V c

/-- and at explicit coordinates. -/
theorem lseArray_apply (c : Dev nD) (b : Fin 32) (t : Fin 128) :
    (lseDat (F := Ideal) V c).arrAt 1 cfg0.N (ix2 b t)
      = (run (rowTiles (V c main_arg3) b t) 25).1 + Ideal.log (run (rowTiles (V c main_arg3) b t) 25).2 := by
  rw [lseArray_eq]
  rfl

end

end Cert.KernelIdeal.Hand

end
-- ==== Proof.KIMseValue.lean ====
/-
  The second region's value: the array of per-patch mean squared errors that the region leaves, as one function of
  the two image arrays it reads.  At an index (b, l) it is the sum over the 768 features of the squared difference of
  the predicted and the true image, divided by the constant 768.
-/
import proofs.«151323_j54468775248230_1_alg».proof.Proof.KIMse
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

theorem zeroOff3 : (![0, 0, 0] : Fin 3 → Nat) = fun _ => 0 := funext fun a => by fin_cases a <;> rfl
theorem zeroOff2 : (![0, 0] : Fin 2 → Nat) = fun _ => 0 := funext fun a => by fin_cases a <;> rfl

/-- The index the reduction over the last axis inserts: (p, l) with feature d is (p, l, d). -/
theorem lift_feature (p : Fin 8) (l : Fin 196) (d : Fin 768) :
    reduces_S8x196x768_S8x196.lift (ix2 p l) d = ix3 p l d := by
  funext a
  match a with
  | ⟨0, _⟩ => rfl
  | ⟨1, _⟩ => rfl
  | ⟨2, _⟩ => rfl

/-- The body's arithmetic at an index of the block of means: from the predicted block `v0` and the true block `v1`,
    the sum over the features of the squared difference, over the constant 768. -/
theorem pay_apply (v0 v1 : FVec Ideal S8x196x768 .f32) (p : Fin 8) (l : Fin 196) :
    k1_pay1 (F := Ideal) v0 v1 (ix2 p l)
      = Ideal.div (∑ d : Fin 768, (v0 (ix3 p l d) - v1 (ix3 p l d)) * (v0 (ix3 p l d) - v1 (ix3 p l d)))
          (Ideal.ofBits .f32 0x44400000#32) := by
  unfold k1_pay1
  dsimp only
  refine (divf_apply _ _ (ix2 p l)).trans ?_
  refine congrArg₂ Ideal.div ?_ rfl
  refine (Ideal.multiReduction_add_single (mulf (subf v0 v1) (subf v0 v1)) 0x00000000#32 reduces_S8x196x768_S8x196 (.inl rfl) rfl (ix2 p l)).trans ?_
  refine Finset.sum_congr rfl fun d _ => ?_
  rw [lift_feature p l d]
  rfl

/-- `mseOut` at an index: the loads of whole blocks are the blocks, the one store covers the buffer. -/
theorem mseOut_apply (x0 x1 : Vec Ideal S8x196x768 .f32) (p : Fin 8) (l : Fin 196) :
    mseOut (F := Ideal) x0 x1 (ix2 p l)
      = Ideal.div (∑ d : Fin 768, (x1 (ix3 p l d) - x0 (ix3 p l d)) * (x1 (ix3 p l d) - x0 (ix3 p l d)))
          (Ideal.ofBits .f32 0x44400000#32) := by
  unfold mseOut
  rw [View.canon_unit_zero zeroOff2]
  simp only [View.ld_unit_zero (S := S8x196x768) zeroOff3]
  exact pay_apply x1 x0 p l

/-- The printed index maps over the four grid points: every window's block index is the point on the leading axis and
    zero on the others. -/
theorem mse_index_facts : ∀ t : Fin cfg1.N,
    win1_0.index t (0 : Fin 3) = t.val ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- The true images' block at point `t` is rows `8t … 8t + 7` of their array. -/
theorem blk_true_apply (c : Dev nD) (t : Fin cfg1.N) (p : Fin 8) (l : Fin 196) (d : Fin 768) (b : Fin 32)
    (hb : b.val = 8 * t.val + p.val) :
    blk1 V c 0 t (ix3 p l d) = V c main_arg0 (ix3 b l d) := by
  obtain ⟨e0, e1, e2, -⟩ := mse_index_facts t
  unfold blk1
  rw [View.read_apply]
  show V c main_arg0 _ = V c main_arg0 _
  congr 1
  funext a
  apply Fin.ext
  match a with
  | ⟨0, _⟩ => show win1_0.index t (0 : Fin 3) * 8 + 1 * p.val = b.val; rw [e0, hb]; omega
  | ⟨1, _⟩ => show win1_0.index t (1 : Fin 3) * 196 + 1 * l.val = l.val; rw [e1]; omega
  | ⟨2, _⟩ => show win1_0.index t (2 : Fin 3) * 768 + 1 * d.val = d.val; rw [e2]; omega

/-- The predicted images' block likewise. -/
theorem blk_pred_apply (c : Dev nD) (t : Fin cfg1.N) (p : Fin 8) (l : Fin 196) (d : Fin 768) (b : Fin 32)
    (hb : b.val = 8 * t.val + p.val) :
    blk1 V c 1 t (ix3 p l d) = V c main_arg2 (ix3 b l d) := by
  obtain ⟨-, -, -, e0, e1, e2, -⟩ := mse_index_facts t
  unfold blk1
  rw [View.read_apply]
  show V c main_arg2 _ = V c main_arg2 _
  congr 1
  funext a
  apply Fin.ext
  match a with
  | ⟨0, _⟩ => show win1_1.index t (0 : Fin 3) * 8 + 1 * p.val = b.val; rw [e0, hb]; omega
  | ⟨1, _⟩ => show win1_1.index t (1 : Fin 3) * 196 + 1 * l.val = l.val; rw [e1]; omega
  | ⟨2, _⟩ => show win1_1.index t (2 : Fin 3) * 768 + 1 * d.val = d.val; rw [e2]; omega

end

section
variable (V : (c : Dev nD) → (b : Ref sig .tc) → Buf (Elt Ideal) ((c : Thread nD τ).loc b))

/-- The mean squared error of patch `l` of image `b`: over the 768 features, the sum of the squared difference of
    the predicted and the true image, divided by the constant 768. -/
def msePatch (a0 a2 : S32x196x768.Idx → EReal) (b : Fin 32) (l : Fin 196) : EReal :=
  Ideal.div (∑ d : Fin 768, (a2 (ix3 b l d) - a0 (ix3 b l d)) * (a2 (ix3 b l d) - a0 (ix3 b l d)))
    (Ideal.ofBits .f32 0x44400000#32)

theorem msePatch_def (a0 a2 : S32x196x768.Idx → EReal) (b : Fin 32) (l : Fin 196) :
    msePatch a0 a2 b l = Ideal.div (∑ d : Fin 768, (a2 (ix3 b l d) - a0 (ix3 b l d)) * (a2 (ix3 b l d) - a0 (ix3 b l d)))
      (Ideal.ofBits .f32 0x44400000#32) := rfl

/-- The whole array of means. -/
def mseArr (c : Dev nD) : Buf (Elt Ideal) ((c : Thread nD τ).loc main_v10) := fun i => msePatch (V c main_arg0) (V c main_arg2) (i 0) (i 1)

/-- What point `t` leaves in the means' staging buffer, at (p, l): the mean of patch `l` of image `8t + p`. -/
theorem mseOut_blk_apply (c : Dev nD) (t : Fin cfg1.N) (p : Fin 8) (l : Fin 196) (b : Fin 32) (hb : b.val = 8 * t.val + p.val) :
    mseOut (F := Ideal) (blk1 V c 0 t) (blk1 V c 1 t) (ix2 p l) = msePatch (V c main_arg0) (V c main_arg2) b l := by
  rw [mseOut_apply]
  unfold msePatch
  refine congrArg₂ Ideal.div (Finset.sum_congr rfl fun d _ => ?_) rfl
  rw [blk_true_apply V c t p l d b hb, blk_pred_apply V c t p l d b hb]

/-- What point `t` writes back is block `t` of the array of means. -/
theorem mse_flushed_eq (c : Dev nD) (t : Fin cfg1.N) :
    (mseDat (F := Ideal) V c).flushed 2 t = ((cfg1.win 2).blk t).view.read (Elt Ideal) (mseArr V c) := by
  show (cfg1.win 2).cut (grid1.coords t) ((mseDat V c).after 2 t) = _
  rw [mseAfter_2]
  obtain ⟨-, -, -, -, -, -, e0, e1⟩ := mse_index_facts t
  have hN : t.val < 4 := t.isLt.trans_eq N_1
  funext j
  have hp : (j 0).val < 8 := (j 0).isLt
  have hl : (j 1).val < 196 := (j 1).isLt
  have hj : j = ix2 (⟨(j 0).val, hp⟩ : Fin 8) (⟨(j 1).val, hl⟩ : Fin 196) := by
    funext a
    match a with
    | ⟨0, _⟩ => rfl
    | ⟨1, _⟩ => rfl
  have hemb : ((cfg1.win 2).blk t).view.emb j = ix2 (⟨8 * t.val + (j 0).val, by omega⟩ : Fin 32) (⟨(j 1).val, hl⟩ : Fin 196) := by
    funext a
    apply Fin.ext
    match a with
    | ⟨0, _⟩ => show win1_2.index t (0 : Fin 2) * 8 + 1 * (j 0).val = 8 * t.val + (j 0).val; rw [e0]; omega
    | ⟨1, _⟩ => show win1_2.index t (1 : Fin 2) * 196 + 1 * (j 1).val = (j 1).val; rw [e1]; omega
  show mseOut (blk1 V c 0 t) (blk1 V c 1 t) j = mseArr V c (((cfg1.win 2).blk t).view.emb j)
  rw [hemb]
  refine (congrArg (mseOut (blk1 V c 0 t) (blk1 V c 1 t)) hj).trans ?_
  exact mseOut_blk_apply V c t _ _ _ rfl

/-- An index of the array is in point `t`'s block iff each coordinate is in the block's range on its axis. -/
theorem mse_mem_blk (t : Fin cfg1.N) (i : S32x196.Idx) :
    i ∈ ((cfg1.win 2).blk t).view.set ↔ ∀ a : Fin 2, win1_2.index t a * S8x196.size a ≤ (i a).val ∧ (i a).val < win1_2.index t a * S8x196.size a + S8x196.size a := by
  show i ∈ ((View.whole main_v10).slice (win1_2.rect t)).set ↔ _
  rw [View.set_slice_whole, Rect.mem_set_unit]
  exact Iff.rfl

/-- Every row of the array is in some point's block: row `b` in point `b / 8`'s. -/
theorem mse_cover (i : S32x196.Idx) : ∃ t : Fin cfg1.N, (cfg1.win 2).flush t = true ∧ i ∈ ((cfg1.win 2).blk t).view.set := by
  have hi0 : (i 0).val < 32 := (i 0).isLt
  have hi1 : (i 1).val < 196 := (i 1).isLt
  have hN : cfg1.N = 4 := N_1
  let t : Fin cfg1.N := ⟨(i 0).val / 8, by rw [hN]; omega⟩
  obtain ⟨-, -, -, -, -, -, e0, e1⟩ := mse_index_facts t
  refine ⟨t, flush1_2 t, ?_⟩
  rw [mse_mem_blk]
  intro a
  match a with
  | ⟨0, _⟩ => show win1_2.index t (0 : Fin 2) * 8 ≤ (i 0).val ∧ (i 0).val < win1_2.index t (0 : Fin 2) * 8 + 8; rw [e0]; show (i 0).val / 8 * 8 ≤ (i 0).val ∧ (i 0).val < (i 0).val / 8 * 8 + 8; omega
  | ⟨1, _⟩ => show win1_2.index t (1 : Fin 2) * 196 ≤ (i 1).val ∧ (i 1).val < win1_2.index t (1 : Fin 2) * 196 + 196; rw [e1]; omega

/-- THE REGION'S VALUE: after the four points the array of means is `mseArr`. -/
theorem mseArray_eq (c : Dev nD) : (mseDat (F := Ideal) V c).arrAt 2 cfg1.N = mseArr V c :=
  (mseDat (F := Ideal) V c).arrAt_eq_of_cover 2 (mseArr V c) (fun t _ => mse_flushed_eq V c t) mse_cover

/-- The same, index by index. -/
theorem mseArray (c : Dev nD) :
    (mseDat (F := Ideal) V c).arrAt 2 cfg1.N = fun i => msePatch (V c main_arg0) (V c main_arg2) (i 0) (i 1) :=
  mseArray_eq V c

/-- and at explicit coordinates. -/
theorem mseArray_apply (c : Dev nD) (b : Fin 32) (l : Fin 196) :
    (mseDat (F := Ideal) V c).arrAt 2 cfg1.N (ix2 b l) = msePatch (V c main_arg0) (V c main_arg2) b l := by
  rw [mseArray_eq]
  rfl

end

end Cert.KernelIdeal.Hand

end
-- ==== Proof.Shared.lean ====
/-
  What the kernel's program and the reference share, stated once over literal shapes and no program.

  Both programs end in the same host operations.  From a per-token cross entropy `ce : [32,128]` and a per-patch
  mean squared error `mse : [32,196]` the result is
      (Σ ce·rmask / Σ rmask) · rweight + (Σ mse·imask / Σ imask) · iweight        (`tail`).
  Both pick one vocabulary entry per token by the same index arithmetic on the token ids (`pick`): a negative id is
  moved up by 32000, the entry is gathered where the moved id lies in [0, 31999], and elsewhere the fill value
  (the quiet-NaN pattern) is taken.  The kernel picks from the logits, the reference from their log-softmax.
-/
import Idealize.ShloMosaic.Lib.StableHlo
import Idealize.ShloMosaic.PureOps
import Idealize.ShloMosaic.PureOps.Ideal

noncomputable section

namespace Cert.Shared

open Idealize.ShloMosaic Idealize.SL.Sem

abbrev Sbt : Shape := ⟨2, ![32, 128]⟩
abbrev Sbl : Shape := ⟨2, ![32, 196]⟩
abbrev Sbtv : Shape := ⟨3, ![32, 128, 32000]⟩
abbrev Sbld : Shape := ⟨3, ![32, 196, 768]⟩
abbrev Sbt1 : Shape := ⟨3, ![32, 128, 1]⟩
abbrev Sbt11 : Shape := ⟨4, ![32, 128, 1, 1]⟩
abbrev S0 : Shape := ⟨0, ![]⟩
abbrev S1 : Shape := ⟨1, ![1]⟩
abbrev S1111 : Shape := ⟨4, ![1, 1, 1, 1]⟩

variable {F : FTy → Type} [FloatOps F]

/-- The shape relations the shared operations ask for (each program states them among its facts). -/
structure ShapeFacts : Prop where
  red_bt : Sbt.ReducesTo [0, 1] S0
  red_bl : Sbl.ReducesTo [0, 1] S0
  pos0 : 0 < S0.numel
  bc_bt_bt1 : Sbt.BroadcastsInDim Sbt1 (![0, 1] : Fin 2 → Fin Sbt1.rank)
  bc_0_bt1 : S0.BroadcastsInDim Sbt1 (![] : Fin 0 → Fin Sbt1.rank)
  sc_bt1_bt11 : Sbt1.ShapeCasts Sbt11
  bc_0_bt11 : S0.BroadcastsInDim Sbt11 (![] : Fin 0 → Fin Sbt11.rank)
  bc_1_1111 : S1.BroadcastsInDim S1111 (![3] : Fin 1 → Fin S1111.rank)
  bc_1111_bt11 : S1111.BroadcastsInDim Sbt11 (![0, 1, 2, 3] : Fin 4 → Fin Sbt11.rank)
  red_bt11_bt1 : Sbt11.ReducesTo [3] Sbt1
  sc_bt1_bt : Sbt1.ShapeCasts Sbt
  gwf : GatherDims.WF Sbtv Sbt11 Sbt1 [] [2] [0, 1] [2] [0, 1] 3 ![1, 1, 1]

/-- The gather of one vocabulary entry per token: batch axes 0 and 1, the start index into axis 2. -/
def pickDims (hf : ShapeFacts) : GatherDims Sbtv Sbt11 Sbt1 where
  offsetDims := []
  collapsedSliceDims := [2]
  operandBatchingDims := [0, 1]
  startIndicesBatchingDims := [0, 1]
  startIndexMap := [2]
  indexVectorDim := 3
  sliceSizes := ![1, 1, 1]
  wf := hf.gwf

/-- The token ids as the gather's start indices: a negative id moved up by 32000. -/
def pickIdx (hf : ShapeFacts) (ids : (⟨Sbt, .i32⟩ : BufTy).Contents (Elt F)) : (⟨Sbt11, .i32⟩ : BufTy).Contents (Elt F) :=
  let i1 : (⟨Sbt1, .i32⟩ : BufTy).Contents (Elt F) := broadcastInDim Sbt1 ![0, 1] hf.bc_bt_bt1 ids
  let z : (⟨Sbt1, .i32⟩ : BufTy).Contents (Elt F) := broadcastInDim Sbt1 ![] hf.bc_0_bt1 (constantI S0 32 0#32)
  let neg : (⟨Sbt1, .i1⟩ : BufTy).Contents (Elt F) := cmpi .slt i1 z
  let v : (⟨Sbt1, .i32⟩ : BufTy).Contents (Elt F) := broadcastInDim Sbt1 ![] hf.bc_0_bt1 (constantI S0 32 32000#32)
  shapeCast Sbt11 (select neg (addi i1 v) i1) hf.sc_bt1_bt11

/-- Where the moved id lies in [0, 31999]. -/
def pickOk (hf : ShapeFacts) (ids : (⟨Sbt, .i32⟩ : BufTy).Contents (Elt F)) : (⟨Sbt1, .i1⟩ : BufTy).Contents (Elt F) :=
  let j := pickIdx hf ids
  let ge : (⟨Sbt11, .i1⟩ : BufTy).Contents (Elt F) := cmpi .sge j (broadcastInDim Sbt11 ![] hf.bc_0_bt11 (constantI S0 32 0#32))
  let hi : (⟨Sbt11, .i32⟩ : BufTy).Contents (Elt F) :=
    broadcastInDim Sbt11 ![0, 1, 2, 3] hf.bc_1111_bt11 (broadcastInDim S1111 ![3] hf.bc_1_1111 (constantI S1 32 31999#32))
  let le : (⟨Sbt11, .i1⟩ : BufTy).Contents (Elt F) := cmpi .sle j hi
  Host.reduce IntOp.andi (andi ge le) (constantI S0 1 1#1) hf.red_bt11_bt1 hf.pos0

/-- One vocabulary entry per token, the fill value where the id is out of range. -/
def pick (hf : ShapeFacts) (x : (⟨Sbtv, .f32⟩ : BufTy).Contents (Elt F)) (ids : (⟨Sbt, .i32⟩ : BufTy).Contents (Elt F)) :
    (⟨Sbt, .f32⟩ : BufTy).Contents (Elt F) :=
  let g : (⟨Sbt1, .f32⟩ : BufTy).Contents (Elt F) := Host.gather (pickDims hf) x (pickIdx hf ids)
  let fill : (⟨Sbt1, .f32⟩ : BufTy).Contents (Elt F) := broadcastInDim Sbt1 ![] hf.bc_0_bt1 (constant S0 .f32 0x7FC00000#32)
  shapeCast Sbt (select (pickOk hf ids) g fill) hf.sc_bt1_bt

/-- The two masked means, weighted and added. -/
def tail (hf : ShapeFacts) (ce : (⟨Sbt, .f32⟩ : BufTy).Contents (Elt F)) (mse : (⟨Sbl, .f32⟩ : BufTy).Contents (Elt F))
    (imask : (⟨Sbl, .f32⟩ : BufTy).Contents (Elt F)) (rmask : (⟨Sbt, .f32⟩ : BufTy).Contents (Elt F))
    (iweight rweight : (⟨S0, .f32⟩ : BufTy).Contents (Elt F)) : (⟨S0, .f32⟩ : BufTy).Contents (Elt F) :=
  let z : (⟨S0, .f32⟩ : BufTy).Contents (Elt F) := constant S0 .f32 0x00000000#32
  let report : (⟨S0, .f32⟩ : BufTy).Contents (Elt F) :=
    mulf (Host.divf (Host.reduceAdd (mulf ce rmask) z hf.red_bt hf.pos0) (Host.reduceAdd rmask z hf.red_bt hf.pos0)) rweight
  let image : (⟨S0, .f32⟩ : BufTy).Contents (Elt F) :=
    mulf (Host.divf (Host.reduceAdd (mulf mse imask) z hf.red_bl hf.pos0) (Host.reduceAdd imask z hf.red_bl hf.pos0)) iweight
  addf report image

end Cert.Shared

end
-- ==== Proof.RefSide.lean ====
/-
  The reference's side: its run (the generated Run module) read back one operation at a time (the generated Read
  module), towards the reference's result as the shared tail of the per-token cross entropy and the per-patch
  mean squared error.

  The reference computes, per token, the log-softmax of the logits over the vocabulary axis, picks the entry at the
  token id, negates it; and per patch the mean over the feature axis of the squared difference of the two images.
  Both feed the shared tail. The shared operations are literally the reference's operations, so the reference's
  composed result term IS the shared tail of those two arrays (equal by unfolding, the shape facts being proofs).
-/
import proofs.«151323_j54468775248230_1_alg».proof.Defs
import proofs.«151323_j54468775248230_1_alg».proof.Proof.RefReadP
import proofs.«151323_j54468775248230_1_alg».proof.Proof.Gen.Pre_finite_inputs
import proofs.«151323_j54468775248230_1_alg».proof.Proof.Shared

noncomputable section

namespace Cert.RefSide

open Cert.ReferenceIdeal Cert.ReferenceIdeal.Gen Idealize.ShloMosaic Idealize.ShloMosaic.TcCoe Idealize.SL.Sem Idealize.ShloMosaic.StableHlo
open Cert.Shared

/-- The shape relations of the shared operations: each is one the reference states. -/
theorem shapeFacts : Cert.Shared.ShapeFacts where
  red_bt := reducesTo_S32x128_S_d0_1
  red_bl := reducesTo_S32x196_S_d0_1
  pos0 := h_S_
  bc_bt_bt1 := bcast_S32x128_S32x128x1_0_1
  bc_0_bt1 := bcast_S_S32x128x1
  sc_bt1_bt11 := shapeCasts_S32x128x1_S32x128x1x1
  bc_0_bt11 := bcast_S_S32x128x1x1
  bc_1_1111 := bcast_S1_S1x1x1x1_3
  bc_1111_bt11 := bcast_S1x1x1x1_S32x128x1x1_0_1_2_3
  red_bt11_bt1 := reducesTo_S32x128x1x1_S32x128x1_d3
  sc_bt1_bt := shapeCasts_S32x128x1_S32x128
  gwf := gather_S32x128x32000_S32x128x1x1_S32x128x1_n_2_01_01_2_3_111_wf

/-- The log-softmax of the logits over the vocabulary axis, as the reference computes it. -/
def logp (x : (⟨Sbtv, .f32⟩ : BufTy).Contents (Elt Ideal)) : (⟨Sbtv, .f32⟩ : BufTy).Contents (Elt Ideal) :=
  Read.val_main_v0 (F := Ideal) x

/-- The per-patch mean squared difference of the two images, as the reference computes it. -/
def mseRef (a0 a2 : (⟨Sbld, .f32⟩ : BufTy).Contents (Elt Ideal)) : (⟨Sbl, .f32⟩ : BufTy).Contents (Elt Ideal) :=
  Read.val_main_v14 (F := Ideal) a0 a2

/-- The reference's result as the shared tail of its cross entropy and its mean squared error. -/
def result (m : (ℓ : Loc nD τ sig) → Buf (Elt Ideal) ℓ) (c : Dev nD) : (⟨S0, .f32⟩ : BufTy).Contents (Elt Ideal) :=
  tail shapeFacts
    (Host.negf (pick shapeFacts (logp (m ((c.tc : Thread nD τ).loc main_arg3))) (m ((c.tc : Thread nD τ).loc main_arg1))))
    (mseRef (m ((c.tc : Thread nD τ).loc main_arg0)) (m ((c.tc : Thread nD τ).loc main_arg2)))
    (m ((c.tc : Thread nD τ).loc main_arg4)) (m ((c.tc : Thread nD τ).loc main_arg5))
    (m ((c.tc : Thread nD τ).loc main_arg6)) (m ((c.tc : Thread nD τ).loc main_arg7))

set_option maxRecDepth 8192 in
/-- The run's composed term for the result buffer is that tail. -/
theorem result_eq (m : (ℓ : Loc nD τ sig) → Buf (Elt Ideal) ℓ) (c : Dev nD) :
    Cert.ReferenceIdeal.Value.res_main_v20 (F := Ideal) m c = result m c := by
  rw [Read.val_main_v20_eq]
  rfl

/-- The reference's run: every weakly fair execution terminates with the result buffer at the shared tail of the
    reference's cross entropy and mean squared error, the arguments unchanged. -/
theorem run (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run Cert.ReferenceIdeal.defs _ _).mono (fun _ h c => ⟨(h c).1.trans (result_eq m c), (h c).2⟩)
    (Cert.ReferenceIdeal.Value.run (F := Ideal) m ρ)

/-- The reference runs and leaves its arguments unchanged: its run with the result dropped. -/
theorem frame : Cert.frame_ReferenceIdeal :=
  fun m ρ _ => (θ_run Cert.ReferenceIdeal.defs _ _).mono (fun _ h c => (h c).2)
    (Cert.ReferenceIdeal.Value.run (F := Ideal) m ρ)

end Cert.RefSide

end
-- ==== Proof.RefApply.lean ====
/-
  The reference's log-softmax and mean squared error read at an index.

  At row (b, t) the reference takes M = max(-∞, max over the vocabulary of the logits), subtracts it, and subtracts the
  logarithm of the sum over the vocabulary of the exponentials of the shifted logits (the sum taken from 0). At patch
  (b, l) it divides the sum over the feature axis (taken from 0) of the squared differences of the two images by the word
  of the constant 768.
-/
import proofs.«151323_j54468775248230_1_alg».proof.Proof.RefSide
import Idealize.ShloMosaic.Lib.ValueIdx

noncomputable section

namespace Cert.RefSide

open Cert.ReferenceIdeal Cert.ReferenceIdeal.Gen Idealize.ShloMosaic Idealize.ShloMosaic.TcCoe Idealize.SL.Sem Idealize.ShloMosaic.StableHlo
open Cert.Shared Idealize.ShloMosaic.ValueIdx
open scoped BigOperators

/-- The row maximum the reference subtracts: the maximum of -∞ and the fold of max, from -∞, over the vocabulary. -/
abbrev rowMax (x : (⟨Sbtv, .f32⟩ : BufTy).Contents (Elt Ideal)) (b : Fin 32) (t : Fin 128) : EReal :=
  max ⊥ (Finset.univ.fold max ⊥ fun k : Fin 32000 => x (ix3 b t k))

private theorem negInf : Ideal.ofBits .f32 0xFF800000#32 = ⊥ := by simp [Ideal.ofBits, Ideal.ieee]

/-! The layout operations' operand indices at an index given by its coordinates. -/

private theorem idx_v4 (b : Fin 32) (t : Fin 128) (v : Fin 32000) :
    Read.idx_main_call0_v4 (ix3 b t v) = ix3 b t (0 : Fin 1) := by
  funext a; match a with | ⟨0, _⟩ => rfl | ⟨1, _⟩ => rfl | ⟨2, _⟩ => rfl
private theorem idx_v3 (b : Fin 32) (t : Fin 128) :
    Read.idx_main_call0_v3 (ix3 b t (0 : Fin 1)) = ix2 b t := by
  funext a; match a with | ⟨0, _⟩ => rfl | ⟨1, _⟩ => rfl
private theorem idx_v10 (b : Fin 32) (t : Fin 128) (v : Fin 32000) :
    Read.idx_main_call0_v10 (ix3 b t v) = ix3 b t (0 : Fin 1) := by
  funext a; match a with | ⟨0, _⟩ => rfl | ⟨1, _⟩ => rfl | ⟨2, _⟩ => rfl
private theorem idx_v8 (b : Fin 32) (t : Fin 128) :
    Read.idx_main_call0_v8 (ix3 b t (0 : Fin 1)) = ix2 b t := by
  funext a; match a with | ⟨0, _⟩ => rfl | ⟨1, _⟩ => rfl
private theorem idx_v7 (b : Fin 32) (t : Fin 128) (k : Fin 32000) :
    Read.idx_main_call0_v7 (ix2 b t) k = ix3 b t k := by
  funext a; match a with | ⟨0, _⟩ => rfl | ⟨1, _⟩ => rfl | ⟨2, _⟩ => rfl
private theorem idx_v12 (b : Fin 32) (l : Fin 196) (d : Fin 768) :
    Read.idx_main_v12 (ix2 b l) d = ix3 b l d := by
  funext a; match a with | ⟨0, _⟩ => rfl | ⟨1, _⟩ => rfl | ⟨2, _⟩ => rfl

/-- The reference's row maximum at (b, t). -/
theorem val_v2_apply (x : (⟨Sbtv, .f32⟩ : BufTy).Contents (Elt Ideal)) (b : Fin 32) (t : Fin 128) :
    Read.val_main_call0_v2 (F := Ideal) x (ix2 b t) = rowMax x b t := by
  have hr : S32x128x32000.Reduces [2] S32x128 := by decide
  have hl : ∀ k : Fin 32000, hr.lift (ix2 b t) k = ix3 b t k := fun k => by
    funext a; apply Fin.ext
    match a with | ⟨0, _⟩ => rfl | ⟨1, _⟩ => rfl | ⟨2, _⟩ => rfl
  have h0 := Host.reduce_eq_fold_single (α := Ideal .f32) (FloatOps.maximumf (F := Ideal) (φ := .f32)) x
    (Read.val_main_call0_cst (F := Ideal)) reducesTo_S32x128x32000_S32x128_d2 hr h_S_ (ix2 b t)
  rw [Read.val_main_call0_v2_apply, Read.val_main_call0_v1_apply]
  unfold Read.val_main_call0_v0
  rw [h0]
  show max (Ideal.ofBits .f32 0xFF800000#32)
    (Finset.fold max (Ideal.ofBits .f32 0xFF800000#32) (x ∘ hr.lift (ix2 b t)) (Finset.univ : Finset (Fin 32000))) = _
  rw [negInf]
  exact congrArg (fun f : Fin 32000 → EReal => max ⊥ (Finset.fold max ⊥ f (Finset.univ : Finset (Fin 32000))))
    (funext fun k => congrArg x (hl k))

/-- The shifted logit at (b, t, v). -/
theorem val_v5_apply (x : (⟨Sbtv, .f32⟩ : BufTy).Contents (Elt Ideal)) (b : Fin 32) (t : Fin 128) (v : Fin 32000) :
    Read.val_main_call0_v5 (F := Ideal) x (ix3 b t v) = x (ix3 b t v) - rowMax x b t := by
  rw [Read.val_main_call0_v5_apply, Read.val_main_call0_v4_apply, idx_v4, Read.val_main_call0_v3_apply, idx_v3,
    val_v2_apply, Ideal.subf_def]

/-- The sum of the exponentials of the shifted logits at (b, t), taken from 0. -/
theorem val_v7_apply (x : (⟨Sbtv, .f32⟩ : BufTy).Contents (Elt Ideal)) (b : Fin 32) (t : Fin 128) :
    Read.val_main_call0_v7 (F := Ideal) x (ix2 b t)
      = 0 + ∑ k : Fin 32000, Ideal.exp (x (ix3 b t k) - rowMax x b t) := by
  rw [Read.val_main_call0_v7_apply]
  show Ideal.ofBits .f32 0x00000000#32 + ∑ k : Fin 32000, Read.val_main_call0_v6 (F := Ideal) x (Read.idx_main_call0_v7 (ix2 b t) k) = _
  rw [Ideal.ofBits_zero_f32]
  refine congrArg (fun s : EReal => 0 + s) (Finset.sum_congr rfl fun k _ => ?_)
  rw [idx_v7, Read.val_main_call0_v6_apply, val_v5_apply, Ideal.hostUnary_exp_def]

/-- The log-softmax at (b, t, v). -/
theorem logp_apply (x : (⟨Sbtv, .f32⟩ : BufTy).Contents (Elt Ideal)) (b : Fin 32) (t : Fin 128) (v : Fin 32000) :
    logp x (ix3 b t v)
      = (x (ix3 b t v) - rowMax x b t)
        - Ideal.log (0 + ∑ k : Fin 32000, Ideal.exp (x (ix3 b t k) - rowMax x b t)) := by
  unfold logp
  rw [Read.val_main_v0_apply, val_v5_apply, Read.val_main_call0_v10_apply, idx_v10, Read.val_main_call0_v9_apply,
    Read.val_main_call0_v8_apply, idx_v8, val_v7_apply, Ideal.subf_def, Ideal.hostUnary_log_def]

/-- The per-patch mean squared difference at (b, l). -/
theorem mseRef_apply (a0 a2 : (⟨Sbld, .f32⟩ : BufTy).Contents (Elt Ideal)) (b : Fin 32) (l : Fin 196) :
    mseRef a0 a2 (ix2 b l)
      = Ideal.div (0 + ∑ d : Fin 768, (a2 (ix3 b l d) - a0 (ix3 b l d)) * (a2 (ix3 b l d) - a0 (ix3 b l d)))
          (Ideal.ofBits .f32 0x44400000#32) := by
  unfold mseRef
  rw [Read.val_main_v14_apply, Read.val_main_v12_apply, Read.val_main_v13_apply]
  show Ideal.div (Ideal.ofBits .f32 0x00000000#32
      + ∑ d : Fin 768, Read.val_main_v11 (F := Ideal) a0 a2 (Read.idx_main_v12 (ix2 b l) d))
    (Ideal.ofBits .f32 0x44400000#32) = _
  rw [Ideal.ofBits_zero_f32]
  refine congrArg (fun s : EReal => Ideal.div (0 + s) (Ideal.ofBits .f32 0x44400000#32)) (Finset.sum_congr rfl fun d _ => ?_)
  rw [idx_v12]
  rfl

end Cert.RefSide

end
-- ==== Proof.PickRead.lean ====
/-
  The shared pick read at an index.

  For token (b, t) the gather reads the operand at row (b, t) and at the column given by the token id: the id, moved up
  by 32000 when negative, read as a signed integer and clamped into [0, 31999]. Where the moved id already lies in
  [0, 31999] that entry is taken; elsewhere the fill value, whose pattern is a quiet NaN and reads as the bottom
  element among the extended reals. Both the condition and the column depend on the token ids only, never on the operand.
-/
import proofs.«151323_j54468775248230_1_alg».proof.Proof.Shared
import Idealize.ShloMosaic.Lib.ValueIdx
import Idealize.ShloMosaic.Lib.Pipeline.Value
import Idealize.ShloMosaic.Lib.ReduceAll
import Idealize.ShloMosaic.PureOps.Ideal.Laws

noncomputable section

namespace Cert.Shared

open Idealize.ShloMosaic Idealize.SL.Sem Idealize.ShloMosaic.ValueIdx

/-- The id of token (b, t), moved up by 32000 when it is negative. -/
def pickMoved (ids : (⟨Sbt, .i32⟩ : BufTy).Contents (Elt Ideal)) (b : Fin 32) (t : Fin 128) : BitVec 32 :=
  Scalar.select (IntOp.cmpi .slt (ids (ix2 b t)) 0#32) (IntOp.addi (ids (ix2 b t)) 32000#32) (ids (ix2 b t))

/-- The moved id lies in [0, 31999]. -/
def pickIn (ids : (⟨Sbt, .i32⟩ : BufTy).Contents (Elt Ideal)) (b : Fin 32) (t : Fin 128) : Prop :=
  0 ≤ (pickMoved ids b t).toInt ∧ (pickMoved ids b t).toInt ≤ 31999

instance (ids : (⟨Sbt, .i32⟩ : BufTy).Contents (Elt Ideal)) (b : Fin 32) (t : Fin 128) : Decidable (pickIn ids b t) := by
  unfold pickIn; infer_instance

/-- The column the gather reads: the moved id as a signed integer, clamped into [0, 31999]. -/
def pickCol (ids : (⟨Sbt, .i32⟩ : BufTy).Contents (Elt Ideal)) (b : Fin 32) (t : Fin 128) : Fin 32000 :=
  ⟨min (pickMoved ids b t).toInt.toNat 31999, by omega⟩

/-- The start indices at an index: the moved id of its token. -/
theorem pickIdx_apply (hf : ShapeFacts) (ids : (⟨Sbt, .i32⟩ : BufTy).Contents (Elt Ideal)) (j : Sbt11.Idx) :
    pickIdx hf ids j = pickMoved ids (j 0) (j 1) := by
  have h2 : (j 2).val < 1 := (j 2).isLt
  have h3 : (j 3).val < 1 := (j 3).isLt
  unfold pickIdx
  dsimp only
  rw [shapeCast_apply _ hf.sc_bt1_bt11 j (ix3 (j 0) (j 1) (0 : Fin 1))
    (by rewrite [Shape.rowMajor_val_three, Shape.rowMajor_val_four]
        show ((j 0).val * 128 + (j 1).val) * 1 + 0 = (((j 0).val * 128 + (j 1).val) * 1 + (j 2).val) * 1 + (j 3).val
        omega)]
  have hb : broadcastInDim Sbt1 ![0, 1] hf.bc_bt_bt1 ids (ix3 (j 0) (j 1) (0 : Fin 1)) = ids (ix2 (j 0) (j 1)) :=
    broadcastInDim_apply _ hf.bc_bt_bt1 ids _ (ix2 (j 0) (j 1)) (fun a => match a with
      | ⟨0, _⟩ => by show (j 0).val = if (32 : Nat) = 1 then 0 else (j 0).val; rw [if_neg (by decide)]
      | ⟨1, _⟩ => by show (j 1).val = if (128 : Nat) = 1 then 0 else (j 1).val; rw [if_neg (by decide)])
  show Scalar.select (IntOp.cmpi .slt (broadcastInDim Sbt1 ![0, 1] hf.bc_bt_bt1 ids (ix3 (j 0) (j 1) (0 : Fin 1))) 0#32)
      (IntOp.addi (broadcastInDim Sbt1 ![0, 1] hf.bc_bt_bt1 ids (ix3 (j 0) (j 1) (0 : Fin 1))) 32000#32)
      (broadcastInDim Sbt1 ![0, 1] hf.bc_bt_bt1 ids (ix3 (j 0) (j 1) (0 : Fin 1))) = _
  rw [hb]
  rfl

/-- A fold over the one coordinate of a unit axis is one application of the operation. -/
private theorem fold_fin_one {β : Type} (op : β → β → β) [Std.Commutative op] [Std.Associative op] (b : β) (f : Fin 1 → β) :
    (Finset.univ : Finset (Fin 1)).fold op b f = op (f 0) b := by
  rw [Finset.univ_unique, Finset.fold_singleton]; rfl

private theorem andi_one (c : BitVec 1) : IntOp.andi c 1#1 = c := by revert c; decide

/-- The range condition at an index, as the two signed comparisons of the moved id. -/
theorem pickOk_apply (hf : ShapeFacts) (ids : (⟨Sbt, .i32⟩ : BufTy).Contents (Elt Ideal)) (j : Sbt1.Idx) :
    pickOk hf ids j = IntOp.andi (IntOp.cmpi .sge (pickMoved ids (j 0) (j 1)) 0#32)
      (IntOp.cmpi .sle (pickMoved ids (j 0) (j 1)) 31999#32) := by
  have hr : Sbt11.Reduces [3] Sbt1 := by decide
  unfold pickOk
  dsimp only
  rw [Host.reduce_eq_fold_single IntOp.andi _ _ hf.red_bt11_bt1 hr hf.pos0 j]
  refine (fold_fin_one IntOp.andi _ _).trans ?_
  show IntOp.andi (IntOp.andi (IntOp.cmpi .sge (pickIdx hf ids (hr.lift j (0 : Fin 1))) 0#32)
    (IntOp.cmpi .sle (pickIdx hf ids (hr.lift j (0 : Fin 1))) 31999#32)) 1#1 = _
  rw [andi_one, pickIdx_apply]
  rfl

/-- The range condition holds at an index exactly where the moved id lies in [0, 31999]. -/
theorem pickOk_eq_one_iff (hf : ShapeFacts) (ids : (⟨Sbt, .i32⟩ : BufTy).Contents (Elt Ideal)) (j : Sbt1.Idx) :
    pickOk hf ids j = 1#1 ↔ pickIn ids (j 0) (j 1) := by
  rw [pickOk_apply, IntOp.andi_eq_one, IntOp.cmpi_sge, IntOp.cmpi_sle]
  rfl

/-- The gather at an index: the operand at the token's row and at the start index read signed and clamped. -/
theorem gather_pick_apply {α : Type} (hf : ShapeFacts) (x : Sbtv.Idx → α) (idx : IVec Sbt11 32) (j : Sbt1.Idx) :
    Host.gather (pickDims hf) x idx j
      = x (ix3 (j 0) (j 1) (⟨min (idx (ix4 (j 0) (j 1) (j 2) (0 : Fin 1))).toInt.toNat 31999, by omega⟩ : Fin 32000)) := by
  unfold Host.gather
  refine congrArg x (funext fun a => Fin.ext ?_)
  show (pickDims hf).start j idx a + (pickDims hf).batchCoord j a + (pickDims hf).offCoord j a = _
  match a with
  | ⟨0, h0⟩ =>
    have hm : (⟨0, h0⟩ : Fin 3) ∈ (pickDims hf).operandBatchingDims :=
      (by decide : (0 : Fin 3) ∈ ([0, 1] : List (Fin 3)))
    rw [GatherDims.start_batching _ _ _ _ hm,
      GatherDims.offCoord_eq_zero _ _ _ (fun h => ((GatherDims.mem_sKept _ _).mp h).2 hm)]
    unfold GatherDims.batchCoord
    rw [dif_pos hm]
    rw [Nat.zero_add, Nat.add_zero]
    rfl
  | ⟨1, h1⟩ =>
    have hm : (⟨1, h1⟩ : Fin 3) ∈ (pickDims hf).operandBatchingDims :=
      (by decide : (1 : Fin 3) ∈ ([0, 1] : List (Fin 3)))
    rw [GatherDims.start_batching _ _ _ _ hm,
      GatherDims.offCoord_eq_zero _ _ _ (fun h => ((GatherDims.mem_sKept _ _).mp h).2 hm)]
    unfold GatherDims.batchCoord
    rw [dif_pos hm]
    rw [Nat.zero_add, Nat.add_zero]
    rfl
  | ⟨2, h2⟩ =>
    have hnb : (⟨2, h2⟩ : Fin 3) ∉ (pickDims hf).operandBatchingDims :=
      (by decide : (2 : Fin 3) ∉ ([0, 1] : List (Fin 3)))
    have hc : (⟨2, h2⟩ : Fin 3) ∈ (pickDims hf).collapsedSliceDims :=
      (by decide : (2 : Fin 3) ∈ ([2] : List (Fin 3)))
    have hs : (⟨2, h2⟩ : Fin 3) ∈ (pickDims hf).startIndexMap :=
      (by decide : (2 : Fin 3) ∈ ([2] : List (Fin 3)))
    rw [GatherDims.batchCoord_eq_zero _ _ _ hnb,
      GatherDims.offCoord_eq_zero _ _ _ (fun h => ((GatherDims.mem_sKept _ _).mp h).1 hc)]
    unfold GatherDims.start
    rw [dif_pos hs]
    have hsi : (pickDims hf).siIdx j ⟨List.idxOf (⟨2, h2⟩ : Fin 3) (pickDims hf).startIndexMap,
        List.idxOf_lt_length_iff.2 hs⟩ = ix4 (j 0) (j 1) (j 2) (0 : Fin 1) := by
      funext b; refine Fin.ext ?_
      match b with
      | ⟨0, _⟩ => rfl
      | ⟨1, _⟩ => rfl
      | ⟨2, _⟩ => rfl
      | ⟨3, _⟩ => rfl
    rw [hsi]
    rfl

/-- The gather of the moved ids at an index: the operand at the token's row and column. -/
theorem gather_pickIdx_apply {α : Type} (hf : ShapeFacts) (x : Sbtv.Idx → α)
    (ids : (⟨Sbt, .i32⟩ : BufTy).Contents (Elt Ideal)) (j : Sbt1.Idx) :
    Host.gather (pickDims hf) x (pickIdx hf ids) j = x (ix3 (j 0) (j 1) (pickCol ids (j 0) (j 1))) := by
  rw [gather_pick_apply]
  refine congrArg x (congrArg (fun c : Fin 32000 => ix3 (j 0) (j 1) c) (Fin.ext ?_))
  show min (pickIdx hf ids (ix4 (j 0) (j 1) (j 2) (0 : Fin 1))).toInt.toNat 31999
    = min (pickMoved ids (j 0) (j 1)).toInt.toNat 31999
  rw [pickIdx_apply]

/-- The pick read at token (b, t): for ANY operand, the entry of row (b, t) at the column the token id names where the
    moved id lies in [0, 31999], and the bottom element (the fill pattern's reading) elsewhere. Condition and column
    are functions of the token ids alone. -/
theorem pick_apply (hf : ShapeFacts) (x : (⟨Sbtv, .f32⟩ : BufTy).Contents (Elt Ideal))
    (ids : (⟨Sbt, .i32⟩ : BufTy).Contents (Elt Ideal)) (b : Fin 32) (t : Fin 128) :
    pick hf x ids (ix2 b t) = if pickIn ids b t then x (ix3 b t (pickCol ids b t)) else ⊥ := by
  unfold pick
  dsimp only
  rw [shapeCast_apply _ hf.sc_bt1_bt (ix2 b t) (ix3 b t (0 : Fin 1))
    (by rewrite [Shape.rowMajor_val_three, Shape.rowMajor_val_two]
        show (b.val * 128 + t.val) * 1 + 0 = b.val * 128 + t.val
        omega)]
  show Scalar.select (pickOk hf ids (ix3 b t (0 : Fin 1)))
      (Host.gather (pickDims hf) x (pickIdx hf ids) (ix3 b t (0 : Fin 1)))
      (broadcastInDim Sbt1 ![] hf.bc_0_bt1 (constant (F := Ideal) S0 .f32 0x7FC00000#32) (ix3 b t (0 : Fin 1))) = _
  rw [gather_pickIdx_apply]
  by_cases h : pickIn ids b t
  · rw [if_pos h, (pickOk_eq_one_iff hf ids (ix3 b t (0 : Fin 1))).mpr h, select_one]
  · rw [if_neg h, eq_zero_of_ne_one (fun e => h ((pickOk_eq_one_iff hf ids (ix3 b t (0 : Fin 1))).mp e)), select_zero]
    show Ideal.ofBits .f32 0x7FC00000#32 = ⊥
    simp [Ideal.ofBits, Ideal.ieee]

end Cert.Shared

end
-- ==== Proof.LibCePoint.lean ====
/-
  The per-token cross entropy with the out-of-range case folded in.

  For a row of 32000 logits that are real numbers, walked in 25 tiles of 1280, and a picked entry that is either the
  row's entry at a column (the token id in range) or -∞ (out of range): the streamed log-sum-exp minus the picked entry
  equals the negated pick from the log-softmax of the row, where the pick out of range is -∞ as well.  In range both are
  M + log Σ exp(x - M) - x_col; out of range both are +∞.
-/
import Mathlib
import Idealize.ShloMosaic.PureOps.Ideal
import proofs.«151323_j54468775248230_1_alg».proof.Proof.LibStreamLse

open scoped BigOperators
open Idealize.ShloMosaic

noncomputable section

namespace Cert.StreamLse

/-- The streamed cross entropy at a token: the streamed log-sum-exp minus the picked logit (-∞ when the token id is out
    of range) is the negated picked log-softmax (-∞ when out of range), for a row of real numbers. -/
theorem ce_point (row : Fin 32000 → EReal) (hreal : ∀ v, ∃ r : ℝ, row v = (r : EReal)) (x : ℕ → Fin 1280 → EReal)
    (hx : ∀ k (hk : k < 25) (j : Fin 1280), x k j = row ⟨1280 * k + j.val, by omega⟩) (ok : Prop) [Decidable ok]
    (col : Fin 32000) :
    ((run x 25).1 + Ideal.log (run x 25).2) - (if ok then row col else (⊥ : EReal))
      = -(if ok then (row col - max (⊥ : EReal) (Finset.univ.fold max (⊥ : EReal) row))
            - Ideal.log (0 + ∑ k : Fin 32000, Ideal.exp (row k - max (⊥ : EReal) (Finset.univ.fold max (⊥ : EReal) row)))
          else (⊥ : EReal)) := by
  choose xs hxs using hreal
  obtain rfl : row = fun v => ((xs v : ℝ) : EReal) := funext hxs
  by_cases h : ok
  · rw [if_pos h, if_pos h]
    exact stream_ce xs x hx col
  · rw [if_neg h, if_neg h]
    exact stream_fill xs x hx

end Cert.StreamLse

end
-- ==== Proof.BridgeCe.lean ====
/-
  The two programs meet.  Under the precondition every logit is a real number.  Per token (b, t):
    kernel      ce = (M + log S) - pick          M, S: the streaming maximum and rescaled sum over the 25 tiles
    reference   ce = -((pick - M') - log S')      M', S': the row maximum and the sum of exp (x - M') over the vocabulary
  with the SAME pick condition and column (they depend on the token ids alone); where the id is out of range both sides
  are -(⊥) = ⊤, the streamed value being a real number.  Per patch (b, l) the two mean squared errors are the same sum
  divided by the same word, the host's taken from 0.  Both results are the shared tail of these two arrays.
-/
import proofs.«151323_j54468775248230_1_alg».proof.Proof.KILseArray
import proofs.«151323_j54468775248230_1_alg».proof.Proof.KIMseValue
import proofs.«151323_j54468775248230_1_alg».proof.Proof.RefApply
import proofs.«151323_j54468775248230_1_alg».proof.Proof.PickRead
import proofs.«151323_j54468775248230_1_alg».proof.Proof.LibCePoint
import Idealize.ShloMosaic.Lib.ValueIdx

noncomputable section

namespace Cert.Bridge

open Cert.Shared Cert.StreamLse Idealize.ShloMosaic Idealize.SL.Sem Idealize.ShloMosaic.TcCoe Idealize.ShloMosaic.ValueIdx
open Cert.KernelIdeal.Hand (rowTiles rowTiles_lt msePatch)

/-- The per-token cross entropies agree: the kernel's (streamed log-sum-exp minus the picked logit) is the reference's
    (minus the picked log-softmax), for logits that are real numbers. -/
theorem ce_eq (hf hf' : ShapeFacts) (a3 : (⟨Sbtv, .f32⟩ : BufTy).Contents (Elt Ideal)) (ids : (⟨Sbt, .i32⟩ : BufTy).Contents (Elt Ideal))
    (hreal : ∀ i, ∃ r : ℝ, a3 i = (r : EReal))
    (lse : (⟨Sbt, .f32⟩ : BufTy).Contents (Elt Ideal))
    (hlse : ∀ (b : Fin 32) (t : Fin 128), lse (ix2 b t) = (run (rowTiles a3 b t) 25).1 + Ideal.log (run (rowTiles a3 b t) 25).2) :
    subf lse (pick hf a3 ids) = Host.negf (pick hf' (Cert.RefSide.logp a3) ids) := by
  funext i
  obtain ⟨b, t, rfl⟩ : ∃ (b : Fin 32) (t : Fin 128), i = ix2 b t := ⟨i 0, i 1, eq_ix2 i⟩
  show lse (ix2 b t) - pick hf a3 ids (ix2 b t) = -(pick hf' (Cert.RefSide.logp a3) ids (ix2 b t))
  rw [pick_apply, pick_apply, hlse]
  rw [ce_point (fun v => a3 (ix3 b t v)) (fun v => hreal _) (rowTiles a3 b t)
    (fun k hk j => rowTiles_lt a3 b t k j (by omega)) (pickIn ids b t) (pickCol ids b t)]
  refine congrArg (fun z : EReal => -z) ?_
  by_cases h : pickIn ids b t
  · rw [if_pos h, if_pos h, Cert.RefSide.logp_apply]
  · rw [if_neg h, if_neg h]

/-- The per-patch mean squared errors agree. -/
theorem mse_eq (a0 a2 : (⟨Sbld, .f32⟩ : BufTy).Contents (Elt Ideal)) :
    (fun i : Sbl.Idx => msePatch a0 a2 (i 0) (i 1)) = Cert.RefSide.mseRef a0 a2 := by
  funext i
  obtain ⟨b, l, rfl⟩ : ∃ (b : Fin 32) (l : Fin 196), i = ix2 b l := ⟨i 0, i 1, eq_ix2 i⟩
  rw [Cert.RefSide.mseRef_apply, zero_add]
  rfl

end Cert.Bridge

end
-- ==== Proof.KIHost.lean ====
/-
  The kernel program's result as the shared tail.  Between the two regions and after the second the program runs four
  stretches of host operations; each stretch's one result that is read later is the stretch's operations applied to
  the buffers it reads.  Composed, the result of the program is the two masked means, weighted and added, of the
  per-token cross entropy (the first region's array less the picked logits) and the second region's array.
-/
import proofs.«151323_j54468775248230_1_alg».proof.Proof.KIRun
import proofs.«151323_j54468775248230_1_alg».proof.Proof.KIMseValue
import proofs.«151323_j54468775248230_1_alg».proof.Proof.Shared
import Idealize.ShloMosaic.Lib.StableHlo.Run
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)
open Cert.Shared (Sbt Sbl Sbtv Sbld Sbt1 Sbt11 S0 S1111)

variable {F : FTy → Type} [FloatOps F]

/-- The shape relations the shared operations ask for, from the program's own facts. -/
theorem kiShapeFacts : Cert.Shared.ShapeFacts where
  red_bt := Facts₀.reducesTo_S32x128_S_d0_1
  red_bl := Facts₀.reducesTo_S32x196_S_d0_1
  pos0 := Facts₀.h_S_
  bc_bt_bt1 := Facts₀.bcast_S32x128_S32x128x1_0_1
  bc_0_bt1 := Facts₀.bcast_S_S32x128x1
  sc_bt1_bt11 := Facts₀.shapeCasts_S32x128x1_S32x128x1x1
  bc_0_bt11 := Facts₀.bcast_S_S32x128x1x1
  bc_1_1111 := Facts₀.bcast_S1_S1x1x1x1_3
  bc_1111_bt11 := Facts₀.bcast_S1x1x1x1_S32x128x1x1_0_1_2_3
  red_bt11_bt1 := Facts₀.reducesTo_S32x128x1x1_S32x128x1_d3
  sc_bt1_bt := Facts₀.shapeCasts_S32x128x1_S32x128
  gwf := Facts₀.gather_S32x128x32000_S32x128x1x1_S32x128x1_n_2_01_01_2_3_111_wf

/-! ## The pick, from the token ids already given their trailing unit axis -/

/-- The gather's start indices: a negative id moved up by 32000. -/
def pickIdx1 (hf : Cert.Shared.ShapeFacts) (i1 : (⟨Sbt1, .i32⟩ : BufTy).Contents (Elt F)) : (⟨Sbt11, .i32⟩ : BufTy).Contents (Elt F) :=
  let z : (⟨Sbt1, .i32⟩ : BufTy).Contents (Elt F) := broadcastInDim Sbt1 ![] hf.bc_0_bt1 (constantI S0 32 0#32)
  let neg : (⟨Sbt1, .i1⟩ : BufTy).Contents (Elt F) := cmpi .slt i1 z
  let v : (⟨Sbt1, .i32⟩ : BufTy).Contents (Elt F) := broadcastInDim Sbt1 ![] hf.bc_0_bt1 (constantI S0 32 32000#32)
  shapeCast Sbt11 (select neg (addi i1 v) i1) hf.sc_bt1_bt11

/-- Where the moved id lies in [0, 31999]. -/
def pickOk1 (hf : Cert.Shared.ShapeFacts) (i1 : (⟨Sbt1, .i32⟩ : BufTy).Contents (Elt F)) : (⟨Sbt1, .i1⟩ : BufTy).Contents (Elt F) :=
  let j := pickIdx1 hf i1
  let ge : (⟨Sbt11, .i1⟩ : BufTy).Contents (Elt F) := cmpi .sge j (broadcastInDim Sbt11 ![] hf.bc_0_bt11 (constantI S0 32 0#32))
  let hi : (⟨Sbt11, .i32⟩ : BufTy).Contents (Elt F) :=
    broadcastInDim Sbt11 ![0, 1, 2, 3] hf.bc_1111_bt11 (broadcastInDim S1111 ![3] hf.bc_1_1111 (constantI Cert.Shared.S1 32 31999#32))
  let le : (⟨Sbt11, .i1⟩ : BufTy).Contents (Elt F) := cmpi .sle j hi
  Host.reduce IntOp.andi (andi ge le) (constantI S0 1 1#1) hf.red_bt11_bt1 hf.pos0

/-- One vocabulary entry per token with its trailing unit axis, the fill value where the id is out of range. -/
def pick1 (hf : Cert.Shared.ShapeFacts) (x : (⟨Sbtv, .f32⟩ : BufTy).Contents (Elt F)) (i1 : (⟨Sbt1, .i32⟩ : BufTy).Contents (Elt F)) :
    (⟨Sbt1, .f32⟩ : BufTy).Contents (Elt F) :=
  let g : (⟨Sbt1, .f32⟩ : BufTy).Contents (Elt F) := Host.gather (Cert.Shared.pickDims hf) x (pickIdx1 hf i1)
  let fill : (⟨Sbt1, .f32⟩ : BufTy).Contents (Elt F) := broadcastInDim Sbt1 ![] hf.bc_0_bt1 (constant S0 .f32 0x7FC00000#32)
  select (pickOk1 hf i1) g fill

/-- The shared pick is this one at the broadcast ids, with the unit axis dropped. -/
theorem pick1_eq (hf : Cert.Shared.ShapeFacts) (x : (⟨Sbtv, .f32⟩ : BufTy).Contents (Elt F)) (ids : (⟨Sbt, .i32⟩ : BufTy).Contents (Elt F)) :
    shapeCast Sbt (pick1 hf x (broadcastInDim Sbt1 ![0, 1] hf.bc_bt_bt1 ids)) hf.sc_bt1_bt = Cert.Shared.pick hf x ids := rfl

/-! ## Each stretch's result, over any contents `W` of the buffers it is entered with -/

set_option maxHeartbeats 2000000 in
/-- The first stretch: the token ids given a trailing unit axis. -/
theorem stretch_ids (W : Valuation τ sig (Elt F)) :
    StableHlo.after (hostOps1 (F := F)) W (Proc.devRef .tc main_v1)
      = broadcastInDim S32x128x1 ![0, 1] bcast_S32x128_S32x128x1_0_1 (W (Proc.devRef .tc main_arg1)) := by
  after_results

set_option maxHeartbeats 4000000 in
/-- The second stretch: the pick of one logit per token, still with its unit axis. -/
theorem stretch_pick (W : Valuation τ sig (Elt F)) :
    StableHlo.after (hostOps1_1 (F := F)) W (Proc.devRef .tc main_v2)
      = pick1 kiShapeFacts (W (Proc.devRef .tc main_arg3)) (W (Proc.devRef .tc main_v1)) := by
  after_results
  rfl

set_option maxHeartbeats 2000000 in
/-- The third stretch: the report half of the tail, from the first region's array and the pick. -/
theorem stretch_report (W : Valuation τ sig (Elt F)) :
    StableHlo.after (hostOps1_2 (F := F)) W (Proc.devRef .tc main_v9)
      = mulf (Host.divf
          (Host.reduceAdd (mulf (subf (W (Proc.devRef .tc main_v0)) (shapeCast S32x128 (W (Proc.devRef .tc main_v2)) shapeCasts_S32x128x1_S32x128))
            (W (Proc.devRef .tc main_arg5))) (constant S_ .f32 0x00000000#32) reducesTo_S32x128_S_d0_1 h_S_)
          (Host.reduceAdd (W (Proc.devRef .tc main_arg5)) (constant S_ .f32 0x00000000#32) reducesTo_S32x128_S_d0_1 h_S_))
        (W (Proc.devRef .tc main_arg7)) := by
  after_results
  rfl

set_option maxHeartbeats 2000000 in
/-- The last stretch: the image half, added to the report half. -/
theorem stretch_sum (W : Valuation τ sig (Elt F)) :
    StableHlo.after (hostOps2 (F := F)) W (Proc.devRef .tc main_v16)
      = addf (W (Proc.devRef .tc main_v9))
          (mulf (Host.divf
            (Host.reduceAdd (mulf (W (Proc.devRef .tc main_v10)) (W (Proc.devRef .tc main_arg4))) (constant S_ .f32 0x00000000#32) reducesTo_S32x196_S_d0_1 h_S_)
            (Host.reduceAdd (W (Proc.devRef .tc main_arg4)) (constant S_ .f32 0x00000000#32) reducesTo_S32x196_S_d0_1 h_S_))
          (W (Proc.devRef .tc main_arg6))) := by
  after_results

/-! ## The valuations read at the buffers the stretches read -/

section
variable (m : (ℓ : Loc nD τ sig) → Buf (Elt F) ℓ)

theorem V1_arg1 (c : Dev nD) : V1 m (outs m) c main_arg1 = m ((c : Thread nD τ).loc main_arg1) :=
  (V1_of m (outs m) c main_arg1 (by decide)).trans rfl
theorem V2_arg3 (c : Dev nD) : V2 m (outs m) c main_arg3 = m ((c : Thread nD τ).loc main_arg3) :=
  (V2_of m (outs m) c main_arg3 (by decide)).trans <| (V1_of m (outs m) c main_arg3 (by decide)).trans rfl
theorem V3_arg5 (c : Dev nD) : V3 m (outs m) c main_arg5 = m ((c : Thread nD τ).loc main_arg5) :=
  (V3_of m (outs m) c main_arg5 (by decide)).trans <| (V2_of m (outs m) c main_arg5 (by decide)).trans <| (V1_of m (outs m) c main_arg5 (by decide)).trans rfl
theorem V3_arg7 (c : Dev nD) : V3 m (outs m) c main_arg7 = m ((c : Thread nD τ).loc main_arg7) :=
  (V3_of m (outs m) c main_arg7 (by decide)).trans <| (V2_of m (outs m) c main_arg7 (by decide)).trans <| (V1_of m (outs m) c main_arg7 (by decide)).trans rfl
theorem V5_arg4 (c : Dev nD) : V5 m (outs m) c main_arg4 = m ((c : Thread nD τ).loc main_arg4) :=
  (V5_of m (outs m) c main_arg4 (by decide)).trans <| (V4_of m (outs m) c main_arg4 (by decide)).trans <| (V3_of m (outs m) c main_arg4 (by decide)).trans <| (V2_of m (outs m) c main_arg4 (by decide)).trans <| (V1_of m (outs m) c main_arg4 (by decide)).trans rfl
theorem V5_arg6 (c : Dev nD) : V5 m (outs m) c main_arg6 = m ((c : Thread nD τ).loc main_arg6) :=
  (V5_of m (outs m) c main_arg6 (by decide)).trans <| (V4_of m (outs m) c main_arg6 (by decide)).trans <| (V3_of m (outs m) c main_arg6 (by decide)).trans <| (V2_of m (outs m) c main_arg6 (by decide)).trans <| (V1_of m (outs m) c main_arg6 (by decide)).trans rfl

/-- The first region's array reaches the third stretch untouched. -/
theorem V3_v0 (c : Dev nD) : V3 m (outs m) c main_v0 = after0 m c main_v0 :=
  (V3_of m (outs m) c main_v0 (by decide)).trans <| (V2_of m (outs m) c main_v0 (by decide)).trans (by simp only [V1, Function.update_self]; rfl)

/-- The second region's array is what the last stretch reads. -/
theorem V5_v10 (c : Dev nD) : V5 m (outs m) c main_v10 = after1 m c main_v10 := by
  simp only [V5, Function.update_self]; rfl

/-- The ids with their unit axis. -/
theorem V2_v1 (c : Dev nD) : V2 m (outs m) c main_v1
    = broadcastInDim S32x128x1 ![0, 1] bcast_S32x128_S32x128x1_0_1 (m ((c : Thread nD τ).loc main_arg1)) := by
  refine (stretch_ids (V1 m (outs m) c)).trans ?_
  rw [V1_arg1 m c]

/-- The picked logits, with their unit axis. -/
theorem V3_v2 (c : Dev nD) : V3 m (outs m) c main_v2
    = pick1 kiShapeFacts (m ((c : Thread nD τ).loc main_arg3)) (broadcastInDim S32x128x1 ![0, 1] bcast_S32x128_S32x128x1_0_1 (m ((c : Thread nD τ).loc main_arg1))) := by
  refine (stretch_pick (V2 m (outs m) c)).trans ?_
  rw [V2_arg3 m c, V2_v1 m c]

/-- The per-token cross entropy: the first region's array less the picked logits. -/
abbrev kiCe (c : Dev nD) : (⟨Sbt, .f32⟩ : BufTy).Contents (Elt F) :=
  (subf : (⟨Sbt, .f32⟩ : BufTy).Contents (Elt F) → (⟨Sbt, .f32⟩ : BufTy).Contents (Elt F) → (⟨Sbt, .f32⟩ : BufTy).Contents (Elt F))
    (after0 m c main_v0) (Cert.Shared.pick kiShapeFacts (m ((c : Thread nD τ).loc main_arg3)) (m ((c : Thread nD τ).loc main_arg1)))

/-- The report half of the tail. -/
theorem V4_v9 (c : Dev nD) : V4 m (outs m) c main_v9
    = mulf (Host.divf
        (Host.reduceAdd (mulf (kiCe m c) (m ((c : Thread nD τ).loc main_arg5))) (constant S_ .f32 0x00000000#32) reducesTo_S32x128_S_d0_1 h_S_)
        (Host.reduceAdd (m ((c : Thread nD τ).loc main_arg5)) (constant S_ .f32 0x00000000#32) reducesTo_S32x128_S_d0_1 h_S_))
      (m ((c : Thread nD τ).loc main_arg7)) := by
  refine (stretch_report (V3 m (outs m) c)).trans ?_
  rw [V3_v0 m c, V3_v2 m c, V3_arg5 m c, V3_arg7 m c]
  rfl

/-- THE PROGRAM'S RESULT is the shared tail of the cross entropy and the second region's array. -/
theorem host_result (c : Dev nD) :
    V6 m (outs m) c main_v16
      = Cert.Shared.tail kiShapeFacts (kiCe m c) (after1 m c main_v10)
          (m ((c : Thread nD τ).loc main_arg4)) (m ((c : Thread nD τ).loc main_arg5))
          (m ((c : Thread nD τ).loc main_arg6)) (m ((c : Thread nD τ).loc main_arg7)) := by
  refine (stretch_sum (V5 m (outs m) c)).trans ?_
  rw [V5_v10 m c, V5_arg4 m c, V5_arg6 m c, V5_of m (outs m) c main_v9 (by decide), V4_v9 m c]
  rfl

end

/-! ## The run, read -/

section
variable (m : (ℓ : Loc nD τ sig) → Buf (Elt F) ℓ) (ρ : Dev nD → PrngReg)

/-- Every weakly fair execution of the program terminates with the result at the shared tail and the arguments unchanged. -/
theorem run_result : θ_run defs (onTc (τ := τ) (main (F := F))) ⟨m, fun _ => 0, ρ⟩ (fun r => ∀ c : Dev nD,
      r.2.mem ((c.tc : Thread nD τ).loc main_v16)
        = Cert.Shared.tail kiShapeFacts (kiCe m c) (after1 m c main_v10)
            (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨(h c _ (mem_uc main_v16 (by decide))).trans (host_result m c),
     (h c _ (mem_uc main_arg0 (by decide))).trans (V6_main_arg0 m (outs m) c),
     (h c _ (mem_uc main_arg1 (by decide))).trans (V6_main_arg1 m (outs m) c),
     (h c _ (mem_uc main_arg2 (by decide))).trans (V6_main_arg2 m (outs m) c),
     (h c _ (mem_uc main_arg3 (by decide))).trans (V6_main_arg3 m (outs m) c),
     (h c _ (mem_uc main_arg4 (by decide))).trans (V6_main_arg4 m (outs m) c),
     (h c _ (mem_uc main_arg5 (by decide))).trans (V6_main_arg5 m (outs m) c),
     (h c _ (mem_uc main_arg6 (by decide))).trans (V6_main_arg6 m (outs m) c),
     (h c _ (mem_uc main_arg7 (by decide))).trans (V6_main_arg7 m (outs m) c),
     (h c _ (mem_uc main_arg8 (by decide))).trans (V6_main_arg8 m (outs m) c),
     (h c _ (mem_uc main_arg9 (by decide))).trans (V6_main_arg9 m (outs m) c),
     (h c _ (mem_uc main_arg10 (by decide))).trans (V6_main_arg10 m (outs m) c)⟩) (run_all m ρ)

/-- The second region finds the two image arrays as launched: no earlier item writes an argument. -/
theorem entry1_arg0 (c : Dev nD) : entry1 m c main_arg0 = m ((c : Thread nD τ).loc main_arg0) :=
  (V4_of m (outsA m) c main_arg0 (by decide)).trans <| (V3_of m (outsA m) c main_arg0 (by decide)).trans <| (V2_of m (outsA m) c main_arg0 (by decide)).trans <| (V1_of m (outsA m) c main_arg0 (by decide)).trans rfl
theorem entry1_arg2 (c : Dev nD) : entry1 m c main_arg2 = m ((c : Thread nD τ).loc main_arg2) :=
  (V4_of m (outsA m) c main_arg2 (by decide)).trans <| (V3_of m (outsA m) c main_arg2 (by decide)).trans <| (V2_of m (outsA m) c main_arg2 (by decide)).trans <| (V1_of m (outsA m) c main_arg2 (by decide)).trans rfl

end

/-! ## The two regions' arrays, named -/

section
variable (m : (ℓ : Loc nD τ sig) → Buf (Elt Ideal) ℓ)

/-- The first region's array is what its write-backs fold to. -/
theorem lse_named (c : Dev nD) : after0 (F := Ideal) m c main_v0 = (lseDat (entry0 m) c).arrAt 1 cfg0.N :=
  after0_arr m c 1

/-- The second region's array is the array of per-patch mean squared errors of the launched images. -/
theorem mse_named (c : Dev nD) :
    after1 (F := Ideal) m c main_v10 = mseArr (fun c b => m ((c.tc : Thread nD τ).loc b)) c := by
  refine (after1_arr m c 2).trans ?_
  rw [mseArray_eq (entry1 m) c]
  unfold mseArr
  rw [entry1_arg0 m c, entry1_arg2 m c]

end

end Cert.KernelIdeal.Hand

end
-- ==== Proof.FiniteLogits.lean ====
/-
  Every logit is a real number.

  The stated precondition is one truth value: the conjunction, over the eleven arrays it is given, of "every entry
  x of the array has |x| < +∞" (for each array an all-reduction by "and" of the entrywise comparison, the ten
  results joined by "and").  The conjunction being true makes each all-reduction true, an all-reduction being true
  makes every entry's comparison true, and max(x, -x) < +∞ on the extended reals rules out x = -∞ (then -x = +∞) and
  x = +∞: x is a real number.  Read for the array of logits.
-/
import proofs.«151323_j54468775248230_1_alg».proof.Pre_finite_inputs
import Idealize.ShloMosaic.Lib.ReduceAll
import Idealize.ShloMosaic.PureOps.Ideal

namespace Cert.FiniteLogits

open Idealize.ShloMosaic Cert.Pre_finite_inputs

/-- The shape with no axes has exactly one index. -/
instance : Subsingleton S_.Idx := ⟨fun a b => funext fun d => d.elim0⟩

/-- A truth value written as a one-bit word is the word 1 exactly when it is true. -/
theorem ofBool_eq_one (b : Bool) : BitVec.ofBool b = 1#1 ↔ b = true := by cases b <;> decide

/-- An extended real x with max(x, -x) < +∞ is a real number. -/
theorem real_of_abs_lt_top (v : EReal) (hv : max v (-v) < (⊤ : EReal)) : ∃ r : ℝ, v = (r : EReal) := by
  induction v using EReal.rec with
  | bot => exact absurd hv (by simp)
  | top => exact absurd hv (by simp)
  | coe r => exact ⟨r, rfl⟩

/-- If the precondition holds (its one truth value is 1), every entry of the fourth array, the logits, is a real
    number. -/
theorem logits_real [Facts]
    (a0 : FVec Ideal S32x196x768 .f32) (a1 : IVec S32x128 32) (a2 : FVec Ideal S32x196x768 .f32)
    (a3 : FVec Ideal S32x128x32000 .f32) (a4 : FVec Ideal S32x196 .f32) (a5 : FVec Ideal S32x128 .f32)
    (a6 a7 : FVec Ideal S_ .f32) (a8 a9 : FVec Ideal S32x14 .f32) (a10 : FVec Ideal S32x128 .f32)
    (h : fn (F := Ideal) a0 a1 a2 a3 a4 a5 a6 a7 a8 a9 a10 = fun _ => 1#1) :
    ∀ i, ∃ r : ℝ, a3 i = (r : EReal) := by
  intro i
  have h0 := congrFun h (fun d => d.elim0)
  dsimp only [fn, fn_part1, fn_part2, andi] at h0
  have e := (IntOp.andi_eq_one.1 (IntOp.andi_eq_one.1 (IntOp.andi_eq_one.1 (IntOp.andi_eq_one.1 (IntOp.andi_eq_one.1
    (IntOp.andi_eq_one.1 (IntOp.andi_eq_one.1 (IntOp.andi_eq_one.1 h0).1).1).1).1).1).1).1).2
  have ei := Host.reduce_andi_all _ _ _ _ _ e i
  have ht : Ideal.ofBits .f32 0x7F800000#32 = (⊤ : EReal) := by simp [Ideal.ofBits, Ideal.ieee]
  have hc : Ideal.cmp .olt (max (a3 i) (-(a3 i))) (Ideal.ofBits .f32 0x7F800000#32) = 1#1 := ei
  rw [ht] at hc
  dsimp only [Ideal.cmp] at hc
  have hlt : max (a3 i) (-(a3 i)) < (⊤ : EReal) := of_decide_eq_true ((ofBool_eq_one _).1 hc)
  exact real_of_abs_lt_top (a3 i) hlt

end Cert.FiniteLogits
-- ==== Proof.Bridge.lean ====
/-
  The algebraic claim.  The kernel's program ends with its result at the shared tail of (streamed log-sum-exp minus the
  picked logit, the second region's mean squared error); the reference ends at the shared tail of (minus the picked
  log-softmax, its own mean squared error).  From memories that agree on the arguments, and logits that are real numbers
  by the precondition, the two cross entropies and the two mean squared errors are equal pointwise, so the tails are.
-/
import proofs.«151323_j54468775248230_1_alg».proof.Defs
import proofs.«151323_j54468775248230_1_alg».proof.Proof.BridgeCe
import proofs.«151323_j54468775248230_1_alg».proof.Proof.KIHost
import proofs.«151323_j54468775248230_1_alg».proof.Proof.FiniteLogits
import proofs.«151323_j54468775248230_1_alg».proof.Proof.Gen.Pre_finite_inputs

noncomputable section

namespace Cert.Bridge

open Cert.Shared Cert.StreamLse Idealize.ShloMosaic Idealize.SL.Sem Idealize.ShloMosaic.TcCoe Idealize.ShloMosaic.ValueIdx

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨_, Cert.KernelIdeal.Hand.run_result m ρ, ?_⟩
  refine (θ_run (Cert.ReferenceIdeal.defs (F := Ideal)) _ _).mono (fun _ h c => ⟨(h c).1.trans ?_, (h c).2⟩)
    (Cert.RefSide.run m' ρ')
  obtain ⟨e0, e1, e2, e3, e4, e5, e6, e7, -, -, -⟩ := hagree c
  have hreal := Cert.FiniteLogits.logits_real _ _ _ _ _ _ _ _ _ _ _ (hpre c)
  unfold Cert.RefSide.result Cert.KernelIdeal.Hand.kiCe
  rw [e0, e1, e2, e3, e4, e5, e6, e7]
  rw [Cert.KernelIdeal.Hand.lse_named, Cert.KernelIdeal.Hand.mse_named]
  rw [ce_eq Cert.KernelIdeal.Hand.kiShapeFacts Cert.RefSide.shapeFacts _ _ hreal _
    (fun b t => Cert.KernelIdeal.Hand.lseArray_apply (Cert.KernelIdeal.Hand.entry0 m) c b t)]
  rw [← mse_eq]
  unfold Cert.KernelIdeal.Hand.mseArr
  rfl

end Cert.Bridge

end
-- ==== Proof.lean ====
/-
  The masked cross-entropy + masked mean-squared-error loss: a Pallas program against its jnp reference.

  Inputs: logits x : [32,128,32000], token ids, two image arrays [32,196,768], two masks, two scalar weights (and three
  arrays neither program reads).  The result is one scalar,
      (Σ ce·rmask / Σ rmask)·rweight + (Σ mse·imask / Σ imask)·iweight,
  where ce[b,t] is the cross entropy of the logits of token (b,t) at its id and mse[b,l] the mean over the 768 features
  of the squared difference of the two images at patch (b,l).

  The kernel's program computes log Σ_v exp x[b,t,v] in a first Pallas region that STREAMS over the vocabulary: 25
  tiles of 1280 entries, keeping per (b,t) a running maximum m and a running sum l of exp (x - m), rescaled by
  exp (m_old - m_new) whenever the maximum grows; at the last tile it stores m + log l.  On the host it subtracts the
  logit picked at the token id.  A second Pallas region computes mse block by block.  The reference computes the
  log-softmax of the logits (row maximum, shifted exponentials, their sum, its logarithm), picks ITS entry at the token
  id and negates; mse on the host.  Both then run the same masked means.

  At the ideal instance (floats are extended reals, operations exact) and for finite inputs the two cross entropies are
  equal: for real logits the streamed pair after all tiles is (M, Σ exp (x - M)) with M the row maximum — exp a · exp b
  = exp (a + b) and distributing the rescaling over a finite sum, both valid on the reals — so the kernel's
  (M + log S) - x_i is the reference's -((x_i - M) - log S).  An id out of range makes both programs pick the fill
  pattern, which reads as the bottom element: (M + log S) - ⊥ = ⊤ = -⊥.  The two mean squared errors are the same sum
  divided by the same constant.  Hence the results agree.

  The frames: each kernel program terminates on every weakly fair schedule without faulting and leaves its arguments
  unchanged — proved once for any float instance, over the two regions' pipelines; the first region's invariant carries
  the two scratch buffers from grid point to grid point.  The reference is a straight line of host operations.
  The kernel's idealization rewrites nothing, so that conjunct is trivial.
-/
import proofs.«151323_j54468775248230_1_alg».proof.Defs
import proofs.«151323_j54468775248230_1_alg».proof.Proof.Gen.Kernel
import proofs.«151323_j54468775248230_1_alg».proof.Proof.Gen.KernelIdeal
import proofs.«151323_j54468775248230_1_alg».proof.Proof.Gen.ReferenceIdeal
import proofs.«151323_j54468775248230_1_alg».proof.Proof.Gen.Pre_finite_inputs
import proofs.«151323_j54468775248230_1_alg».proof.Proof.KRun
import proofs.«151323_j54468775248230_1_alg».proof.Proof.KIRun
import proofs.«151323_j54468775248230_1_alg».proof.Proof.Bridge

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame m ρ,
    fun m ρ _ => Cert.KernelIdeal.Hand.frame m ρ,
    Cert.RefSide.frame,
    trivial,
    Cert.Bridge.algebraic⟩

end Cert.Proof

end
